-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40960 : Shape := ⟨1, ![40960]⟩
abbrev S8192 : Shape := ⟨1, ![8192]⟩
abbrev S1024 : Shape := ⟨1, ![1024]⟩
abbrev S4096 : Shape := ⟨1, ![4096]⟩
abbrev S1024x8192 : Shape := ⟨2, ![1024, 8192]⟩
abbrev S4096x40960 : Shape := ⟨2, ![4096, 40960]⟩
abbrev S100000x128 : Shape := ⟨2, ![100000, 128]⟩
abbrev S256x128 : Shape := ⟨2, ![256, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S_ : Shape := ⟨0, ![]⟩

class Facts : Prop where
  bcast_S_S1024x8192 : S_.BroadcastsInDim S1024x8192 (![] : Fin 0 → Fin S1024x8192.rank)
  reducesTo_S1024x8192_S_d0_1 : S1024x8192.ReducesTo [0, 1] S_
  h_S_ : 0 < S_.numel
  bcast_S_S4096x40960 : S_.BroadcastsInDim S4096x40960 (![] : Fin 0 → Fin S4096x40960.rank)
  reducesTo_S4096x40960_S_d0_1 : S4096x40960.ReducesTo [0, 1] S_
  bcast_S_S100000x128 : S_.BroadcastsInDim S100000x128 (![] : Fin 0 → Fin S100000x128.rank)
  reducesTo_S100000x128_S_d0_1 : S100000x128.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg19 : FVec F S1 .f32) (main_v63 : IVec S_ 1) (main_v67 : IVec S_ 1) : IVec S_ 1 :=
  let main_v68 : IVec S_ 1 := andi main_v63 main_v67
  let main_v69 : FVec F S1 .f32 := Host.absf main_arg19
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg16 : FVec F S16x8 .f32) (main_arg17 : FVec F S8 .f32) (main_arg18 : FVec F S8x1 .f32) (main_arg19 : FVec F S1 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x8 .f32 := Host.absf main_arg16
  let main_cst_20 : FVec F S_ .f32 := constant S_ .f32 0x7F800000#32
  let main_v55 : FVec F S16x8 .f32 := broadcastInDim S16x8 ![] bcast_S_S16x8 main_cst_20
  let main_v56 : IVec S16x8 1 := cmpf .olt main_v54 main_v55
  let main_c_21 : IVec S_ 1 := constantI S_ 1 1#1
  let main_v57 : IVec S_ 1 := (fun x v => Host.reduce IntOp.andi x v reducesTo_S16x8_S_d0_1 h_S_) main_v56 main_c_21
  let main_v58 : IVec S_ 1 := andi main_v53 main_v57
  let main_v59 : FVec F S8 .f32 := Host.absf main_arg17
  let main_cst_22 : FVec F S_ .f32 := constant S_ .f32 0x7F800000#32
  let main_v60 : FVec F S8 .f32 := broadcastInDim S8 ![] bcast_S_S8 main_cst_22
  let main_v61 : IVec S8 1 := cmpf .olt main_v59 main_v60
  let main_c_23 : IVec S_ 1 := constantI S_ 1 1#1
  let main_v62 : IVec S_ 1 := (fun x v => Host.reduce IntOp.andi x v reducesTo_S8_S_d0 h_S_) main_v61 main_c_23
  let main_v63 : IVec S_ 1 := andi main_v58 main_v62
  let main_v64 : FVec F S8x1 .f32 := Host.absf main_arg18
  let main_cst_24 : FVec F S_ .f32 := constant S_ .f32 0x7F800000#32
  let main_v65 : FVec F S8x1 .f32 := broadcastInDim S8x1 ![] bcast_S_S8x1 main_cst_24
  let main_v66 : IVec S8x1 1 := cmpf .olt main_v64 main_v65
  let main_c_25 : IVec S_ 1 := constantI S_ 1 1#1
  let main_v67 : IVec S_ 1 := (fun x v => Host.reduce IntOp.andi x v reducesTo_S8x1_S_d0_1 h_S_) main_v66 main_c_25
  fn_part4 (F := F) main_arg19 main_v63 main_v67

def fn_part2 {F : FTy → Type} [FloatOps F] (main_arg12 : FVec F S64x32 .f32) (main_arg13 : FVec F S32 .f32) (main_arg14 : FVec F S32x16 .f32) (main_arg15 : FVec F S16 .f32) (main_arg16 : FVec F S16x8 .f32) (main_arg17 : FVec F S8 .f32) (main_arg18 : FVec F S8x1 .f32) (main_arg19 : FVec F S1 .f32) (main_v33 : IVec S_ 1) : IVec S_ 1 :=
  let main_v34 : FVec F S64x32 .f32 := Host.absf main_arg12
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg13
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x16 .f32 := Host.absf main_arg14
  let main_cst_16 : FVec F S_ .f32 := constant S_ .f32 0x7F800000#32
  let main_v45 : FVec F S32x16 .f32 := broadcastInDim S32x16 ![] bcast_S_S32x16 main_cst_16
  let main_v46 : IVec S32x16 1 := cmpf .olt main_v44 main_v45
  let main_c_17 : IVec S_ 1 := constantI S_ 1 1#1
  let main_v47 : IVec S_ 1 := (fun x v => Host.reduce IntOp.andi x v reducesTo_S32x16_S_d0_1 h_S_) main_v46 main_c_17
  let main_v48 : IVec S_ 1 := andi main_v43 main_v47
  let main_v49 : FVec F S16 .f32 := Host.absf main_arg15
  let main_cst_18 : FVec F S_ .f32 := constant S_ .f32 0x7F800000#32
  let main_v50 : FVec F S16 .f32 := broadcastInDim S16 ![] bcast_S_S16 main_cst_18
  fn_part3 (F := F) main_arg16 main_arg17 main_arg18 main_arg19 main_v48 main_v49 main_v50

def fn_part1 {F : FTy → Type} [FloatOps F] (main_arg9 : FVec F S256x128 .f32) (main_arg10 : FVec F S128x64 .f32) (main_arg11 : FVec F S64 .f32) (main_arg12 : FVec F S64x32 .f32) (main_arg13 : FVec F S32 .f32) (main_arg14 : FVec F S32x16 .f32) (main_arg15 : FVec F S16 .f32) (main_arg16 : FVec F S16x8 .f32) (main_arg17 : FVec F S8 .f32) (main_arg18 : FVec F S8x1 .f32) (main_arg19 : FVec F S1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x128 .f32 := Host.absf main_arg9
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128x64 .f32 := Host.absf main_arg10
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg11
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg12 main_arg13 main_arg14 main_arg15 main_arg16 main_arg17 main_arg18 main_arg19 main_v33

def fn {F : FTy → Type} [FloatOps F] (main_arg0 : IVec S40960 32) (main_arg1 : IVec S8192 32) (main_arg2 : IVec S40960 32) (main_arg3 : IVec S1024 32) (main_arg4 : IVec S4096 32) (main_arg5 : FVec F S1024x8192 .f32) (main_arg6 : FVec F S4096x40960 .f32) (main_arg7 : FVec F S100000x128 .f32) (main_arg8 : FVec F S256x128 .f32) (main_arg9 : FVec F S256x128 .f32) (main_arg10 : FVec F S128x64 .f32) (main_arg11 : FVec F S64 .f32) (main_arg12 : FVec F S64x32 .f32) (main_arg13 : FVec F S32 .f32) (main_arg14 : FVec F S32x16 .f32) (main_arg15 : FVec F S16 .f32) (main_arg16 : FVec F S16x8 .f32) (main_arg17 : FVec F S8 .f32) (main_arg18 : FVec F S8x1 .f32) (main_arg19 : FVec F S1 .f32) : IVec S_ 1 :=
  let main_v0 : FVec F S1024x8192 .f32 := Host.absf main_arg5
  let main_cst : FVec F S_ .f32 := constant S_ .f32 0x7F800000#32
  let main_v1 : FVec F S1024x8192 .f32 := broadcastInDim S1024x8192 ![] bcast_S_S1024x8192 main_cst
  let main_v2 : IVec S1024x8192 1 := cmpf .olt main_v0 main_v1
  let main_c : IVec S_ 1 := constantI S_ 1 1#1
  let main_v3 : IVec S_ 1 := (fun x v => Host.reduce IntOp.andi x v reducesTo_S1024x8192_S_d0_1 h_S_) main_v2 main_c
  let main_v4 : FVec F S4096x40960 .f32 := Host.absf main_arg6
  let main_cst_0 : FVec F S_ .f32 := constant S_ .f32 0x7F800000#32
  let main_v5 : FVec F S4096x40960 .f32 := broadcastInDim S4096x40960 ![] bcast_S_S4096x40960 main_cst_0
  let main_v6 : IVec S4096x40960 1 := cmpf .olt main_v4 main_v5
  let main_c_1 : IVec S_ 1 := constantI S_ 1 1#1
  let main_v7 : IVec S_ 1 := (fun x v => Host.reduce IntOp.andi x v reducesTo_S4096x40960_S_d0_1 h_S_) main_v6 main_c_1
  let main_v8 : IVec S_ 1 := andi main_v3 main_v7
  let main_v9 : FVec F S100000x128 .f32 := Host.absf main_arg7
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S256x128 .f32 := Host.absf main_arg8
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg9 main_arg10 main_arg11 main_arg12 main_arg13 main_arg14 main_arg15 main_arg16 main_arg17 main_arg18 main_arg19 main_v13 main_v16
-- ==== Kernel.lean ====
abbrev S40960 : Shape := ⟨1, ![40960]⟩
abbrev S8192 : Shape := ⟨1, ![8192]⟩
abbrev S1024 : Shape := ⟨1, ![1024]⟩
abbrev S4096 : Shape := ⟨1, ![4096]⟩
abbrev S1024x8192 : Shape := ⟨2, ![1024, 8192]⟩
abbrev S4096x40960 : Shape := ⟨2, ![4096, 40960]⟩
abbrev S100000x128 : Shape := ⟨2, ![100000, 128]⟩
abbrev S256x128 : Shape := ⟨2, ![256, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S_ : Shape := ⟨0, ![]⟩
abbrev S40960x1 : Shape := ⟨2, ![40960, 1]⟩
abbrev S40960x128 : Shape := ⟨2, ![40960, 128]⟩
abbrev S4096x1 : Shape := ⟨2, ![4096, 1]⟩
abbrev S4096x128 : Shape := ⟨2, ![4096, 128]⟩
abbrev S128x128 : Shape := ⟨2, ![128, 128]⟩
abbrev S512x2048 : Shape := ⟨2, ![512, 2048]⟩
abbrev S512x128 : Shape := ⟨2, ![512, 128]⟩
abbrev S2048x128 : Shape := ⟨2, ![2048, 128]⟩
abbrev S1024x1 : Shape := ⟨2, ![1024, 1]⟩
abbrev S1024x128 : Shape := ⟨2, ![1024, 128]⟩
abbrev S8192x1 : Shape := ⟨2, ![8192, 1]⟩
abbrev S8192x128 : Shape := ⟨2, ![8192, 128]⟩
abbrev S1024x64 : Shape := ⟨2, ![1024, 64]⟩
abbrev S1x64 : Shape := ⟨2, ![1, 64]⟩
abbrev S1024x32 : Shape := ⟨2, ![1024, 32]⟩
abbrev S1x32 : Shape := ⟨2, ![1, 32]⟩
abbrev S1024x16 : Shape := ⟨2, ![1024, 16]⟩
abbrev S1x16 : Shape := ⟨2, ![1, 16]⟩
abbrev S1024x8 : Shape := ⟨2, ![1024, 8]⟩
abbrev S1x8 : Shape := ⟨2, ![1, 8]⟩
abbrev S1x1 : Shape := ⟨2, ![1, 1]⟩

abbrev nBuf : Space → Nat
  | .hbm => 125
  | .vmem => 20
  | .smem => 0
  | _ => 0

abbrev bufTy : (tb : Table) → Fin (tcTables nBuf tb) → BufTy
  | .hbm, ⟨0, _⟩ => ⟨S40960, .i32⟩
  | .hbm, ⟨1, _⟩ => ⟨S8192, .i32⟩
  | .hbm, ⟨2, _⟩ => ⟨S40960, .i32⟩
  | .hbm, ⟨3, _⟩ => ⟨S1024, .i32⟩
  | .hbm, ⟨4, _⟩ => ⟨S4096, .i32⟩
  | .hbm, ⟨5, _⟩ => ⟨S1024x8192, .f32⟩
  | .hbm, ⟨6, _⟩ => ⟨S4096x40960, .f32⟩
  | .hbm, ⟨7, _⟩ => ⟨S100000x128, .f32⟩
  | .hbm, ⟨8, _⟩ => ⟨S256x128, .f32⟩
  | .hbm, ⟨9, _⟩ => ⟨S256x128, .f32⟩
  | .hbm, ⟨10, _⟩ => ⟨S128x64, .f32⟩
  | .hbm, ⟨11, _⟩ => ⟨S64, .f32⟩
  | .hbm, ⟨12, _⟩ => ⟨S64x32, .f32⟩
  | .hbm, ⟨13, _⟩ => ⟨S32, .f32⟩
  | .hbm, ⟨14, _⟩ => ⟨S32x16, .f32⟩
  | .hbm, ⟨15, _⟩ => ⟨S16, .f32⟩
  | .hbm, ⟨16, _⟩ => ⟨S16x8, .f32⟩
  | .hbm, ⟨17, _⟩ => ⟨S8, .f32⟩
  | .hbm, ⟨18, _⟩ => ⟨S8x1, .f32⟩
  | .hbm, ⟨19, _⟩ => ⟨S1, .f32⟩
  | .hbm, ⟨20, _⟩ => ⟨S_, .i32⟩
  | .hbm, ⟨21, _⟩ => ⟨S40960, .i32⟩
  | .hbm, ⟨22, _⟩ => ⟨S40960, .i1⟩
  | .hbm, ⟨23, _⟩ => ⟨S_, .i32⟩
  | .hbm, ⟨24, _⟩ => ⟨S40960, .i32⟩
  | .hbm, ⟨25, _⟩ => ⟨S40960, .i32⟩
  | .hbm, ⟨26, _⟩ => ⟨S40960, .i32⟩
  | .hbm, ⟨27, _⟩ => ⟨S40960x1, .i32⟩
  | .hbm, ⟨28, _⟩ => ⟨S40960x128, .f32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096x1, .i32⟩
  | .hbm, ⟨37, _⟩ => ⟨S4096x128, .f32⟩
  | .hbm, ⟨38, _⟩ => ⟨S_, .i32⟩
  | .hbm, ⟨39, _⟩ => ⟨S40960, .i32⟩
  | .hbm, ⟨40, _⟩ => ⟨S40960, .i1⟩
  | .hbm, ⟨41, _⟩ => ⟨S_, .i32⟩
  | .hbm, ⟨42, _⟩ => ⟨S40960, .i32⟩
  | .hbm, ⟨43, _⟩ => ⟨S40960, .i32⟩
  | .hbm, ⟨44, _⟩ => ⟨S40960, .i32⟩
  | .hbm, ⟨45, _⟩ => ⟨S40960x1, .i32⟩
  | .hbm, ⟨46, _⟩ => ⟨S40960x128, .f32⟩
  | .hbm, ⟨47, _⟩ => ⟨S128x128, .f32⟩
  | .hbm, ⟨48, _⟩ => ⟨S128x128, .f32⟩
  | .hbm, ⟨49, _⟩ => ⟨S4096x128, .f32⟩
  | .hbm, ⟨50, _⟩ => ⟨S_, .i32⟩
  | .hbm, ⟨51, _⟩ => ⟨S1024, .i32⟩
  | .hbm, ⟨52, _⟩ => ⟨S1024, .i1⟩
  | .hbm, ⟨53, _⟩ => ⟨S_, .i32⟩
  | .hbm, ⟨54, _⟩ => ⟨S1024, .i32⟩
  | .hbm, ⟨55, _⟩ => ⟨S1024, .i32⟩
  | .hbm, ⟨56, _⟩ => ⟨S1024, .i32⟩
  | .hbm, ⟨57, _⟩ => ⟨S1024x1, .i32⟩
  | .hbm, ⟨58, _⟩ => ⟨S1024x128, .f32⟩
  | .hbm, ⟨59, _⟩ => ⟨S_, .i32⟩
  | .hbm, ⟨60, _⟩ => ⟨S8192, .i32⟩
  | .hbm, ⟨61, _⟩ => ⟨S8192, .i1⟩
  | .hbm, ⟨62, _⟩ => ⟨S_, .i32⟩
  | .hbm, ⟨63, _⟩ => ⟨S8192, .i32⟩
  | .hbm, ⟨64, _⟩ => ⟨S8192, .i32⟩
  | .hbm, ⟨65, _⟩ => ⟨S8192, .i32⟩
  | .hbm, ⟨66, _⟩ => ⟨S8192x1, .i32⟩
  | .hbm, ⟨67, _⟩ => ⟨S8192x128, .f32⟩
  | .hbm, ⟨68, _⟩ => ⟨S128x128, .f32⟩
  | .hbm, ⟨69, _⟩ => ⟨S128x128, .f32⟩
  | .hbm, ⟨70, _⟩ => ⟨S1024x128, .f32⟩
  | .hbm, ⟨71, _⟩ => ⟨S1024x128, .f32⟩
  | .hbm, ⟨72, _⟩ => ⟨S_, .f32⟩
  | .hbm, ⟨73, _⟩ => ⟨S1024, .f32⟩
  | .hbm, ⟨74, _⟩ => ⟨S1024x1, .f32⟩
  | .hbm, ⟨75, _⟩ => ⟨S_, .f32⟩
  | .hbm, ⟨76, _⟩ => ⟨S1024x1, .f32⟩
  | .hbm, ⟨77, _⟩ => ⟨S1024x1, .f32⟩
  | .hbm, ⟨78, _⟩ => ⟨S1024x1, .f32⟩
  | .hbm, ⟨79, _⟩ => ⟨S1024x128, .f32⟩
  | .hbm, ⟨80, _⟩ => ⟨S1024x128, .f32⟩
  | .hbm, ⟨81, _⟩ => ⟨S1024x64, .f32⟩
  | .hbm, ⟨82, _⟩ => ⟨S1x64, .f32⟩
  | .hbm, ⟨83, _⟩ => ⟨S1024x64, .f32⟩
  | .hbm, ⟨84, _⟩ => ⟨S1024x64, .f32⟩
  | .hbm, ⟨85, _⟩ => ⟨S_, .f32⟩
  | .hbm, ⟨86, _⟩ => ⟨S1024x64, .f32⟩
  | .hbm, ⟨87, _⟩ => ⟨S1024x64, .f32⟩
  | .hbm, ⟨88, _⟩ => ⟨S1024x32, .f32⟩
  | .hbm, ⟨89, _⟩ => ⟨S1x32, .f32⟩
  | .hbm, ⟨90, _⟩ => ⟨S1024x32, .f32⟩
  | .hbm, ⟨91, _⟩ => ⟨S1024x32, .f32⟩
  | .hbm, ⟨92, _⟩ => ⟨S_, .f32⟩
  | .hbm, ⟨93, _⟩ => ⟨S1024x32, .f32⟩
  | .hbm, ⟨94, _⟩ => ⟨S1024x32, .f32⟩
  | .hbm, ⟨95, _⟩ => ⟨S1024x16, .f32⟩
  | .hbm, ⟨96, _⟩ => ⟨S1x16, .f32⟩
  | .hbm, ⟨97, _⟩ => ⟨S1024x16, .f32⟩
  | .hbm, ⟨98, _⟩ => ⟨S1024x16, .f32⟩
  | .hbm, ⟨99, _⟩ => ⟨S_, .f32⟩
  | .hbm, ⟨100, _⟩ => ⟨S1024x16, .f32⟩
  | .hbm, ⟨101, _⟩ => ⟨S1024x16, .f32⟩
  | .hbm, ⟨102, _⟩ => ⟨S1024x8, .f32⟩
  | .hbm, ⟨103, _⟩ => ⟨S1x8, .f32⟩
  | .hbm, ⟨104, _⟩ => ⟨S1024x8, .f32⟩
  | .hbm, ⟨105, _⟩ => ⟨S1024x8, .f32⟩
  | .hbm, ⟨106, _⟩ => ⟨S_, .f32⟩
  | .hbm, ⟨107, _⟩ => ⟨S1024x8, .f32⟩
  | .hbm, ⟨108, _⟩ => ⟨S1024x8, .f32⟩
  | .hbm, ⟨109, _⟩ => ⟨S1024x1, .f32⟩
  | .hbm, ⟨110, _⟩ => ⟨S1x1, .f32⟩
  | .hbm, ⟨111, _⟩ => ⟨S1024x1, .f32⟩
  | .hbm, ⟨112, _⟩ => ⟨S1024x1, .f32⟩
  | .hbm, ⟨113, _⟩ => ⟨S_, .f32⟩
  | .hbm, ⟨114, _⟩ => ⟨S1024, .f32⟩
  | .hbm, ⟨115, _⟩ => ⟨S_, .f32⟩
  | .hbm, ⟨116, _⟩ => ⟨S1024, .f32⟩
  | .hbm, ⟨117, _⟩ => ⟨S1024, .f32⟩
  | .hbm, ⟨118, _⟩ => ⟨S1024x1, .f32⟩
  | .hbm, ⟨119, _⟩ => ⟨S1024x1, .f32⟩
  | .hbm, ⟨120, _⟩ => ⟨S1024x1, .f32⟩
  | .hbm, ⟨121, _⟩ => ⟨S_, .f32⟩
  | .hbm, ⟨122, _⟩ => ⟨S1024, .f32⟩
  | .hbm, ⟨123, _⟩ => ⟨S1024x1, .f32⟩
  | .hbm, ⟨124, _⟩ => ⟨S1024x1, .f32⟩
  | .local _ .vmem, ⟨0, _⟩ => ⟨S512x2048, .f32⟩
  | .local _ .vmem, ⟨1, _⟩ => ⟨S512x2048, .f32⟩
  | .local _ .vmem, ⟨2, _⟩ => ⟨S40960x128, .f32⟩
  | .local _ .vmem, ⟨3, _⟩ => ⟨S512x128, .f32⟩
  | .local _ .vmem, ⟨4, _⟩ => ⟨S512x128, .f32⟩
  | .local _ .vmem, ⟨5, _⟩ => ⟨S128x128, .f32⟩
  | .local _ .vmem, ⟨6, _⟩ => ⟨S128x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x2048, .f32⟩
  | .local _ .vmem, ⟨11, _⟩ => ⟨S512x2048, .f32⟩
  | .local _ .vmem, ⟨12, _⟩ => ⟨S8192x128, .f32⟩
  | .local _ .vmem, ⟨13, _⟩ => ⟨S512x128, .f32⟩
  | .local _ .vmem, ⟨14, _⟩ => ⟨S512x128, .f32⟩
  | .local _ .vmem, ⟨15, _⟩ => ⟨S128x128, .f32⟩
  | .local _ .vmem, ⟨16, _⟩ => ⟨S128x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | _, _ => ⟨S40960, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_c_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_c_6 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_7 : Ref sig .tc := ⟨.hbm, 59, rfl⟩
abbrev main_v31 : Ref sig .tc := ⟨.hbm, 60, rfl⟩
abbrev main_v32 : Ref sig .tc := ⟨.hbm, 61, rfl⟩
abbrev main_c_8 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst : Ref sig .tc := ⟨.hbm, 72, rfl⟩
abbrev main_v42 : Ref sig .tc := ⟨.hbm, 73, rfl⟩
abbrev main_v43 : Ref sig .tc := ⟨.hbm, 74, rfl⟩
abbrev main_cst_9 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_call0_cst : Ref sig .tc := ⟨.hbm, 85, rfl⟩
abbrev main_call0_v0 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_call1_cst : Ref sig .tc := ⟨.hbm, 92, rfl⟩
abbrev main_call1_v0 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_call2_cst : Ref sig .tc := ⟨.hbm, 99, rfl⟩
abbrev main_call2_v0 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_call3_cst : Ref sig .tc := ⟨.hbm, 106, rfl⟩
abbrev main_call3_v0 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_cst_10 : Ref sig .tc := ⟨.hbm, 113, rfl⟩
abbrev main_v73 : Ref sig .tc := ⟨.hbm, 114, rfl⟩
abbrev main_cst_11 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_cst_12 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![8, 20], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c19_i32 : BitVec 32 := 19#32
  let v17 : BitVec 1 := Scalar.cmpi .eq arg1 c19_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S40960x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 4], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bcast_S_S40960 : S_.BroadcastsInDim S40960 (![] : Fin 0 → Fin S40960.rank)
  bcast_S40960_S40960x1_0 : S40960.BroadcastsInDim S40960x1 (![0] : Fin 1 → Fin S40960x1.rank)
  bcast_S_S4096 : S_.BroadcastsInDim S4096 (![] : Fin 0 → Fin S4096.rank)
  bcast_S4096_S4096x1_0 : S4096.BroadcastsInDim S4096x1 (![0] : Fin 1 → Fin S4096x1.rank)
  slices_S256x128_S128x128_0_0 : S256x128.Slices ![0, 0] S128x128
  slices_S256x128_S128x128_128_0 : S256x128.Slices ![128, 0] S128x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  h_S2048x128 : 0 < S2048x128.numel
  shapeCasts_S2048x128_S2048x128 : S2048x128.ShapeCasts S2048x128
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S1024 : S_.BroadcastsInDim S1024 (![] : Fin 0 → Fin S1024.rank)
  bcast_S1024_S1024x1_0 : S1024.BroadcastsInDim S1024x1 (![0] : Fin 1 → Fin S1024x1.rank)
  bcast_S_S8192 : S_.BroadcastsInDim S8192 (![] : Fin 0 → Fin S8192.rank)
  bcast_S8192_S8192x1_0 : S8192.BroadcastsInDim S8192x1 (![0] : Fin 1 → Fin S8192x1.rank)
  reducesTo_S1024x128_S1024_d1 : S1024x128.ReducesTo [1] S1024
  h_S_ : 0 < S_.numel
  bcast_S_S1024x1 : S_.BroadcastsInDim S1024x1 (![] : Fin 0 → Fin S1024x1.rank)
  bcast_S1024x1_S1024x128_0_1 : S1024x1.BroadcastsInDim S1024x128 (![0, 1] : Fin 2 → Fin S1024x128.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  bcast_S32_S1x32_1 : S32.BroadcastsInDim S1x32 (![1] : Fin 1 → Fin S1x32.rank)
  bcast_S1x32_S1024x32_0_1 : S1x32.BroadcastsInDim S1024x32 (![0, 1] : Fin 2 → Fin S1024x32.rank)
  bcast_S_S1024x32 : S_.BroadcastsInDim S1024x32 (![] : Fin 0 → Fin S1024x32.rank)
  bcast_S16_S1x16_1 : S16.BroadcastsInDim S1x16 (![1] : Fin 1 → Fin S1x16.rank)
  bcast_S1x16_S1024x16_0_1 : S1x16.BroadcastsInDim S1024x16 (![0, 1] : Fin 2 → Fin S1024x16.rank)
  bcast_S_S1024x16 : S_.BroadcastsInDim S1024x16 (![] : Fin 0 → Fin S1024x16.rank)
  bcast_S8_S1x8_1 : S8.BroadcastsInDim S1x8 (![1] : Fin 1 → Fin S1x8.rank)
  bcast_S1x8_S1024x8_0_1 : S1x8.BroadcastsInDim S1024x8 (![0, 1] : Fin 2 → Fin S1024x8.rank)
  bcast_S_S1024x8 : S_.BroadcastsInDim S1024x8 (![] : Fin 0 → Fin S1024x8.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  gather_S100000x128_S40960x1_S40960x128_1_0_n_n_0_1_1128_wf : GatherDims.WF S100000x128 S40960x1 S40960x128 [1] [0] [] [0] [] 1 ![1, 128]
  gather_S40960x128_S4096x1_S4096x128_1_0_n_n_0_1_1128_wf : GatherDims.WF S40960x128 S4096x1 S4096x128 [1] [0] [] [0] [] 1 ![1, 128]
  gather_S40960x128_S40960x1_S40960x128_1_0_n_n_0_1_1128_wf : GatherDims.WF S40960x128 S40960x1 S40960x128 [1] [0] [] [0] [] 1 ![1, 128]
  dot_S512x2048_S2048x128_S512x128_1_0_0_1_n_n_wf : DotDims.WF S512x2048 S2048x128 S512x128 [1] [0] [0] [1] [] []
  dot_S512x128_S128x128_S512x128_1_0_0_1_n_n_wf : DotDims.WF S512x128 S128x128 S512x128 [1] [0] [0] [1] [] []
  gather_S4096x128_S1024x1_S1024x128_1_0_n_n_0_1_1128_wf : GatherDims.WF S4096x128 S1024x1 S1024x128 [1] [0] [] [0] [] 1 ![1, 128]
  gather_S4096x128_S8192x1_S8192x128_1_0_n_n_0_1_1128_wf : GatherDims.WF S4096x128 S8192x1 S8192x128 [1] [0] [] [0] [] 1 ![1, 128]
  dot_S1024x128_S128x64_S1024x64_1_0_0_1_n_n_wf : DotDims.WF S1024x128 S128x64 S1024x64 [1] [0] [0] [1] [] []
  dot_S1024x64_S64x32_S1024x32_1_0_0_1_n_n_wf : DotDims.WF S1024x64 S64x32 S1024x32 [1] [0] [0] [1] [] []
  dot_S1024x32_S32x16_S1024x16_1_0_0_1_n_n_wf : DotDims.WF S1024x32 S32x16 S1024x16 [1] [0] [0] [1] [] []
  dot_S1024x16_S16x8_S1024x8_1_0_0_1_n_n_wf : DotDims.WF S1024x16 S16x8 S1024x8 [1] [0] [0] [1] [] []
  dot_S1024x8_S8x1_S1024x1_1_0_0_1_n_n_wf : DotDims.WF S1024x8 S8x1 S1024x1 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x128.size a ≤ S40960x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x40960.size a
  hwx0_0 : ∀ i : grid0.Coords, EltTy.bits .f32 = 32 ∨ (Rect.block (s := S4096x40960) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40960x128.size a ≤ S40960x128.size a
  hwx0_1 : ∀ i : grid0.Coords, EltTy.bits .f32 = 32 ∨ (Rect.block (s := S40960x128) S40960x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S4096x128.size a
  hwx0_2 : ∀ i : grid0.Coords, EltTy.bits .f32 = 32 ∨ (Rect.block (s := S4096x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S4096x128.size a
  hwx0_5 : ∀ i : grid0.Coords, EltTy.bits .f32 = 32 ∨ (Rect.block (s := S4096x128) S512x128.size (cc0_transform_5 i) (hinb0_5 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x128.size a ≤ S8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S1024x8192.size a
  hwx1_0 : ∀ i : grid1.Coords, EltTy.bits .f32 = 32 ∨ (Rect.block (s := S1024x8192) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .f32 = 32 ∨ (Rect.block (s := S8192x128) S8192x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S1024x128.size a
  hwx1_2 : ∀ i : grid1.Coords, EltTy.bits .f32 = 32 ∨ (Rect.block (s := S1024x128) S512x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S1024x128.size a
  hwx1_5 : ∀ i : grid1.Coords, EltTy.bits .f32 = 32 ∨ (Rect.block (s := S1024x128) S512x128.size (cc1_transform_5 i) (hinb1_5 i)).WholeWords (EltTy.packing .f32)

variable [Facts₀]

def gather_S100000x128_S40960x1_S40960x128_1_0_n_n_0_1_1128 : GatherDims S100000x128 S40960x1 S40960x128 where
  offsetDims := [1]
  collapsedSliceDims := [0]
  operandBatchingDims := []
  startIndicesBatchingDims := []
  startIndexMap := [0]
  indexVectorDim := 1
  sliceSizes := ![1, 128]
  wf := gather_S100000x128_S40960x1_S40960x128_1_0_n_n_0_1_1128_wf
def gather_S40960x128_S4096x1_S4096x128_1_0_n_n_0_1_1128 : GatherDims S40960x128 S4096x1 S4096x128 where
  offsetDims := [1]
  collapsedSliceDims := [0]
  operandBatchingDims := []
  startIndicesBatchingDims := []
  startIndexMap := [0]
  indexVectorDim := 1
  sliceSizes := ![1, 128]
  wf := gather_S40960x128_S4096x1_S4096x128_1_0_n_n_0_1_1128_wf
def gather_S40960x128_S40960x1_S40960x128_1_0_n_n_0_1_1128 : GatherDims S40960x128 S40960x1 S40960x128 where
  offsetDims := [1]
  collapsedSliceDims := [0]
  operandBatchingDims := []
  startIndicesBatchingDims := []
  startIndexMap := [0]
  indexVectorDim := 1
  sliceSizes := ![1, 128]
  wf := gather_S40960x128_S40960x1_S40960x128_1_0_n_n_0_1_1128_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def gather_S4096x128_S1024x1_S1024x128_1_0_n_n_0_1_1128 : GatherDims S4096x128 S1024x1 S1024x128 where
  offsetDims := [1]
  collapsedSliceDims := [0]
  operandBatchingDims := []
  startIndicesBatchingDims := []
  startIndexMap := [0]
  indexVectorDim := 1
  sliceSizes := ![1, 128]
  wf := gather_S4096x128_S1024x1_S1024x128_1_0_n_n_0_1_1128_wf
def gather_S4096x128_S8192x1_S8192x128_1_0_n_n_0_1_1128 : GatherDims S4096x128 S8192x1 S8192x128 where
  offsetDims := [1]
  collapsedSliceDims := [0]
  operandBatchingDims := []
  startIndicesBatchingDims := []
  startIndexMap := [0]
  indexVectorDim := 1
  sliceSizes := ![1, 128]
  wf := gather_S4096x128_S8192x1_S8192x128_1_0_n_n_0_1_1128_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x16_S1024x16_1_0_0_1_n_n : DotDims S1024x32 S32x16 S1024x16 where
  lhsContracting := [1]
  rhsContracting := [0]
  lhsNonContracting := [0]
  rhsNonContracting := [1]
  lhsBatch := []
  rhsBatch := []
  wf := dot_S1024x32_S32x16_S1024x16_1_0_0_1_n_n_wf
def dot_S1024x16_S16x8_S1024x8_1_0_0_1_n_n : DotDims S1024x16 S16x8 S1024x8 where
  lhsContracting := [1]
  rhsContracting := [0]
  lhsNonContracting := [0]
  rhsNonContracting := [1]
  lhsBatch := []
  rhsBatch := []
  wf := dot_S1024x16_S16x8_S1024x8_1_0_0_1_n_n_wf
def dot_S1024x8_S8x1_S1024x1_1_0_0_1_n_n : DotDims S1024x8 S8x1 S1024x1 where
  lhsContracting := [1]
  rhsContracting := [0]
  lhsNonContracting := [0]
  rhsNonContracting := [1]
  lhsBatch := []
  rhsBatch := []
  wf := dot_S1024x8_S8x1_S1024x1_1_0_0_1_n_n_wf

abbrev win0_0 : Pipeline.Window sig grid0 :=
  Pipeline.Window.ofSpec (Memref.whole main_arg6) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S40960x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg5) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S512x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S40960 : Shape := ⟨1, ![40960]⟩
abbrev S8192 : Shape := ⟨1, ![8192]⟩
abbrev S1024 : Shape := ⟨1, ![1024]⟩
abbrev S4096 : Shape := ⟨1, ![4096]⟩
abbrev S1024x8192 : Shape := ⟨2, ![1024, 8192]⟩
abbrev S4096x40960 : Shape := ⟨2, ![4096, 40960]⟩
abbrev S100000x128 : Shape := ⟨2, ![100000, 128]⟩
abbrev S256x128 : Shape := ⟨2, ![256, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S_ : Shape := ⟨0, ![]⟩
abbrev S40960x1 : Shape := ⟨2, ![40960, 1]⟩
abbrev S40960x128 : Shape := ⟨2, ![40960, 128]⟩
abbrev S4096x1 : Shape := ⟨2, ![4096, 1]⟩
abbrev S4096x128 : Shape := ⟨2, ![4096, 128]⟩
abbrev S4096x256 : Shape := ⟨2, ![4096, 256]⟩
abbrev S1024x1 : Shape := ⟨2, ![1024, 1]⟩
abbrev S1024x128 : Shape := ⟨2, ![1024, 128]⟩
abbrev S8192x1 : Shape := ⟨2, ![8192, 1]⟩
abbrev S8192x128 : Shape := ⟨2, ![8192, 128]⟩
abbrev S1024x256 : Shape := ⟨2, ![1024, 256]⟩
abbrev S1024x64 : Shape := ⟨2, ![1024, 64]⟩
abbrev S1x64 : Shape := ⟨2, ![1, 64]⟩
abbrev S1024x32 : Shape := ⟨2, ![1024, 32]⟩
abbrev S1x32 : Shape := ⟨2, ![1, 32]⟩
abbrev S1024x16 : Shape := ⟨2, ![1024, 16]⟩
abbrev S1x16 : Shape := ⟨2, ![1, 16]⟩
abbrev S1024x8 : Shape := ⟨2, ![1024, 8]⟩
abbrev S1x8 : Shape := ⟨2, ![1, 8]⟩
abbrev S1x1 : Shape := ⟨2, ![1, 1]⟩

abbrev nBuf : Space → Nat
  | .hbm => 128
  | .vmem => 0
  | .smem => 0
  | _ => 0

abbrev bufTy : (tb : Table) → Fin (tcTables nBuf tb) → BufTy
  | .hbm, ⟨0, _⟩ => ⟨S40960, .i32⟩
  | .hbm, ⟨1, _⟩ => ⟨S8192, .i32⟩
  | .hbm, ⟨2, _⟩ => ⟨S40960, .i32⟩
  | .hbm, ⟨3, _⟩ => ⟨S1024, .i32⟩
  | .hbm, ⟨4, _⟩ => ⟨S4096, .i32⟩
  | .hbm, ⟨5, _⟩ => ⟨S1024x8192, .f32⟩
  | .hbm, ⟨6, _⟩ => ⟨S4096x40960, .f32⟩
  | .hbm, ⟨7, _⟩ => ⟨S100000x128, .f32⟩
  | .hbm, ⟨8, _⟩ => ⟨S256x128, .f32⟩
  | .hbm, ⟨9, _⟩ => ⟨S256x128, .f32⟩
  | .hbm, ⟨10, _⟩ => ⟨S128x64, .f32⟩
  | .hbm, ⟨11, _⟩ => ⟨S64, .f32⟩
  | .hbm, ⟨12, _⟩ => ⟨S64x32, .f32⟩
  | .hbm, ⟨13, _⟩ => ⟨S32, .f32⟩
  | .hbm, ⟨14, _⟩ => ⟨S32x16, .f32⟩
  | .hbm, ⟨15, _⟩ => ⟨S16, .f32⟩
  | .hbm, ⟨16, _⟩ => ⟨S16x8, .f32⟩
  | .hbm, ⟨17, _⟩ => ⟨S8, .f32⟩
  | .hbm, ⟨18, _⟩ => ⟨S8x1, .f32⟩
  | .hbm, ⟨19, _⟩ => ⟨S1, .f32⟩
  | .hbm, ⟨20, _⟩ => ⟨S_, .i32⟩
  | .hbm, ⟨21, _⟩ => ⟨S40960, .i32⟩
  | .hbm, ⟨22, _⟩ => ⟨S40960, .i1⟩
  | .hbm, ⟨23, _⟩ => ⟨S_, .i32⟩
  | .hbm, ⟨24, _⟩ => ⟨S40960, .i32⟩
  | .hbm, ⟨25, _⟩ => ⟨S40960, .i32⟩
  | .hbm, ⟨26, _⟩ => ⟨S40960, .i32⟩
  | .hbm, ⟨27, _⟩ => ⟨S40960x1, .i32⟩
  | .hbm, ⟨28, _⟩ => ⟨S40960x128, .f32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096x1, .i32⟩
  | .hbm, ⟨37, _⟩ => ⟨S4096x128, .f32⟩
  | .hbm, ⟨38, _⟩ => ⟨S_, .i32⟩
  | .hbm, ⟨39, _⟩ => ⟨S40960, .i32⟩
  | .hbm, ⟨40, _⟩ => ⟨S40960, .i1⟩
  | .hbm, ⟨41, _⟩ => ⟨S_, .i32⟩
  | .hbm, ⟨42, _⟩ => ⟨S40960, .i32⟩
  | .hbm, ⟨43, _⟩ => ⟨S40960, .i32⟩
  | .hbm, ⟨44, _⟩ => ⟨S40960, .i32⟩
  | .hbm, ⟨45, _⟩ => ⟨S40960x1, .i32⟩
  | .hbm, ⟨46, _⟩ => ⟨S40960x128, .f32⟩
  | .hbm, ⟨47, _⟩ => ⟨S4096x128, .f32⟩
  | .hbm, ⟨48, _⟩ => ⟨S4096x256, .f32⟩
  | .hbm, ⟨49, _⟩ => ⟨S4096x128, .f32⟩
  | .hbm, ⟨50, _⟩ => ⟨S_, .f32⟩
  | .hbm, ⟨51, _⟩ => ⟨S4096x128, .f32⟩
  | .hbm, ⟨52, _⟩ => ⟨S4096x128, .f32⟩
  | .hbm, ⟨53, _⟩ => ⟨S_, .i32⟩
  | .hbm, ⟨54, _⟩ => ⟨S1024, .i32⟩
  | .hbm, ⟨55, _⟩ => ⟨S1024, .i1⟩
  | .hbm, ⟨56, _⟩ => ⟨S_, .i32⟩
  | .hbm, ⟨57, _⟩ => ⟨S1024, .i32⟩
  | .hbm, ⟨58, _⟩ => ⟨S1024, .i32⟩
  | .hbm, ⟨59, _⟩ => ⟨S1024, .i32⟩
  | .hbm, ⟨60, _⟩ => ⟨S1024x1, .i32⟩
  | .hbm, ⟨61, _⟩ => ⟨S1024x128, .f32⟩
  | .hbm, ⟨62, _⟩ => ⟨S_, .i32⟩
  | .hbm, ⟨63, _⟩ => ⟨S8192, .i32⟩
  | .hbm, ⟨64, _⟩ => ⟨S8192, .i1⟩
  | .hbm, ⟨65, _⟩ => ⟨S_, .i32⟩
  | .hbm, ⟨66, _⟩ => ⟨S8192, .i32⟩
  | .hbm, ⟨67, _⟩ => ⟨S8192, .i32⟩
  | .hbm, ⟨68, _⟩ => ⟨S8192, .i32⟩
  | .hbm, ⟨69, _⟩ => ⟨S8192x1, .i32⟩
  | .hbm, ⟨70, _⟩ => ⟨S8192x128, .f32⟩
  | .hbm, ⟨71, _⟩ => ⟨S1024x128, .f32⟩
  | .hbm, ⟨72, _⟩ => ⟨S1024x256, .f32⟩
  | .hbm, ⟨73, _⟩ => ⟨S1024x128, .f32⟩
  | .hbm, ⟨74, _⟩ => ⟨S1024x128, .f32⟩
  | .hbm, ⟨75, _⟩ => ⟨S_, .f32⟩
  | .hbm, ⟨76, _⟩ => ⟨S1024, .f32⟩
  | .hbm, ⟨77, _⟩ => ⟨S1024x1, .f32⟩
  | .hbm, ⟨78, _⟩ => ⟨S_, .f32⟩
  | .hbm, ⟨79, _⟩ => ⟨S1024x1, .f32⟩
  | .hbm, ⟨80, _⟩ => ⟨S1024x1, .f32⟩
  | .hbm, ⟨81, _⟩ => ⟨S1024x1, .f32⟩
  | .hbm, ⟨82, _⟩ => ⟨S1024x128, .f32⟩
  | .hbm, ⟨83, _⟩ => ⟨S1024x128, .f32⟩
  | .hbm, ⟨84, _⟩ => ⟨S1024x64, .f32⟩
  | .hbm, ⟨85, _⟩ => ⟨S1x64, .f32⟩
  | .hbm, ⟨86, _⟩ => ⟨S1024x64, .f32⟩
  | .hbm, ⟨87, _⟩ => ⟨S1024x64, .f32⟩
  | .hbm, ⟨88, _⟩ => ⟨S_, .f32⟩
  | .hbm, ⟨89, _⟩ => ⟨S1024x64, .f32⟩
  | .hbm, ⟨90, _⟩ => ⟨S1024x64, .f32⟩
  | .hbm, ⟨91, _⟩ => ⟨S1024x32, .f32⟩
  | .hbm, ⟨92, _⟩ => ⟨S1x32, .f32⟩
  | .hbm, ⟨93, _⟩ => ⟨S1024x32, .f32⟩
  | .hbm, ⟨94, _⟩ => ⟨S1024x32, .f32⟩
  | .hbm, ⟨95, _⟩ => ⟨S_, .f32⟩
  | .hbm, ⟨96, _⟩ => ⟨S1024x32, .f32⟩
  | .hbm, ⟨97, _⟩ => ⟨S1024x32, .f32⟩
  | .hbm, ⟨98, _⟩ => ⟨S1024x16, .f32⟩
  | .hbm, ⟨99, _⟩ => ⟨S1x16, .f32⟩
  | .hbm, ⟨100, _⟩ => ⟨S1024x16, .f32⟩
  | .hbm, ⟨101, _⟩ => ⟨S1024x16, .f32⟩
  | .hbm, ⟨102, _⟩ => ⟨S_, .f32⟩
  | .hbm, ⟨103, _⟩ => ⟨S1024x16, .f32⟩
  | .hbm, ⟨104, _⟩ => ⟨S1024x16, .f32⟩
  | .hbm, ⟨105, _⟩ => ⟨S1024x8, .f32⟩
  | .hbm, ⟨106, _⟩ => ⟨S1x8, .f32⟩
  | .hbm, ⟨107, _⟩ => ⟨S1024x8, .f32⟩
  | .hbm, ⟨108, _⟩ => ⟨S1024x8, .f32⟩
  | .hbm, ⟨109, _⟩ => ⟨S_, .f32⟩
  | .hbm, ⟨110, _⟩ => ⟨S1024x8, .f32⟩
  | .hbm, ⟨111, _⟩ => ⟨S1024x8, .f32⟩
  | .hbm, ⟨112, _⟩ => ⟨S1024x1, .f32⟩
  | .hbm, ⟨113, _⟩ => ⟨S1x1, .f32⟩
  | .hbm, ⟨114, _⟩ => ⟨S1024x1, .f32⟩
  | .hbm, ⟨115, _⟩ => ⟨S1024x1, .f32⟩
  | .hbm, ⟨116, _⟩ => ⟨S_, .f32⟩
  | .hbm, ⟨117, _⟩ => ⟨S1024, .f32⟩
  | .hbm, ⟨118, _⟩ => ⟨S_, .f32⟩
  | .hbm, ⟨119, _⟩ => ⟨S1024, .f32⟩
  | .hbm, ⟨120, _⟩ => ⟨S1024, .f32⟩
  | .hbm, ⟨121, _⟩ => ⟨S1024x1, .f32⟩
  | .hbm, ⟨122, _⟩ => ⟨S1024x1, .f32⟩
  | .hbm, ⟨123, _⟩ => ⟨S1024x1, .f32⟩
  | .hbm, ⟨124, _⟩ => ⟨S_, .f32⟩
  | .hbm, ⟨125, _⟩ => ⟨S1024, .f32⟩
  | .hbm, ⟨126, _⟩ => ⟨S1024x1, .f32⟩
  | .hbm, ⟨127, _⟩ => ⟨S1024x1, .f32⟩
  | _, _ => ⟨S40960, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_v0 : Ref sig .tc := ⟨.hbm, 21, rfl⟩
abbrev main_v1 : Ref sig .tc := ⟨.hbm, 22, rfl⟩
abbrev main_c_0 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_1 : Ref sig .tc := ⟨.hbm, 29, rfl⟩
abbrev main_v7 : Ref sig .tc := ⟨.hbm, 30, rfl⟩
abbrev main_v8 : Ref sig .tc := ⟨.hbm, 31, rfl⟩
abbrev main_c_2 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_c_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_call0_cst : Ref sig .tc := ⟨.hbm, 50, rfl⟩
abbrev main_call0_v0 : Ref sig .tc := ⟨.hbm, 51, rfl⟩
abbrev main_v24 : Ref sig .tc := ⟨.hbm, 52, rfl⟩
abbrev main_c_5 : Ref sig .tc := ⟨.hbm, 53, rfl⟩
abbrev main_v25 : Ref sig .tc := ⟨.hbm, 54, rfl⟩
abbrev main_v26 : Ref sig .tc := ⟨.hbm, 55, rfl⟩
abbrev main_c_6 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_7 : Ref sig .tc := ⟨.hbm, 62, rfl⟩
abbrev main_v32 : Ref sig .tc := ⟨.hbm, 63, rfl⟩
abbrev main_v33 : Ref sig .tc := ⟨.hbm, 64, rfl⟩
abbrev main_c_8 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst : Ref sig .tc := ⟨.hbm, 75, rfl⟩
abbrev main_v43 : Ref sig .tc := ⟨.hbm, 76, rfl⟩
abbrev main_v44 : Ref sig .tc := ⟨.hbm, 77, rfl⟩
abbrev main_cst_9 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_call1_cst : Ref sig .tc := ⟨.hbm, 88, rfl⟩
abbrev main_call1_v0 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_call2_cst : Ref sig .tc := ⟨.hbm, 95, rfl⟩
abbrev main_call2_v0 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_call3_cst : Ref sig .tc := ⟨.hbm, 102, rfl⟩
abbrev main_call3_v0 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_call4_cst : Ref sig .tc := ⟨.hbm, 109, rfl⟩
abbrev main_call4_v0 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_cst_10 : Ref sig .tc := ⟨.hbm, 116, rfl⟩
abbrev main_v74 : Ref sig .tc := ⟨.hbm, 117, rfl⟩
abbrev main_cst_11 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_12 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩

abbrev nD : Nat := 1
abbrev τ : Topo := Topo.v7x

variable {F : FTy → Type} [FloatOps F]

class Facts₀ : Prop where
  bcast_S_S40960 : S_.BroadcastsInDim S40960 (![] : Fin 0 → Fin S40960.rank)
  bcast_S40960_S40960x1_0 : S40960.BroadcastsInDim S40960x1 (![0] : Fin 1 → Fin S40960x1.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x128_S4096x128_S4096x256_d1 : Shape.Concatenates [S4096x128, S4096x128] S4096x256 1
  bcast_S_S4096x128 : S_.BroadcastsInDim S4096x128 (![] : Fin 0 → Fin S4096x128.rank)
  bcast_S_S1024 : S_.BroadcastsInDim S1024 (![] : Fin 0 → Fin S1024.rank)
  bcast_S1024_S1024x1_0 : S1024.BroadcastsInDim S1024x1 (![0] : Fin 1 → Fin S1024x1.rank)
  bcast_S_S8192 : S_.BroadcastsInDim S8192 (![] : Fin 0 → Fin S8192.rank)
  bcast_S8192_S8192x1_0 : S8192.BroadcastsInDim S8192x1 (![0] : Fin 1 → Fin S8192x1.rank)
  concatenates_S1024x128_S1024x128_S1024x256_d1 : Shape.Concatenates [S1024x128, S1024x128] S1024x256 1
  reducesTo_S1024x128_S1024_d1 : S1024x128.ReducesTo [1] S1024
  h_S_ : 0 < S_.numel
  bcast_S_S1024x1 : S_.BroadcastsInDim S1024x1 (![] : Fin 0 → Fin S1024x1.rank)
  bcast_S1024x1_S1024x128_0_1 : S1024x1.BroadcastsInDim S1024x128 (![0, 1] : Fin 2 → Fin S1024x128.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  bcast_S32_S1x32_1 : S32.BroadcastsInDim S1x32 (![1] : Fin 1 → Fin S1x32.rank)
  bcast_S1x32_S1024x32_0_1 : S1x32.BroadcastsInDim S1024x32 (![0, 1] : Fin 2 → Fin S1024x32.rank)
  bcast_S_S1024x32 : S_.BroadcastsInDim S1024x32 (![] : Fin 0 → Fin S1024x32.rank)
  bcast_S16_S1x16_1 : S16.BroadcastsInDim S1x16 (![1] : Fin 1 → Fin S1x16.rank)
  bcast_S1x16_S1024x16_0_1 : S1x16.BroadcastsInDim S1024x16 (![0, 1] : Fin 2 → Fin S1024x16.rank)
  bcast_S_S1024x16 : S_.BroadcastsInDim S1024x16 (![] : Fin 0 → Fin S1024x16.rank)
  bcast_S8_S1x8_1 : S8.BroadcastsInDim S1x8 (![1] : Fin 1 → Fin S1x8.rank)
  bcast_S1x8_S1024x8_0_1 : S1x8.BroadcastsInDim S1024x8 (![0, 1] : Fin 2 → Fin S1024x8.rank)
  bcast_S_S1024x8 : S_.BroadcastsInDim S1024x8 (![] : Fin 0 → Fin S1024x8.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  gather_S100000x128_S40960x1_S40960x128_1_0_n_n_0_1_1128_wf : GatherDims.WF S100000x128 S40960x1 S40960x128 [1] [0] [] [0] [] 1 ![1, 128]
  gather_S40960x128_S4096x1_S4096x128_1_0_n_n_0_1_1128_wf : GatherDims.WF S40960x128 S4096x1 S4096x128 [1] [0] [] [0] [] 1 ![1, 128]
  gather_S40960x128_S40960x1_S40960x128_1_0_n_n_0_1_1128_wf : GatherDims.WF S40960x128 S40960x1 S40960x128 [1] [0] [] [0] [] 1 ![1, 128]
  dot_S4096x40960_S40960x128_S4096x128_1_0_0_1_n_n_wf : DotDims.WF S4096x40960 S40960x128 S4096x128 [1] [0] [0] [1] [] []
  dot_S4096x256_S256x128_S4096x128_1_0_0_1_n_n_wf : DotDims.WF S4096x256 S256x128 S4096x128 [1] [0] [0] [1] [] []
  gather_S4096x128_S1024x1_S1024x128_1_0_n_n_0_1_1128_wf : GatherDims.WF S4096x128 S1024x1 S1024x128 [1] [0] [] [0] [] 1 ![1, 128]
  gather_S4096x128_S8192x1_S8192x128_1_0_n_n_0_1_1128_wf : GatherDims.WF S4096x128 S8192x1 S8192x128 [1] [0] [] [0] [] 1 ![1, 128]
  dot_S1024x8192_S8192x128_S1024x128_1_0_0_1_n_n_wf : DotDims.WF S1024x8192 S8192x128 S1024x128 [1] [0] [0] [1] [] []
  dot_S1024x256_S256x128_S1024x128_1_0_0_1_n_n_wf : DotDims.WF S1024x256 S256x128 S1024x128 [1] [0] [0] [1] [] []
  dot_S1024x128_S128x64_S1024x64_1_0_0_1_n_n_wf : DotDims.WF S1024x128 S128x64 S1024x64 [1] [0] [0] [1] [] []
  dot_S1024x64_S64x32_S1024x32_1_0_0_1_n_n_wf : DotDims.WF S1024x64 S64x32 S1024x32 [1] [0] [0] [1] [] []
  dot_S1024x32_S32x16_S1024x16_1_0_0_1_n_n_wf : DotDims.WF S1024x32 S32x16 S1024x16 [1] [0] [0] [1] [] []
  dot_S1024x16_S16x8_S1024x8_1_0_0_1_n_n_wf : DotDims.WF S1024x16 S16x8 S1024x8 [1] [0] [0] [1] [] []
  dot_S1024x8_S8x1_S1024x1_1_0_0_1_n_n_wf : DotDims.WF S1024x8 S8x1 S1024x1 [1] [0] [0] [1] [] []

variable [Facts₀]

def gather_S100000x128_S40960x1_S40960x128_1_0_n_n_0_1_1128 : GatherDims S100000x128 S40960x1 S40960x128 where
  offsetDims := [1]
  collapsedSliceDims := [0]
  operandBatchingDims := []
  startIndicesBatchingDims := []
  startIndexMap := [0]
  indexVectorDim := 1
  sliceSizes := ![1, 128]
  wf := gather_S100000x128_S40960x1_S40960x128_1_0_n_n_0_1_1128_wf
def gather_S40960x128_S4096x1_S4096x128_1_0_n_n_0_1_1128 : GatherDims S40960x128 S4096x1 S4096x128 where
  offsetDims := [1]
  collapsedSliceDims := [0]
  operandBatchingDims := []
  startIndicesBatchingDims := []
  startIndexMap := [0]
  indexVectorDim := 1
  sliceSizes := ![1, 128]
  wf := gather_S40960x128_S4096x1_S4096x128_1_0_n_n_0_1_1128_wf
def gather_S40960x128_S40960x1_S40960x128_1_0_n_n_0_1_1128 : GatherDims S40960x128 S40960x1 S40960x128 where
  offsetDims := [1]
  collapsedSliceDims := [0]
  operandBatchingDims := []
  startIndicesBatchingDims := []
  startIndexMap := [0]
  indexVectorDim := 1
  sliceSizes := ![1, 128]
  wf := gather_S40960x128_S40960x1_S40960x128_1_0_n_n_0_1_1128_wf
def dot_S4096x40960_S40960x128_S4096x128_1_0_0_1_n_n : DotDims S4096x40960 S40960x128 S4096x128 where
  lhsContracting := [1]
  rhsContracting := [0]
  lhsNonContracting := [0]
  rhsNonContracting := [1]
  lhsBatch := []
  rhsBatch := []
  wf := dot_S4096x40960_S40960x128_S4096x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def gather_S4096x128_S1024x1_S1024x128_1_0_n_n_0_1_1128 : GatherDims S4096x128 S1024x1 S1024x128 where
  offsetDims := [1]
  collapsedSliceDims := [0]
  operandBatchingDims := []
  startIndicesBatchingDims := []
  startIndexMap := [0]
  indexVectorDim := 1
  sliceSizes := ![1, 128]
  wf := gather_S4096x128_S1024x1_S1024x128_1_0_n_n_0_1_1128_wf
def gather_S4096x128_S8192x1_S8192x128_1_0_n_n_0_1_1128 : GatherDims S4096x128 S8192x1 S8192x128 where
  offsetDims := [1]
  collapsedSliceDims := [0]
  operandBatchingDims := []
  startIndicesBatchingDims := []
  startIndexMap := [0]
  indexVectorDim := 1
  sliceSizes := ![1, 128]
  wf := gather_S4096x128_S8192x1_S8192x128_1_0_n_n_0_1_1128_wf
def dot_S1024x8192_S8192x128_S1024x128_1_0_0_1_n_n : DotDims S1024x8192 S8192x128 S1024x128 where
  lhsContracting := [1]
  rhsContracting := [0]
  lhsNonContracting := [0]
  rhsNonContracting := [1]
  lhsBatch := []
  rhsBatch := []
  wf := dot_S1024x8192_S8192x128_S1024x128_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x16_S1024x16_1_0_0_1_n_n : DotDims S1024x32 S32x16 S1024x16 where
  lhsContracting := [1]
  rhsContracting := [0]
  lhsNonContracting := [0]
  rhsNonContracting := [1]
  lhsBatch := []
  rhsBatch := []
  wf := dot_S1024x32_S32x16_S1024x16_1_0_0_1_n_n_wf
def dot_S1024x16_S16x8_S1024x8_1_0_0_1_n_n : DotDims S1024x16 S16x8 S1024x8 where
  lhsContracting := [1]
  rhsContracting := [0]
  lhsNonContracting := [0]
  rhsNonContracting := [1]
  lhsBatch := []
  rhsBatch := []
  wf := dot_S1024x16_S16x8_S1024x8_1_0_0_1_n_n_wf
def dot_S1024x8_S8x1_S1024x1_1_0_0_1_n_n : DotDims S1024x8 S8x1 S1024x1 where
  lhsContracting := [1]
  rhsContracting := [0]
  lhsNonContracting := [0]
  rhsNonContracting := [1]
  lhsBatch := []
  rhsBatch := []
  wf := dot_S1024x8_S8x1_S1024x1_1_0_0_1_n_n_wf

class Facts : Prop extends Facts₀ where

variable [Facts]
-- ==== Proof.K.Shared0.lean ====
import proofs.«123040_j36550171689307_2_alg».proof.Proof.Gen.Kernel.Launch
import proofs.«123040_j36550171689307_2_alg».proof.Proof.Gen.Kernel.Skeleton
import proofs.«123040_j36550171689307_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0: the body's two branch conditions

The grid is 8 × 20, a point is (row block, reduction step k). The first branch (zero the accumulator) is taken
at k = 0, the second (finish the row block and store the output) at k = 19. -/

/-- The first branch's condition, from the grid coordinates: k = 0, as the scalar chain spells it. -/
abbrev cond0_0 (i : grid0.Coords) : Prop := (Scalar.cmpi .ne (Scalar.extui (Scalar.cmpi .eq (BitVec.ofNat 32 (i 1).val) 0#32)) 0#32) = 1#1
/-- It holds exactly at the first step of each row block. -/
theorem hcond0_0 : ∀ t : Fin cfg0.N, cond0_0 (grid0.coords t) ↔ t.val % 20 = 0 :=
  (by decide +kernel : ∀ t : Fin grid0.N, cond0_0 (grid0.coords t) ↔ t.val % 20 = 0)

/-- The second branch's condition, from the grid coordinates: k = 19. -/
abbrev cond0_1 (i : grid0.Coords) : Prop := k0_cond2 i = 1#1
/-- It holds exactly at the last step of each row block. -/
theorem hcond0_1 : ∀ t : Fin cfg0.N, cond0_1 (grid0.coords t) ↔ t.val % 20 = 19 :=
  (by decide +kernel : ∀ t : Fin grid0.N, cond0_1 (grid0.coords t) ↔ t.val % 20 = 19)

/-! ## Where the windows are idle

Three cases of a point: A (k = 0: first branch only), B (0 < k < 19: neither), C (k = 19: second branch only).
The five inputs are never idle; the output window 5 is idle and not written back in cases A and B, live in case C. -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Case A: the output is idle (nothing is stored into it). -/
theorem idleAt0_5_A : ∀ t : Fin cfg0.N, cond0_0 (grid0.coords t) → ¬cond0_1 (grid0.coords t) → cfg0.idle 5 (grid0.coords t) = true := by decide +kernel
/-- Case A: the output's block is not written back. -/
theorem noFlush0_5_A : ∀ t : Fin cfg0.N, cond0_0 (grid0.coords t) → ¬cond0_1 (grid0.coords t) → (cfg0.win 5).flush t = false := by decide +kernel
/-- Case B: the output is idle. -/
theorem idleAt0_5_B : ∀ t : Fin cfg0.N, ¬cond0_0 (grid0.coords t) → ¬cond0_1 (grid0.coords t) → cfg0.idle 5 (grid0.coords t) = true := by decide +kernel
/-- Case B: the output's block is not written back. -/
theorem noFlush0_5_B : ∀ t : Fin cfg0.N, ¬cond0_0 (grid0.coords t) → ¬cond0_1 (grid0.coords t) → (cfg0.win 5).flush t = false := by decide +kernel
/-- Case C: the output is live (the case stores into it). -/
theorem liveAt0_5_C : ∀ t : Fin cfg0.N, ¬cond0_0 (grid0.coords t) → cond0_1 (grid0.coords t) → cfg0.idle 5 (grid0.coords t) = false := by decide +kernel
/-- The two conditions never hold together: k = 0 and k = 19 are different steps. -/
theorem cond0_excl : ∀ t : Fin cfg0.N, cond0_0 (grid0.coords t) → ¬cond0_1 (grid0.coords t) := by decide +kernel

/-! ## The staging memrefs and the carried accumulator -/

/-- One staging buffer of the output window, through which its contents are stated. -/
abbrev VO0_5 : View sig .tc .vmem S512x128 .f32 := (Memref.whole cc0_stg5_0 : Memref sig .tc .vmem S512x128 .f32).view
/-- Each window's current staging memref at point `t`, and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S40960x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
/-- The accumulator: a whole scoped buffer of the kernel's own, passed beside the windows and carried between points. -/
abbrev scM0_0 : Memref sig .tc .vmem S512x128 .f32 := Memref.whole cc0_scratch0
/-- The accumulator as a view: what it holds is stated through it. -/
abbrev VS0_0 : View sig .tc .vmem S512x128 .f32 := scM0_0.view

/-- The body at point `t` is the kernel on the current staging memrefs and the accumulator. -/
theorem bodyAt0_eq (t : Fin cfg0.N) : bodyAt0 (F := F) t
    = cc0_kernel (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) := rfl

/-- The scoped buffers of the core that region 0 neither stages through nor uses: the other region's staging
    buffers and accumulator, each whole at some contents. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The region invariant: the accumulator owned at some contents, the other region's scoped buffers at some
    contents, and the generator register at some state. -/
theorem PhiA0_eq (c : Dev nD) :
    (Pipeline.ΦA spec0 c : sProp 𝕄)
      = iprop(iprop((∃ d, owns (c : Thread nD τ) scM0_0 fullShare d) ∗ restS0 (F := F) c) ∗ (∃ r, prngReg c r)) := by
  unfold Pipeline.ΦA restS0; rw [scopedRest0_eq]; simp only [scM0_0, owns_whole]; try rfl

end Cert.Kernel.Hand

end
-- ==== Proof.K.Run0A.lean ====
import proofs.«123040_j36550171689307_2_alg».proof.Proof.K.Shared0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Region 0, case A — the first reduction step of a row block (first branch taken, second not): the accumulator, at anything on entry,
    is zeroed and then receives the step's product; the output block is left as it was.
    The pieces the stores leave in the output block (`L5`) and in the accumulator (`LS0`), last first, with the
    triple: from the five inputs owned at their contents, the output block and the accumulator, the kernel runs to
    a continuation that is handed the inputs back as they were, the output block, and the accumulator with its
    pieces written. -/
noncomputable def kernelRun0_A (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond0_0 i) (hc1 : ¬cond0_1 i)
    (x0 : Vec F S512x2048 .f32) (x1 : Vec F S40960x128 .f32) (x2 : Vec F S512x128 .f32) (x3 : Vec F S128x128 .f32) (x4 : Vec F S128x128 .f32) :
    Σ' (L5 : List (View.Piece (Elt F) S512x128 .f32)), { LS0 : List (View.Piece (Elt F) S512x128 .f32) //
      ∀ (xi5 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨[], ?_, fun xi5 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.K.Run0B.lean ====
import proofs.«123040_j36550171689307_2_alg».proof.Proof.K.Run0A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Region 0, case B — a middle reduction step (neither branch taken): the accumulator, at what the step before left, receives the
    step's product; the output block is left as it was.
    The pieces the stores leave in the output block (`L5`) and in the accumulator (`LS0`), last first, with the
    triple: from the five inputs owned at their contents, the output block and the accumulator, the kernel runs to
    a continuation that is handed the inputs back as they were, the output block, and the accumulator with its
    pieces written. -/
noncomputable def kernelRun0_B (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : ¬cond0_1 i)
    (x0 : Vec F S512x2048 .f32) (x1 : Vec F S40960x128 .f32) (x2 : Vec F S512x128 .f32) (x3 : Vec F S128x128 .f32) (x4 : Vec F S128x128 .f32) (xs0 : Vec F S512x128 .f32) :
    Σ' (L5 : List (View.Piece (Elt F) S512x128 .f32)), { LS0 : List (View.Piece (Elt F) S512x128 .f32) //
      ∀ (xi5 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨[], ?_, fun xi5 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.K.Run0C.lean ====
import proofs.«123040_j36550171689307_2_alg».proof.Proof.K.Run0B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Region 0, case C — the last reduction step of a row block (second branch taken, first not): the accumulator, at what the step before
    left, receives the step's product, and the output block is stored from it, the destination block and the two weights.
    The pieces the stores leave in the output block (`L5`) and in the accumulator (`LS0`), last first, with the
    triple: from the five inputs owned at their contents, the output block and the accumulator, the kernel runs to
    a continuation that is handed the inputs back as they were, the output block, and the accumulator with its
    pieces written. -/
noncomputable def kernelRun0_C (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : cond0_1 i)
    (x0 : Vec F S512x2048 .f32) (x1 : Vec F S40960x128 .f32) (x2 : Vec F S512x128 .f32) (x3 : Vec F S128x128 .f32) (x4 : Vec F S128x128 .f32) (xs0 : Vec F S512x128 .f32) :
    Σ' (L5 : List (View.Piece (Elt F) S512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.K.Region0.lean ====
import proofs.«123040_j36550171689307_2_alg».proof.Proof.K.Run0C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when region 0 is entered: everything below is stated at this parameter
variable (V : (c : Dev nD) → (b : Ref sig .tc) → Buf (Elt F) ((c : Thread nD τ).loc b))

/-! ## Region 0: the windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the
    block index has not moved), for any proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the
    block index has not moved), for any proof data whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the
    block index has not moved), for any proof data whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (unfetched, the
    block index has not moved), for any proof data whose array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (unfetched, the
    block index has not moved), for any proof data whose array is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the output block and in the accumulator -/

/-- Case A stores nothing into the output block: an arbitrary value (its empty list of pieces read back over arbitrary
    contents) that nothing consults, the block being neither written back nor read at the next point. -/
def out0_A_5 (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond0_0 i) (hc1 : ¬cond0_1 i)
    (x0 : Vec F S512x2048 .f32) (x1 : Vec F S40960x128 .f32) (x2 : Vec F S512x128 .f32) (x3 : Vec F S128x128 .f32) (x4 : Vec F S128x128 .f32) : Vec F S512x128 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3 x4).1)

/-- Case A's pieces for the accumulator cover it. -/
theorem scover0_A_0 (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond0_0 i) (hc1 : ¬cond0_1 i)
    (x0 : Vec F S512x2048 .f32) (x1 : Vec F S40960x128 .f32) (x2 : Vec F S512x128 .f32) (x3 : Vec F S128x128 .f32) (x4 : Vec F S128x128 .f32) (y : S512x128.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S512x128.size (by sl_kernel_rfl) y

/-- What case A leaves in the accumulator: its pieces read back over arbitrary contents. -/
def sout0_A_0 (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond0_0 i) (hc1 : ¬cond0_1 i)
    (x0 : Vec F S512x2048 .f32) (x1 : Vec F S40960x128 .f32) (x2 : Vec F S512x128 .f32) (x3 : Vec F S128x128 .f32) (x4 : Vec F S128x128 .f32) : Vec F S512x128 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

/-- Case B stores nothing into the output block: an arbitrary value (its empty list of pieces read back over arbitrary
    contents) that nothing consults, the block being neither written back nor read at the next point. -/
def out0_B_5 (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : ¬cond0_1 i)
    (x0 : Vec F S512x2048 .f32) (x1 : Vec F S40960x128 .f32) (x2 : Vec F S512x128 .f32) (x3 : Vec F S128x128 .f32) (x4 : Vec F S128x128 .f32) (xs0 : Vec F S512x128 .f32) : Vec F S512x128 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

/-- Case B's pieces for the accumulator cover it. -/
theorem scover0_B_0 (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : ¬cond0_1 i)
    (x0 : Vec F S512x2048 .f32) (x1 : Vec F S40960x128 .f32) (x2 : Vec F S512x128 .f32) (x3 : Vec F S128x128 .f32) (x4 : Vec F S128x128 .f32) (xs0 : Vec F S512x128 .f32) (y : S512x128.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S512x128.size (by sl_kernel_rfl) y

/-- What case B leaves in the accumulator: its pieces read back over arbitrary contents. -/
def sout0_B_0 (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : ¬cond0_1 i)
    (x0 : Vec F S512x2048 .f32) (x1 : Vec F S40960x128 .f32) (x2 : Vec F S512x128 .f32) (x3 : Vec F S128x128 .f32) (x4 : Vec F S128x128 .f32) (xs0 : Vec F S512x128 .f32) : Vec F S512x128 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-- Case C's pieces for the output block cover it. -/
theorem cover0_C_5 (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : cond0_1 i)
    (x0 : Vec F S512x2048 .f32) (x1 : Vec F S40960x128 .f32) (x2 : Vec F S512x128 .f32) (x3 : Vec F S128x128 .f32) (x4 : Vec F S128x128 .f32) (xs0 : Vec F S512x128 .f32) (y : S512x128.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S512x128.size (by sl_kernel_rfl) y

/-- What case C leaves in the output block: its pieces read back over arbitrary contents. -/
def out0_C_5 (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : cond0_1 i)
    (x0 : Vec F S512x2048 .f32) (x1 : Vec F S40960x128 .f32) (x2 : Vec F S512x128 .f32) (x3 : Vec F S128x128 .f32) (x4 : Vec F S128x128 .f32) (xs0 : Vec F S512x128 .f32) : Vec F S512x128 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

/-- Case C's pieces for the accumulator cover it. -/
theorem scover0_C_0 (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : cond0_1 i)
    (x0 : Vec F S512x2048 .f32) (x1 : Vec F S40960x128 .f32) (x2 : Vec F S512x128 .f32) (x3 : Vec F S128x128 .f32) (x4 : Vec F S128x128 .f32) (xs0 : Vec F S512x128 .f32) (y : S512x128.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S512x128.size (by sl_kernel_rfl) y

/-- What case C leaves in the accumulator: its pieces read back over arbitrary contents. -/
def sout0_C_0 (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : cond0_1 i)
    (x0 : Vec F S512x2048 .f32) (x1 : Vec F S40960x128 .f32) (x2 : Vec F S512x128 .f32) (x3 : Vec F S128x128 .f32) (x4 : Vec F S128x128 .f32) (xs0 : Vec F S512x128 .f32) : Vec F S512x128 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

/-! ## What the output block and the accumulator hold after each point -/

/-- The accumulation: the output block's staging buffer and the accumulator after the body at position `n`: the case the
    closed forms select at `n`, run at the point's memrefs and input blocks, the accumulator entered (cases B, C) at what
    position `n - 1` left. -/
def outsAt0 (c : Dev nD) : (n : ℕ) → n < cfg0.N → Vec F S512x128 .f32 × Vec F S512x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 20 = 0 then
      if h1 : (n + 1) % 20 = 19 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 20 = 19 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- `outsAt0` at a point of case A (k = 0): that case's contents. -/
theorem outsAt0_A (c : Dev nD) (t : Fin cfg0.N) (h0 : t.val % 20 = 0) (h1 : ¬t.val % 20 = 19) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

/-- `outsAt0` at a point of case B (0 < k < last): that case's contents, over what the point before left. -/
theorem outsAt0_B (c : Dev nD) (t : Fin cfg0.N) (h0 : ¬t.val % 20 = 0) (h1 : ¬t.val % 20 = 19) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C (k = last): that case's contents, over what the point before left. -/
theorem outsAt0_C (c : Dev nD) (t : Fin cfg0.N) (h0 : ¬t.val % 20 = 0) (h1 : t.val % 20 = 19) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the region's own (the accumulator and the other
    scoped buffers at anything, the generator register at some state); afterwards the same with the accumulator at what
    the point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulator at that point's contents. -/
theorem PhiS0_succ (c : Dev nD) (n : ℕ) (hn : n < cfg0.N) :
    PhiS0 V c (n + 1) hn = iprop(iprop(owns (c : Thread nD τ) scM0_0 fullShare ((outsAt0 V c n hn).2) ∗ restS0 (F := F) c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restS0 (F := F) c) ∗ (∃ r, prngReg c r)) := by
  cases n with
  | zero => exact absurd rfl hz
  | succ n => rfl

/-! ## The pipeline's proof data -/

/-- The proof data of pipeline 0 on core `c`: the arrays as the region finds them; after the body at point `t` each
    input's buffer at its block and the output's at `outsAt0`'s first component; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

theorem owed0 (c : Dev nD) (t : Fin (cfg0.N + 1)) : (dat0 V c).owed t = 0 := rfl
theorem q0 (c : Dev nD) (w : Fin cfg0.W) : (dat0 V c).q w = fullShare := rfl
theorem q_eq0 (c : Dev nD) (w : Fin cfg0.W) : (dat0 V c).q w = fullShare := rfl
theorem rec_eq0 (c : Dev nD) (t : Fin (cfg0.N + 1)) : (dat0 V c).recorded t = Set.univ := rfl

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' memrefs hold their blocks; the closed forms say which case the point is in; the
    case's run applies; the invariant hands the body the accumulator at what the point before left (at anything at the
    first point) and takes it back at this point's contents; the other scoped buffers, the generator register and the
    core's debt pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 160 := lt_of_lt_of_eq t.isLt (show cfg0.N = 160 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 20 = 0
  · by_cases h1 : t.val % 20 = 19
    · exfalso; omega
    · rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 20 = 19
    · rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C_5 sout0_C_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _)
    · rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the region's own back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 160 := N_0; omega)

end Cert.Kernel.Hand

end
-- ==== Proof.K.Shared1.lean ====
import proofs.«123040_j36550171689307_2_alg».proof.Proof.Gen.Kernel.Launch
import proofs.«123040_j36550171689307_2_alg».proof.Proof.Gen.Kernel.Skeleton
import proofs.«123040_j36550171689307_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 1: the body's two branch conditions

The grid is 2 × 4, a point is (row block, reduction step k). The first branch (zero the accumulator) is taken
at k = 0, the second (finish the row block and store the output) at k = 3. -/

/-- The first branch's condition, from the grid coordinates: k = 0, as the scalar chain spells it. -/
abbrev cond1_0 (i : grid1.Coords) : Prop := (Scalar.cmpi .ne (Scalar.extui (Scalar.cmpi .eq (BitVec.ofNat 32 (i 1).val) 0#32)) 0#32) = 1#1
/-- It holds exactly at the first step of each row block. -/
theorem hcond1_0 : ∀ t : Fin cfg1.N, cond1_0 (grid1.coords t) ↔ t.val % 4 = 0 :=
  (by decide +kernel : ∀ t : Fin grid1.N, cond1_0 (grid1.coords t) ↔ t.val % 4 = 0)

/-- The second branch's condition, from the grid coordinates: k = 3. -/
abbrev cond1_1 (i : grid1.Coords) : Prop := k1_cond2 i = 1#1
/-- It holds exactly at the last step of each row block. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle

Three cases of a point: A (k = 0: first branch only), B (0 < k < 3: neither), C (k = 3: second branch only).
The five inputs are never idle; the output window 5 is idle and not written back in cases A and B, live in case C. -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Case A: the output is idle (nothing is stored into it). -/
theorem idleAt1_5_A : ∀ t : Fin cfg1.N, cond1_0 (grid1.coords t) → ¬cond1_1 (grid1.coords t) → cfg1.idle 5 (grid1.coords t) = true := by decide +kernel
/-- Case A: the output's block is not written back. -/
theorem noFlush1_5_A : ∀ t : Fin cfg1.N, cond1_0 (grid1.coords t) → ¬cond1_1 (grid1.coords t) → (cfg1.win 5).flush t = false := by decide +kernel
/-- Case B: the output is idle. -/
theorem idleAt1_5_B : ∀ t : Fin cfg1.N, ¬cond1_0 (grid1.coords t) → ¬cond1_1 (grid1.coords t) → cfg1.idle 5 (grid1.coords t) = true := by decide +kernel
/-- Case B: the output's block is not written back. -/
theorem noFlush1_5_B : ∀ t : Fin cfg1.N, ¬cond1_0 (grid1.coords t) → ¬cond1_1 (grid1.coords t) → (cfg1.win 5).flush t = false := by decide +kernel
/-- Case C: the output is live (the case stores into it). -/
theorem liveAt1_5_C : ∀ t : Fin cfg1.N, ¬cond1_0 (grid1.coords t) → cond1_1 (grid1.coords t) → cfg1.idle 5 (grid1.coords t) = false := by decide +kernel
/-- The two conditions never hold together: k = 0 and k = 3 are different steps. -/
theorem cond1_excl : ∀ t : Fin cfg1.N, cond1_0 (grid1.coords t) → ¬cond1_1 (grid1.coords t) := by decide +kernel

/-! ## The staging memrefs and the carried accumulator -/

/-- One staging buffer of the output window, through which its contents are stated. -/
abbrev VO1_5 : View sig .tc .vmem S512x128 .f32 := (Memref.whole cc1_stg5_0 : Memref sig .tc .vmem S512x128 .f32).view
/-- Each window's current staging memref at point `t`, and its wholeness. -/
abbrev ms1_0 (t : Fin cfg1.N) : Memref sig .tc .vmem S512x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x128 .f32 := win1_5.stage (cfg1.slots t 5)
abbrev hs1_5 (t : Fin cfg1.N) : (ms1_5 t).IsWhole := hstage1_5 ((cfg1.slots t 5).cast nbuf1_5)
/-- The accumulator: a whole scoped buffer of the kernel's own, passed beside the windows and carried between points. -/
abbrev scM1_0 : Memref sig .tc .vmem S512x128 .f32 := Memref.whole cc1_scratch0
/-- The accumulator as a view: what it holds is stated through it. -/
abbrev VS1_0 : View sig .tc .vmem S512x128 .f32 := scM1_0.view

/-- The body at point `t` is the kernel on the current staging memrefs and the accumulator. -/
theorem bodyAt1_eq (t : Fin cfg1.N) : bodyAt1 (F := F) t
    = cc1_kernel (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) := rfl

/-- `∗` is commutative and associative: the last of eleven conjuncts moved to the front. -/
theorem sep_last_first (A1 A2 A3 A4 A5 A6 A7 A8 A9 A10 S : sProp 𝕄) :
    (iprop(A1 ∗ A2 ∗ A3 ∗ A4 ∗ A5 ∗ A6 ∗ A7 ∗ A8 ∗ A9 ∗ A10 ∗ S) : sProp 𝕄) = iprop(S ∗ A1 ∗ A2 ∗ A3 ∗ A4 ∗ A5 ∗ A6 ∗ A7 ∗ A8 ∗ A9 ∗ A10) := by
  have h1 : (iprop(A1 ∗ A2 ∗ A3 ∗ A4 ∗ A5 ∗ A6 ∗ A7 ∗ A8 ∗ A9 ∗ A10 ∗ S) : sProp 𝕄) ⊢ iprop(S ∗ A1 ∗ A2 ∗ A3 ∗ A4 ∗ A5 ∗ A6 ∗ A7 ∗ A8 ∗ A9 ∗ A10) := by
    iintro ⟨H1, H2, H3, H4, H5, H6, H7, H8, H9, H10, HS⟩
    isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  have h2 : (iprop(S ∗ A1 ∗ A2 ∗ A3 ∗ A4 ∗ A5 ∗ A6 ∗ A7 ∗ A8 ∗ A9 ∗ A10) : sProp 𝕄) ⊢ iprop(A1 ∗ A2 ∗ A3 ∗ A4 ∗ A5 ∗ A6 ∗ A7 ∗ A8 ∗ A9 ∗ A10 ∗ S) := by
    iintro ⟨HS, H1, H2, H3, H4, H5, H6, H7, H8, H9, H10⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS
  exact BI.Entails.antisymm h1 h2

/-- The scoped buffers of the core that region 1 neither stages through nor uses: the other region's staging
    buffers and accumulator, each whole at some contents. -/
def restS1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f))

/-- The region invariant: the accumulator owned at some contents, the other region's scoped buffers at some
    contents, and the generator register at some state (the scoped buffers reordered: `∗` is commutative). -/
theorem PhiA1_eq (c : Dev nD) :
    (Pipeline.ΦA spec1 c : sProp 𝕄)
      = iprop(iprop((∃ d, owns (c : Thread nD τ) scM1_0 fullShare d) ∗ restS1 (F := F) c) ∗ (∃ r, prngReg c r)) := by
  unfold Pipeline.ΦA restS1; rw [scopedRest1_eq]; simp only [scM1_0, owns_whole]
  rw [sep_last_first]; rfl

end Cert.Kernel.Hand

end
-- ==== Proof.K.Run1A.lean ====
import proofs.«123040_j36550171689307_2_alg».proof.Proof.K.Shared1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Region 1, case A — the first reduction step of a row block (first branch taken, second not): the accumulator, at anything on entry,
    is zeroed and then receives the step's product; the output block is left as it was.
    The pieces the stores leave in the output block (`L5`) and in the accumulator (`LS0`), last first, with the
    triple: from the five inputs owned at their contents, the output block and the accumulator, the kernel runs to
    a continuation that is handed the inputs back as they were, the output block, and the accumulator with its
    pieces written. -/
noncomputable def kernelRun1_A (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond1_0 i) (hc1 : ¬cond1_1 i)
    (x0 : Vec F S512x2048 .f32) (x1 : Vec F S8192x128 .f32) (x2 : Vec F S512x128 .f32) (x3 : Vec F S128x128 .f32) (x4 : Vec F S128x128 .f32) :
    Σ' (L5 : List (View.Piece (Elt F) S512x128 .f32)), { LS0 : List (View.Piece (Elt F) S512x128 .f32) //
      ∀ (xi5 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, fun xi5 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.K.Run1B.lean ====
import proofs.«123040_j36550171689307_2_alg».proof.Proof.K.Run1A

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Region 1, case B — a middle reduction step (neither branch taken): the accumulator, at what the step before left, receives the
    step's product; the output block is left as it was.
    The pieces the stores leave in the output block (`L5`) and in the accumulator (`LS0`), last first, with the
    triple: from the five inputs owned at their contents, the output block and the accumulator, the kernel runs to
    a continuation that is handed the inputs back as they were, the output block, and the accumulator with its
    pieces written. -/
noncomputable def kernelRun1_B (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : ¬cond1_1 i)
    (x0 : Vec F S512x2048 .f32) (x1 : Vec F S8192x128 .f32) (x2 : Vec F S512x128 .f32) (x3 : Vec F S128x128 .f32) (x4 : Vec F S128x128 .f32) (xs0 : Vec F S512x128 .f32) :
    Σ' (L5 : List (View.Piece (Elt F) S512x128 .f32)), { LS0 : List (View.Piece (Elt F) S512x128 .f32) //
      ∀ (xi5 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, fun xi5 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.K.Run1C.lean ====
import proofs.«123040_j36550171689307_2_alg».proof.Proof.K.Run1B

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Region 1, case C — the last reduction step of a row block (second branch taken, first not): the accumulator, at what the step before
    left, receives the step's product, and the output block is stored from it, the destination block and the two weights.
    The pieces the stores leave in the output block (`L5`) and in the accumulator (`LS0`), last first, with the
    triple: from the five inputs owned at their contents, the output block and the accumulator, the kernel runs to
    a continuation that is handed the inputs back as they were, the output block, and the accumulator with its
    pieces written. -/
noncomputable def kernelRun1_C (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : cond1_1 i)
    (x0 : Vec F S512x2048 .f32) (x1 : Vec F S8192x128 .f32) (x2 : Vec F S512x128 .f32) (x3 : Vec F S128x128 .f32) (x4 : Vec F S128x128 .f32) (xs0 : Vec F S512x128 .f32) :
    Σ' (L5 : List (View.Piece (Elt F) S512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.K.Region1.lean ====
import proofs.«123040_j36550171689307_2_alg».proof.Proof.K.Run1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when region 1 is entered: everything below is stated at this parameter
variable (V : (c : Dev nD) → (b : Ref sig .tc) → Buf (Elt F) ((c : Thread nD τ).loc b))

/-! ## Region 1: the windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved), for any proof data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved), for any proof data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the
    block index has not moved), for any proof data whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, the
    block index has not moved), for any proof data whose array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output block and in the accumulator -/

/-- Case A stores nothing into the output block: an arbitrary value (its empty list of pieces read back over arbitrary
    contents) that nothing consults, the block being neither written back nor read at the next point. -/
def out1_A_5 (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond1_0 i) (hc1 : ¬cond1_1 i)
    (x0 : Vec F S512x2048 .f32) (x1 : Vec F S8192x128 .f32) (x2 : Vec F S512x128 .f32) (x3 : Vec F S128x128 .f32) (x4 : Vec F S128x128 .f32) : Vec F S512x128 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- Case A's pieces for the accumulator cover it. -/
theorem scover1_A_0 (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond1_0 i) (hc1 : ¬cond1_1 i)
    (x0 : Vec F S512x2048 .f32) (x1 : Vec F S8192x128 .f32) (x2 : Vec F S512x128 .f32) (x3 : Vec F S128x128 .f32) (x4 : Vec F S128x128 .f32) (y : S512x128.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S512x128.size (by sl_kernel_rfl) y

/-- What case A leaves in the accumulator: its pieces read back over arbitrary contents. -/
def sout1_A_0 (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond1_0 i) (hc1 : ¬cond1_1 i)
    (x0 : Vec F S512x2048 .f32) (x1 : Vec F S8192x128 .f32) (x2 : Vec F S512x128 .f32) (x3 : Vec F S128x128 .f32) (x4 : Vec F S128x128 .f32) : Vec F S512x128 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- Case B stores nothing into the output block: an arbitrary value (its empty list of pieces read back over arbitrary
    contents) that nothing consults, the block being neither written back nor read at the next point. -/
def out1_B_5 (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : ¬cond1_1 i)
    (x0 : Vec F S512x2048 .f32) (x1 : Vec F S8192x128 .f32) (x2 : Vec F S512x128 .f32) (x3 : Vec F S128x128 .f32) (x4 : Vec F S128x128 .f32) (xs0 : Vec F S512x128 .f32) : Vec F S512x128 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- Case B's pieces for the accumulator cover it. -/
theorem scover1_B_0 (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : ¬cond1_1 i)
    (x0 : Vec F S512x2048 .f32) (x1 : Vec F S8192x128 .f32) (x2 : Vec F S512x128 .f32) (x3 : Vec F S128x128 .f32) (x4 : Vec F S128x128 .f32) (xs0 : Vec F S512x128 .f32) (y : S512x128.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S512x128.size (by sl_kernel_rfl) y

/-- What case B leaves in the accumulator: its pieces read back over arbitrary contents. -/
def sout1_B_0 (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : ¬cond1_1 i)
    (x0 : Vec F S512x2048 .f32) (x1 : Vec F S8192x128 .f32) (x2 : Vec F S512x128 .f32) (x3 : Vec F S128x128 .f32) (x4 : Vec F S128x128 .f32) (xs0 : Vec F S512x128 .f32) : Vec F S512x128 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- Case C's pieces for the output block cover it. -/
theorem cover1_C_5 (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : cond1_1 i)
    (x0 : Vec F S512x2048 .f32) (x1 : Vec F S8192x128 .f32) (x2 : Vec F S512x128 .f32) (x3 : Vec F S128x128 .f32) (x4 : Vec F S128x128 .f32) (xs0 : Vec F S512x128 .f32) (y : S512x128.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S512x128.size (by sl_kernel_rfl) y

/-- What case C leaves in the output block: its pieces read back over arbitrary contents. -/
def out1_C_5 (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : cond1_1 i)
    (x0 : Vec F S512x2048 .f32) (x1 : Vec F S8192x128 .f32) (x2 : Vec F S512x128 .f32) (x3 : Vec F S128x128 .f32) (x4 : Vec F S128x128 .f32) (xs0 : Vec F S512x128 .f32) : Vec F S512x128 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- Case C's pieces for the accumulator cover it. -/
theorem scover1_C_0 (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : cond1_1 i)
    (x0 : Vec F S512x2048 .f32) (x1 : Vec F S8192x128 .f32) (x2 : Vec F S512x128 .f32) (x3 : Vec F S128x128 .f32) (x4 : Vec F S128x128 .f32) (xs0 : Vec F S512x128 .f32) (y : S512x128.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S512x128.size (by sl_kernel_rfl) y

/-- What case C leaves in the accumulator: its pieces read back over arbitrary contents. -/
def sout1_C_0 (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : cond1_1 i)
    (x0 : Vec F S512x2048 .f32) (x1 : Vec F S8192x128 .f32) (x2 : Vec F S512x128 .f32) (x3 : Vec F S128x128 .f32) (x4 : Vec F S128x128 .f32) (xs0 : Vec F S512x128 .f32) : Vec F S512x128 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-! ## What the output block and the accumulator hold after each point -/

/-- The accumulation: the output block's staging buffer and the accumulator after the body at position `n`: the case the
    closed forms select at `n`, run at the point's memrefs and input blocks, the accumulator entered (cases B, C) at what
    position `n - 1` left. -/
def outsAt1 (c : Dev nD) : (n : ℕ) → n < cfg1.N → Vec F S512x128 .f32 × Vec F S512x128 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of case A (k = 0): that case's contents. -/
theorem outsAt1_A (c : Dev nD) (t : Fin cfg1.N) (h0 : t.val % 4 = 0) (h1 : ¬t.val % 4 = 3) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of case B (0 < k < last): that case's contents, over what the point before left. -/
theorem outsAt1_B (c : Dev nD) (t : Fin cfg1.N) (h0 : ¬t.val % 4 = 0) (h1 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C (k = last): that case's contents, over what the point before left. -/
theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the region's own (the accumulator and the other
    scoped buffers at anything, the generator register at some state); afterwards the same with the accumulator at what
    the point before left in it. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restS1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ restS1 (F := F) c) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restS1 (F := F) c) ∗ (∃ r, prngReg c r)) := by
  cases n with
  | zero => exact absurd rfl hz
  | succ n => rfl

/-! ## The pipeline's proof data -/

/-- The proof data of pipeline 1 on core `c`: the arrays as the region finds them; after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem owed1 (c : Dev nD) (t : Fin (cfg1.N + 1)) : (dat1 V c).owed t = 0 := rfl
theorem q1 (c : Dev nD) (w : Fin cfg1.W) : (dat1 V c).q w = fullShare := rfl
theorem q_eq1 (c : Dev nD) (w : Fin cfg1.W) : (dat1 V c).q w = fullShare := rfl
theorem rec_eq1 (c : Dev nD) (t : Fin (cfg1.N + 1)) : (dat1 V c).recorded t = Set.univ := rfl

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms say which case the point is in; the
    case's run applies; the invariant hands the body the accumulator at what the point before left (at anything at the
    first point) and takes it back at this point's contents; the other scoped buffers, the generator register and the
    core's debt pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 4 = 0
  · by_cases h1 : t.val % 4 = 3
    · exfalso; omega
    · rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the region's own back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 8 := N_1; omega)

end Cert.Kernel.Hand

end
-- ==== Proof.K.Frame.lean ====
/-
  The assembly of the two-hop forward pass as a run of segments.

  @main is thirteen items: eleven stretches of host operations and two kernel regions (items 1 and 3). Between two items
  core c holds every unscoped buffer whole at a valuation — the launch contents, folded through each host stretch, updated
  at a region's output array by what the region's write-backs leave — beside its generator register at some state and its
  dues at nothing. Each region is a segment record over its pipeline's proof data taken at the region's ENTRY valuation:
  the windows' arrays are split out of the unscoped buffers at entry and put back at exit, where an input window's array
  is as entered and the output window's array is the fold of the write-backs; the generator register and the scoped
  buffers no window stages go into the region's invariant and come back out; nothing is owed at any point.

  `runK`: from any memory with zero counters every weakly fair execution terminates, the result buffer ends at the last
  valuation's contents and every argument array ends as launched. `frameK` is its second half.
-/
import proofs.«123040_j36550171689307_2_alg».proof.Proof.Gen.Kernel.Regions
import proofs.«123040_j36550171689307_2_alg».proof.Proof.K.Region0
import proofs.«123040_j36550171689307_2_alg».proof.Proof.K.Region1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents the two regions leave -/

/-- Region 0's entry contents, read at the TensorCore's references. -/
abbrev VE0 : (c : Dev nD) → (b : Ref sig .tc) → Buf (Elt F) ((c : Thread nD τ).loc b) := fun c b => Gen.V1 m c b

/-- Core c's buffers as region 0 leaves them: each array of the region at what its write-backs leave, every other buffer as entered. -/
def W2 (c : Dev nD) : Valuation τ sig (Elt F) :=
  Pipeline.withArrays spec0 c (Gen.V1 m c) fun w => (dat0 (VE0 m) c).arrAt w cfg0.N

/-- The unknowns with region 0's contribution only (region 1's entry contents are written over it). -/
def outs0 : Gen.Outs (F := F) := fun _ r c => W2 m c r

/-- Region 1's entry contents, read at the TensorCore's references. -/
abbrev VE1 : (c : Dev nD) → (b : Ref sig .tc) → Buf (Elt F) ((c : Thread nD τ).loc b) := fun c b => Gen.V3 m (outs0 m) c b

/-- Core c's buffers as region 1 leaves them. -/
def W4 (c : Dev nD) : Valuation τ sig (Elt F) :=
  Pipeline.withArrays spec1 c (Gen.V3 m (outs0 m) c) fun w => (dat1 (VE1 m) c).arrAt w cfg1.N

/-- What the regions leave: after item 3 region 1's arrays, before that region 0's. -/
def outsK : Gen.Outs (F := F) := fun J r c => match J with
  | 4 => W4 m c r
  | _ => W2 m c r

theorem outsK_2 (c : Dev nD) : outsK m 2 main_v23 c = (dat0 (VE0 m) c).arrAt (5 : Fin 6) cfg0.N := by
  show W2 m c (Proc.devRef .tc (Pipeline.arrRef spec0 (5 : Fin 6))) = _
  unfold W2; exact Pipeline.withArrays_arr spec0 launch0.win.arr_inj c _ _ (5 : Fin 6)

theorem V3_outsK (c : Dev nD) : Gen.V3 m (outsK m) c = Gen.V3 m (outs0 m) c := rfl

theorem outsK_4 (c : Dev nD) : outsK m 4 main_v40 c = (dat1 (VE1 m) c).arrAt (5 : Fin 6) cfg1.N := by
  show W4 m c (Proc.devRef .tc (Pipeline.arrRef spec1 (5 : Fin 6))) = _
  unfold W4; exact Pipeline.withArrays_arr spec1 launch1.win.arr_inj c _ _ (5 : Fin 6)

/-! ## Each region's arrays at its exit, every other buffer as entered -/

/-- Region 0's exit contents, read at the TensorCore's references. -/
abbrev VX0 : (c : Dev nD) → (b : Ref sig .tc) → Buf (Elt F) ((c : Thread nD τ).loc b) := fun c b => Gen.V2 m (outsK m) c b
/-- Region 1's exit contents, read at the TensorCore's references. -/
abbrev VX1 : (c : Dev nD) → (b : Ref sig .tc) → Buf (Elt F) ((c : Thread nD τ).loc b) := fun c b => Gen.V4 m (outsK m) c b

/-- Every window of region 0 but the last is an input window, over an array other than the output's. -/
theorem isIn0 : ∀ w : Fin 6, w ≠ 5 → (cfg0.win w).isOut = false := by decide
theorem arr_ne0 : ∀ w : Fin 6, w ≠ 5 → Pipeline.arrRef spec0 w ∉ ([main_v23] : List (Ref sig .tc)) := by decide
theorem isIn1 : ∀ w : Fin 6, w ≠ 5 → (cfg1.win w).isOut = false := by decide
theorem arr_ne1 : ∀ w : Fin 6, w ≠ 5 → Pipeline.arrRef spec1 w ∉ ([main_v40] : List (Ref sig .tc)) := by decide

/-- An input window's array ends region 0 as it entered it; the output window's array is what the valuation was updated to. -/
theorem hF0 (c : Dev nD) (w : Fin 6) : (dat0 (VE0 m) c).arrAt w cfg0.N = VX0 m c (Pipeline.arrRef spec0 w) := by
  by_cases h : w = 5
  · subst h; exact (outsK_2 m c).symm.trans (by simp only [VX0, Gen.V2, Function.update_self])
  · exact ((dat0 (VE0 m) c).arrAt_in w (isIn0 w h) _).trans ((A_eq0 (VE0 m) c w).trans (Gen.V2_of m (outsK m) c _ (arr_ne0 w h)).symm)

theorem hrest0 (c : Dev nD) : ∀ b, b ∉ Finset.univ.image (Pipeline.arrRef spec0) → VX0 m c b = VE0 m c b :=
  fun b hb => Gen.V2_of m (outsK m) c b fun h => hb (Finset.mem_image.mpr ⟨(5 : Fin 6), Finset.mem_univ _, (List.mem_singleton.mp h).symm⟩)

theorem hF1 (c : Dev nD) (w : Fin 6) : (dat1 (VE1 m) c).arrAt w cfg1.N = VX1 m c (Pipeline.arrRef spec1 w) := by
  by_cases h : w = 5
  · subst h; exact (outsK_4 m c).symm.trans (by simp only [VX1, Gen.V4, Function.update_self])
  · exact ((dat1 (VE1 m) c).arrAt_in w (isIn1 w h) _).trans ((A_eq1 (VE1 m) c w).trans (Gen.V4_of m (outsK m) c _ (arr_ne1 w h)).symm)

theorem hrest1 (c : Dev nD) : ∀ b, b ∉ Finset.univ.image (Pipeline.arrRef spec1) → VX1 m c b = VE1 m c b :=
  fun b hb => Gen.V4_of m (outsK m) c b fun h => hb (Finset.mem_image.mpr ⟨(5 : Fin 6), Finset.mem_univ _, (List.mem_singleton.mp h).symm⟩)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (VE0 m) c
  | ⟨1, _⟩ => fun c => dat1 (VE1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

set_option backward.isDefEq.respectTransparency.types false in
/-- REGION 0 over the thread state: entered from every unscoped buffer at the entry contents, left at the exit contents.
    Its arrays are split out of the unscoped buffers and put back at what the write-backs leave; the generator register
    goes into the region invariant and comes out; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun c t => owed0 (VE0 m) c t
  pre c := iprop(StableHlo.held (c : Thread nD τ) (Pipeline.ucRefs τ sig) (Gen.V1 m c) ∗ R c)
  post c := iprop(StableHlo.held (c : Thread nD τ) (Pipeline.ucRefs τ sig) (Gen.V2 m (outsK m) c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) Gen.adm (pdats m) launch0.win launch0.arr_whole c
      ((pdats m 0 c).share_full fun w => q_eq0 (VE0 m) c w) (VE0 m c) fun w => A_eq0 (VE0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from owed0 (VE0 m) c 0]
      icases HO with ⟨%W, HO⟩; iexists W; isplitr
      · ipureintro; exact fun _ _ => Or.inl (by rw [show (pdats m 0 c).recorded 0 = Set.univ from rec_eq0 (VE0 m) c 0]; trivial)
      iexact HO
    isplitl [Hp]; · iexact Hp
    iexact Hrest
  hin c := by
    refine BIBase.Entails.trans ?_ (hin0 (VE0 m) c)
    unfold Pipeline.ΦA
    iintro ⟨Hp, -, Hr⟩
    isplitl [Hr]; · iexact Hr
    iexact Hp
  hout c := by
    rw [Pipeline.ownSems0_none]
    refine BIBase.Entails.trans (hout0 (VE0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun w => q_eq0 (VE0 m) c w)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last _) = 0 from owed0 (VE0 m) c _]
    icases HO with ⟨%W, -, HO⟩; iexists W; iexact HO

set_option backward.isDefEq.respectTransparency.types false in
/-- REGION 1 over the thread state: entered from every unscoped buffer at the entry contents, left at the exit contents.
    Its arrays are split out of the unscoped buffers and put back at what the write-backs leave; the generator register
    goes into the region invariant and comes out; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun c t => owed1 (VE1 m) c t
  pre c := iprop(StableHlo.held (c : Thread nD τ) (Pipeline.ucRefs τ sig) (Gen.V3 m (outs0 m) c) ∗ R c)
  post c := iprop(StableHlo.held (c : Thread nD τ) (Pipeline.ucRefs τ sig) (Gen.V4 m (outsK m) c) ∗ R c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) Gen.adm (pdats m) launch1.win launch1.arr_whole c
      ((pdats m 1 c).share_full fun w => q_eq1 (VE1 m) c w) (VE1 m c) fun w => A_eq1 (VE1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from owed1 (VE1 m) c 0]
      icases HO with ⟨%W, HO⟩; iexists W; isplitr
      · ipureintro; exact fun _ _ => Or.inl (by rw [show (pdats m 1 c).recorded 0 = Set.univ from rec_eq1 (VE1 m) c 0]; trivial)
      iexact HO
    isplitl [Hp]; · iexact Hp
    iexact Hrest
  hin c := by
    refine BIBase.Entails.trans ?_ (hin1 (VE1 m) c)
    unfold Pipeline.ΦA
    iintro ⟨Hp, -, Hr⟩
    isplitl [Hr]; · iexact Hr
    iexact Hp
  hout c := by
    rw [Pipeline.ownSems0_none]
    refine BIBase.Entails.trans (hout1 (VE1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun w => q_eq1 (VE1 m) c w)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 1 c).owed (Fin.last _) = 0 from owed1 (VE1 m) c _]
    icases HO with ⟨%W, -, HO⟩; iexists W; iexact HO

/-! ## @main's run -/

/-- The rest state between any two items. -/
abbrev EK : Fin 3 → Dev nD → sProp 𝕄 := fun _ c => R c

set_option backward.isDefEq.respectTransparency.types false in
/-- THE RUN. From any memory with zero counters every weakly fair execution of @main terminates, and in every final memory
    the result buffer holds the last valuation's contents — the host stretches folded over the launch contents, each
    region's output array at what its write-backs leave — and each argument is as launched. -/
theorem runK (ρ : Dev nD → PrngReg) :
    θ_run defs (onTc (τ := τ) (main (F := F))) ⟨m, fun _ => 0, ρ⟩ (fun r => ∀ c : Dev nD,
      r.2.mem ((c.tc : Thread nD τ).loc main_v81) = Gen.V13 m (outsK m) c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) := by
  refine Pipeline.θ_run_regions_kit_dev (pcfgs (F := F)) Gen.adm (pdats m) () cellOf_inj emb₁ defs₀ 𝒱₀ L lv m ρ main
    (fun c => Gen.segs m (outsK m) 𝒱₀ L lv EK () (pdats m) (reg0 m) (reg1 m) c)
    (fun c Q => by
      rewrite [main_chain c, Seg.run_eq_chain,
        show (Gen.segs m (outsK m) 𝒱₀ L lv EK () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V13 m (outsK m) c))
    (hch := fun c => ⟨.rfl, .rfl, .rfl, .rfl, .rfl, .rfl, .rfl, .rfl, .rfl, .rfl, .rfl, .rfl, .rfl,
      sep_mono .rfl (by iintro ⟨-, HO⟩; iexact HO)⟩)
    (hinit := ?_)
    (QY := fun c s => s.mem ((c.tc : Thread nD τ).loc main_v81) = Gen.V13 m (outsK m) c (Proc.devRef .tc main_v81) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19))
    (hfin := fun c s' => ?_) (hQ := fun _ h => h)
  · -- the launch: each core's unscoped buffers are held at the launch contents, its generator register and its dues ride along
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result's buffer and each argument's read off the last valuation
    unfold StableHlo.held
    iintro ⟨Hh, HSI⟩
    ihave Hr := (pointsTo_read_all (Pipeline.ucRefs τ sig) (fun b => ((c : Thread nD τ).1, b)) (Gen.V13 m (outsK m) c) s') $$ [Hh HSI]
    · isplitl [Hh] <;> iassumption
    icases Hr with ⟨%h, HSI⟩
    imodintro
    isplitr
    · ipureintro
      exact ⟨h (Proc.devRef .tc main_v81) (Finset.mem_filter.mpr ⟨StableHlo.devRef_mem_tcRefs main_v81, by decide⟩),
        (h (Proc.devRef .tc main_arg0) (Finset.mem_filter.mpr ⟨StableHlo.devRef_mem_tcRefs main_arg0, by decide⟩)).trans (Gen.V13_main_arg0 m (outsK m) c),
        (h (Proc.devRef .tc main_arg1) (Finset.mem_filter.mpr ⟨StableHlo.devRef_mem_tcRefs main_arg1, by decide⟩)).trans (Gen.V13_main_arg1 m (outsK m) c),
        (h (Proc.devRef .tc main_arg2) (Finset.mem_filter.mpr ⟨StableHlo.devRef_mem_tcRefs main_arg2, by decide⟩)).trans (Gen.V13_main_arg2 m (outsK m) c),
        (h (Proc.devRef .tc main_arg3) (Finset.mem_filter.mpr ⟨StableHlo.devRef_mem_tcRefs main_arg3, by decide⟩)).trans (Gen.V13_main_arg3 m (outsK m) c),
        (h (Proc.devRef .tc main_arg4) (Finset.mem_filter.mpr ⟨StableHlo.devRef_mem_tcRefs main_arg4, by decide⟩)).trans (Gen.V13_main_arg4 m (outsK m) c),
        (h (Proc.devRef .tc main_arg5) (Finset.mem_filter.mpr ⟨StableHlo.devRef_mem_tcRefs main_arg5, by decide⟩)).trans (Gen.V13_main_arg5 m (outsK m) c),
        (h (Proc.devRef .tc main_arg6) (Finset.mem_filter.mpr ⟨StableHlo.devRef_mem_tcRefs main_arg6, by decide⟩)).trans (Gen.V13_main_arg6 m (outsK m) c),
        (h (Proc.devRef .tc main_arg7) (Finset.mem_filter.mpr ⟨StableHlo.devRef_mem_tcRefs main_arg7, by decide⟩)).trans (Gen.V13_main_arg7 m (outsK m) c),
        (h (Proc.devRef .tc main_arg8) (Finset.mem_filter.mpr ⟨StableHlo.devRef_mem_tcRefs main_arg8, by decide⟩)).trans (Gen.V13_main_arg8 m (outsK m) c),
        (h (Proc.devRef .tc main_arg9) (Finset.mem_filter.mpr ⟨StableHlo.devRef_mem_tcRefs main_arg9, by decide⟩)).trans (Gen.V13_main_arg9 m (outsK m) c),
        (h (Proc.devRef .tc main_arg10) (Finset.mem_filter.mpr ⟨StableHlo.devRef_mem_tcRefs main_arg10, by decide⟩)).trans (Gen.V13_main_arg10 m (outsK m) c),
        (h (Proc.devRef .tc main_arg11) (Finset.mem_filter.mpr ⟨StableHlo.devRef_mem_tcRefs main_arg11, by decide⟩)).trans (Gen.V13_main_arg11 m (outsK m) c),
        (h (Proc.devRef .tc main_arg12) (Finset.mem_filter.mpr ⟨StableHlo.devRef_mem_tcRefs main_arg12, by decide⟩)).trans (Gen.V13_main_arg12 m (outsK m) c),
        (h (Proc.devRef .tc main_arg13) (Finset.mem_filter.mpr ⟨StableHlo.devRef_mem_tcRefs main_arg13, by decide⟩)).trans (Gen.V13_main_arg13 m (outsK m) c),
        (h (Proc.devRef .tc main_arg14) (Finset.mem_filter.mpr ⟨StableHlo.devRef_mem_tcRefs main_arg14, by decide⟩)).trans (Gen.V13_main_arg14 m (outsK m) c),
        (h (Proc.devRef .tc main_arg15) (Finset.mem_filter.mpr ⟨StableHlo.devRef_mem_tcRefs main_arg15, by decide⟩)).trans (Gen.V13_main_arg15 m (outsK m) c),
        (h (Proc.devRef .tc main_arg16) (Finset.mem_filter.mpr ⟨StableHlo.devRef_mem_tcRefs main_arg16, by decide⟩)).trans (Gen.V13_main_arg16 m (outsK m) c),
        (h (Proc.devRef .tc main_arg17) (Finset.mem_filter.mpr ⟨StableHlo.devRef_mem_tcRefs main_arg17, by decide⟩)).trans (Gen.V13_main_arg17 m (outsK m) c),
        (h (Proc.devRef .tc main_arg18) (Finset.mem_filter.mpr ⟨StableHlo.devRef_mem_tcRefs main_arg18, by decide⟩)).trans (Gen.V13_main_arg18 m (outsK m) c),
        (h (Proc.devRef .tc main_arg19) (Finset.mem_filter.mpr ⟨StableHlo.devRef_mem_tcRefs main_arg19, by decide⟩)).trans (Gen.V13_main_arg19 m (outsK m) c)⟩
    · iexact HSI

/-- THE FRAME: every argument array ends as launched. -/
theorem frameK (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (runK m ρ).mono fun r h c => (h c).2

end Cert.Kernel.Hand

end
-- ==== Proof.KI.Shared0.lean ====
import proofs.«123040_j36550171689307_2_alg».proof.Proof.Gen.KernelIdeal.Launch
import proofs.«123040_j36550171689307_2_alg».proof.Proof.Gen.KernelIdeal.Skeleton
import proofs.«123040_j36550171689307_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0: the body's two branch conditions

The grid is 8 × 20, a point is (row block, reduction step k). The first branch (zero the accumulator) is taken
at k = 0, the second (finish the row block and store the output) at k = 19. -/

/-- The first branch's condition, from the grid coordinates: k = 0, as the scalar chain spells it. -/
abbrev cond0_0 (i : grid0.Coords) : Prop := (Scalar.cmpi .ne (Scalar.extui (Scalar.cmpi .eq (BitVec.ofNat 32 (i 1).val) 0#32)) 0#32) = 1#1
/-- It holds exactly at the first step of each row block. -/
theorem hcond0_0 : ∀ t : Fin cfg0.N, cond0_0 (grid0.coords t) ↔ t.val % 20 = 0 :=
  (by decide +kernel : ∀ t : Fin grid0.N, cond0_0 (grid0.coords t) ↔ t.val % 20 = 0)

/-- The second branch's condition, from the grid coordinates: k = 19. -/
abbrev cond0_1 (i : grid0.Coords) : Prop := k0_cond2 i = 1#1
/-- It holds exactly at the last step of each row block. -/
theorem hcond0_1 : ∀ t : Fin cfg0.N, cond0_1 (grid0.coords t) ↔ t.val % 20 = 19 :=
  (by decide +kernel : ∀ t : Fin grid0.N, cond0_1 (grid0.coords t) ↔ t.val % 20 = 19)

/-! ## Where the windows are idle

Three cases of a point: A (k = 0: first branch only), B (0 < k < 19: neither), C (k = 19: second branch only).
The five inputs are never idle; the output window 5 is idle and not written back in cases A and B, live in case C. -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Case A: the output is idle (nothing is stored into it). -/
theorem idleAt0_5_A : ∀ t : Fin cfg0.N, cond0_0 (grid0.coords t) → ¬cond0_1 (grid0.coords t) → cfg0.idle 5 (grid0.coords t) = true := by decide +kernel
/-- Case A: the output's block is not written back. -/
theorem noFlush0_5_A : ∀ t : Fin cfg0.N, cond0_0 (grid0.coords t) → ¬cond0_1 (grid0.coords t) → (cfg0.win 5).flush t = false := by decide +kernel
/-- Case B: the output is idle. -/
theorem idleAt0_5_B : ∀ t : Fin cfg0.N, ¬cond0_0 (grid0.coords t) → ¬cond0_1 (grid0.coords t) → cfg0.idle 5 (grid0.coords t) = true := by decide +kernel
/-- Case B: the output's block is not written back. -/
theorem noFlush0_5_B : ∀ t : Fin cfg0.N, ¬cond0_0 (grid0.coords t) → ¬cond0_1 (grid0.coords t) → (cfg0.win 5).flush t = false := by decide +kernel
/-- Case C: the output is live (the case stores into it). -/
theorem liveAt0_5_C : ∀ t : Fin cfg0.N, ¬cond0_0 (grid0.coords t) → cond0_1 (grid0.coords t) → cfg0.idle 5 (grid0.coords t) = false := by decide +kernel
/-- The two conditions never hold together: k = 0 and k = 19 are different steps. -/
theorem cond0_excl : ∀ t : Fin cfg0.N, cond0_0 (grid0.coords t) → ¬cond0_1 (grid0.coords t) := by decide +kernel

/-! ## The staging memrefs and the carried accumulator -/

/-- One staging buffer of the output window, through which its contents are stated. -/
abbrev VO0_5 : View sig .tc .vmem S512x128 .f32 := (Memref.whole cc0_stg5_0 : Memref sig .tc .vmem S512x128 .f32).view
/-- Each window's current staging memref at point `t`, and its wholeness. -/
abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S40960x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .f32 := win0_5.stage (cfg0.slots t 5)
abbrev hs0_5 (t : Fin cfg0.N) : (ms0_5 t).IsWhole := hstage0_5 ((cfg0.slots t 5).cast nbuf0_5)
/-- The accumulator: a whole scoped buffer of the kernel's own, passed beside the windows and carried between points. -/
abbrev scM0_0 : Memref sig .tc .vmem S512x128 .f32 := Memref.whole cc0_scratch0
/-- The accumulator as a view: what it holds is stated through it. -/
abbrev VS0_0 : View sig .tc .vmem S512x128 .f32 := scM0_0.view

/-- The body at point `t` is the kernel on the current staging memrefs and the accumulator. -/
theorem bodyAt0_eq (t : Fin cfg0.N) : bodyAt0 (F := F) t
    = cc0_kernel (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) := rfl

/-- The scoped buffers of the core that region 0 neither stages through nor uses: the other region's staging
    buffers and accumulator, each whole at some contents. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- The region invariant: the accumulator owned at some contents, the other region's scoped buffers at some
    contents, and the generator register at some state. -/
theorem PhiA0_eq (c : Dev nD) :
    (Pipeline.ΦA spec0 c : sProp 𝕄)
      = iprop(iprop((∃ d, owns (c : Thread nD τ) scM0_0 fullShare d) ∗ restS0 (F := F) c) ∗ (∃ r, prngReg c r)) := by
  unfold Pipeline.ΦA restS0; rw [scopedRest0_eq]; simp only [scM0_0, owns_whole]; try rfl

end Cert.KernelIdeal.Hand

end
-- ==== Proof.KI.Run0A.lean ====
import proofs.«123040_j36550171689307_2_alg».proof.Proof.KI.Shared0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Region 0, case A — the first reduction step of a row block (first branch taken, second not): the accumulator, at anything on entry,
    is zeroed and then receives the step's product; the output block is left as it was.
    The pieces the stores leave in the output block (`L5`) and in the accumulator (`LS0`), last first, with the
    triple: from the five inputs owned at their contents, the output block and the accumulator, the kernel runs to
    a continuation that is handed the inputs back as they were, the output block, and the accumulator with its
    pieces written. -/
noncomputable def kernelRun0_A (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond0_0 i) (hc1 : ¬cond0_1 i)
    (x0 : Vec F S512x2048 .f32) (x1 : Vec F S40960x128 .f32) (x2 : Vec F S512x128 .f32) (x3 : Vec F S128x128 .f32) (x4 : Vec F S128x128 .f32) :
    Σ' (L5 : List (View.Piece (Elt F) S512x128 .f32)), { LS0 : List (View.Piece (Elt F) S512x128 .f32) //
      ∀ (xi5 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨[], ?_, fun xi5 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI.Run0B.lean ====
import proofs.«123040_j36550171689307_2_alg».proof.Proof.KI.Run0A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Region 0, case B — a middle reduction step (neither branch taken): the accumulator, at what the step before left, receives the
    step's product; the output block is left as it was.
    The pieces the stores leave in the output block (`L5`) and in the accumulator (`LS0`), last first, with the
    triple: from the five inputs owned at their contents, the output block and the accumulator, the kernel runs to
    a continuation that is handed the inputs back as they were, the output block, and the accumulator with its
    pieces written. -/
noncomputable def kernelRun0_B (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : ¬cond0_1 i)
    (x0 : Vec F S512x2048 .f32) (x1 : Vec F S40960x128 .f32) (x2 : Vec F S512x128 .f32) (x3 : Vec F S128x128 .f32) (x4 : Vec F S128x128 .f32) (xs0 : Vec F S512x128 .f32) :
    Σ' (L5 : List (View.Piece (Elt F) S512x128 .f32)), { LS0 : List (View.Piece (Elt F) S512x128 .f32) //
      ∀ (xi5 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨[], ?_, fun xi5 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI.Run0C.lean ====
import proofs.«123040_j36550171689307_2_alg».proof.Proof.KI.Run0B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Region 0, case C — the last reduction step of a row block (second branch taken, first not): the accumulator, at what the step before
    left, receives the step's product, and the output block is stored from it, the destination block and the two weights.
    The pieces the stores leave in the output block (`L5`) and in the accumulator (`LS0`), last first, with the
    triple: from the five inputs owned at their contents, the output block and the accumulator, the kernel runs to
    a continuation that is handed the inputs back as they were, the output block, and the accumulator with its
    pieces written. -/
noncomputable def kernelRun0_C (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : cond0_1 i)
    (x0 : Vec F S512x2048 .f32) (x1 : Vec F S40960x128 .f32) (x2 : Vec F S512x128 .f32) (x3 : Vec F S128x128 .f32) (x4 : Vec F S128x128 .f32) (xs0 : Vec F S512x128 .f32) :
    Σ' (L5 : List (View.Piece (Elt F) S512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0_kernel i arg2 harg2 arg3 harg3 arg4 harg4 arg5 harg5 arg6 harg6 arg7 harg7 arg8 harg8) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI.Region0.lean ====
import proofs.«123040_j36550171689307_2_alg».proof.Proof.KI.Run0C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when region 0 is entered: everything below is stated at this parameter
variable (V : (c : Dev nD) → (b : Ref sig .tc) → Buf (Elt F) ((c : Thread nD τ).loc b))

/-! ## Region 0: the windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (unfetched, the
    block index has not moved), for any proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (unfetched, the
    block index has not moved), for any proof data whose array is the entry contents and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (unfetched, the
    block index has not moved), for any proof data whose array is the entry contents and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (unfetched, the
    block index has not moved), for any proof data whose array is the entry contents and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (unfetched, the
    block index has not moved), for any proof data whose array is the entry contents and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves in the output block and in the accumulator -/

/-- Case A stores nothing into the output block: an arbitrary value (its empty list of pieces read back over arbitrary
    contents) that nothing consults, the block being neither written back nor read at the next point. -/
def out0_A_5 (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond0_0 i) (hc1 : ¬cond0_1 i)
    (x0 : Vec F S512x2048 .f32) (x1 : Vec F S40960x128 .f32) (x2 : Vec F S512x128 .f32) (x3 : Vec F S128x128 .f32) (x4 : Vec F S128x128 .f32) : Vec F S512x128 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3 x4).1)

/-- Case A's pieces for the accumulator cover it. -/
theorem scover0_A_0 (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond0_0 i) (hc1 : ¬cond0_1 i)
    (x0 : Vec F S512x2048 .f32) (x1 : Vec F S40960x128 .f32) (x2 : Vec F S512x128 .f32) (x3 : Vec F S128x128 .f32) (x4 : Vec F S128x128 .f32) (y : S512x128.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S512x128.size (by sl_kernel_rfl) y

/-- What case A leaves in the accumulator: its pieces read back over arbitrary contents. -/
def sout0_A_0 (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond0_0 i) (hc1 : ¬cond0_1 i)
    (x0 : Vec F S512x2048 .f32) (x1 : Vec F S40960x128 .f32) (x2 : Vec F S512x128 .f32) (x3 : Vec F S128x128 .f32) (x4 : Vec F S128x128 .f32) : Vec F S512x128 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

/-- Case B stores nothing into the output block: an arbitrary value (its empty list of pieces read back over arbitrary
    contents) that nothing consults, the block being neither written back nor read at the next point. -/
def out0_B_5 (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : ¬cond0_1 i)
    (x0 : Vec F S512x2048 .f32) (x1 : Vec F S40960x128 .f32) (x2 : Vec F S512x128 .f32) (x3 : Vec F S128x128 .f32) (x4 : Vec F S128x128 .f32) (xs0 : Vec F S512x128 .f32) : Vec F S512x128 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

/-- Case B's pieces for the accumulator cover it. -/
theorem scover0_B_0 (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : ¬cond0_1 i)
    (x0 : Vec F S512x2048 .f32) (x1 : Vec F S40960x128 .f32) (x2 : Vec F S512x128 .f32) (x3 : Vec F S128x128 .f32) (x4 : Vec F S128x128 .f32) (xs0 : Vec F S512x128 .f32) (y : S512x128.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S512x128.size (by sl_kernel_rfl) y

/-- What case B leaves in the accumulator: its pieces read back over arbitrary contents. -/
def sout0_B_0 (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : ¬cond0_1 i)
    (x0 : Vec F S512x2048 .f32) (x1 : Vec F S40960x128 .f32) (x2 : Vec F S512x128 .f32) (x3 : Vec F S128x128 .f32) (x4 : Vec F S128x128 .f32) (xs0 : Vec F S512x128 .f32) : Vec F S512x128 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-- Case C's pieces for the output block cover it. -/
theorem cover0_C_5 (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : cond0_1 i)
    (x0 : Vec F S512x2048 .f32) (x1 : Vec F S40960x128 .f32) (x2 : Vec F S512x128 .f32) (x3 : Vec F S128x128 .f32) (x4 : Vec F S128x128 .f32) (xs0 : Vec F S512x128 .f32) (y : S512x128.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S512x128.size (by sl_kernel_rfl) y

/-- What case C leaves in the output block: its pieces read back over arbitrary contents. -/
def out0_C_5 (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : cond0_1 i)
    (x0 : Vec F S512x2048 .f32) (x1 : Vec F S40960x128 .f32) (x2 : Vec F S512x128 .f32) (x3 : Vec F S128x128 .f32) (x4 : Vec F S128x128 .f32) (xs0 : Vec F S512x128 .f32) : Vec F S512x128 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

/-- Case C's pieces for the accumulator cover it. -/
theorem scover0_C_0 (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : cond0_1 i)
    (x0 : Vec F S512x2048 .f32) (x1 : Vec F S40960x128 .f32) (x2 : Vec F S512x128 .f32) (x3 : Vec F S128x128 .f32) (x4 : Vec F S128x128 .f32) (xs0 : Vec F S512x128 .f32) (y : S512x128.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S512x128.size (by sl_kernel_rfl) y

/-- What case C leaves in the accumulator: its pieces read back over arbitrary contents. -/
def sout0_C_0 (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : cond0_1 i)
    (x0 : Vec F S512x2048 .f32) (x1 : Vec F S40960x128 .f32) (x2 : Vec F S512x128 .f32) (x3 : Vec F S128x128 .f32) (x4 : Vec F S128x128 .f32) (xs0 : Vec F S512x128 .f32) : Vec F S512x128 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

/-! ## What the output block and the accumulator hold after each point -/

/-- The accumulation: the output block's staging buffer and the accumulator after the body at position `n`: the case the
    closed forms select at `n`, run at the point's memrefs and input blocks, the accumulator entered (cases B, C) at what
    position `n - 1` left. -/
def outsAt0 (c : Dev nD) : (n : ℕ) → n < cfg0.N → Vec F S512x128 .f32 × Vec F S512x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 20 = 0 then
      if h1 : (n + 1) % 20 = 19 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 20 = 19 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- `outsAt0` at a point of case A (k = 0): that case's contents. -/
theorem outsAt0_A (c : Dev nD) (t : Fin cfg0.N) (h0 : t.val % 20 = 0) (h1 : ¬t.val % 20 = 19) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

/-- `outsAt0` at a point of case B (0 < k < last): that case's contents, over what the point before left. -/
theorem outsAt0_B (c : Dev nD) (t : Fin cfg0.N) (h0 : ¬t.val % 20 = 0) (h1 : ¬t.val % 20 = 19) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C (k = last): that case's contents, over what the point before left. -/
theorem outsAt0_C (c : Dev nD) (t : Fin cfg0.N) (h0 : ¬t.val % 20 = 0) (h1 : t.val % 20 = 19) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the region's own (the accumulator and the other
    scoped buffers at anything, the generator register at some state); afterwards the same with the accumulator at what
    the point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the accumulator at that point's contents. -/
theorem PhiS0_succ (c : Dev nD) (n : ℕ) (hn : n < cfg0.N) :
    PhiS0 V c (n + 1) hn = iprop(iprop(owns (c : Thread nD τ) scM0_0 fullShare ((outsAt0 V c n hn).2) ∗ restS0 (F := F) c) ∗ (∃ r, prngReg c r)) := rfl

/-- Before a point that is not the first: the accumulator at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restS0 (F := F) c) ∗ (∃ r, prngReg c r)) := by
  cases n with
  | zero => exact absurd rfl hz
  | succ n => rfl

/-! ## The pipeline's proof data -/

/-- The proof data of pipeline 0 on core `c`: the arrays as the region finds them; after the body at point `t` each
    input's buffer at its block and the output's at `outsAt0`'s first component; the invariant `PhiS0`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

theorem owed0 (c : Dev nD) (t : Fin (cfg0.N + 1)) : (dat0 V c).owed t = 0 := rfl
theorem q0 (c : Dev nD) (w : Fin cfg0.W) : (dat0 V c).q w = fullShare := rfl
theorem q_eq0 (c : Dev nD) (w : Fin cfg0.W) : (dat0 V c).q w = fullShare := rfl
theorem rec_eq0 (c : Dev nD) (t : Fin (cfg0.N + 1)) : (dat0 V c).recorded t = Set.univ := rfl

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' memrefs hold their blocks; the closed forms say which case the point is in; the
    case's run applies; the invariant hands the body the accumulator at what the point before left (at anything at the
    first point) and takes it back at this point's contents; the other scoped buffers, the generator register and the
    core's debt pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  have hN : t.val < 160 := lt_of_lt_of_eq t.isLt (show cfg0.N = 160 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  by_cases h0 : t.val % 20 = 0
  · by_cases h1 : t.val % 20 = 19
    · exfalso; omega
    · rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 20 = 19
    · rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C_5 sout0_C_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _)
    · rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the region's own back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 160 := N_0; omega)

end Cert.KernelIdeal.Hand

end
-- ==== Proof.KI.Shared1.lean ====
import proofs.«123040_j36550171689307_2_alg».proof.Proof.Gen.KernelIdeal.Launch
import proofs.«123040_j36550171689307_2_alg».proof.Proof.Gen.KernelIdeal.Skeleton
import proofs.«123040_j36550171689307_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 1: the body's two branch conditions

The grid is 2 × 4, a point is (row block, reduction step k). The first branch (zero the accumulator) is taken
at k = 0, the second (finish the row block and store the output) at k = 3. -/

/-- The first branch's condition, from the grid coordinates: k = 0, as the scalar chain spells it. -/
abbrev cond1_0 (i : grid1.Coords) : Prop := (Scalar.cmpi .ne (Scalar.extui (Scalar.cmpi .eq (BitVec.ofNat 32 (i 1).val) 0#32)) 0#32) = 1#1
/-- It holds exactly at the first step of each row block. -/
theorem hcond1_0 : ∀ t : Fin cfg1.N, cond1_0 (grid1.coords t) ↔ t.val % 4 = 0 :=
  (by decide +kernel : ∀ t : Fin grid1.N, cond1_0 (grid1.coords t) ↔ t.val % 4 = 0)

/-- The second branch's condition, from the grid coordinates: k = 3. -/
abbrev cond1_1 (i : grid1.Coords) : Prop := k1_cond2 i = 1#1
/-- It holds exactly at the last step of each row block. -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle

Three cases of a point: A (k = 0: first branch only), B (0 < k < 3: neither), C (k = 3: second branch only).
The five inputs are never idle; the output window 5 is idle and not written back in cases A and B, live in case C. -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Case A: the output is idle (nothing is stored into it). -/
theorem idleAt1_5_A : ∀ t : Fin cfg1.N, cond1_0 (grid1.coords t) → ¬cond1_1 (grid1.coords t) → cfg1.idle 5 (grid1.coords t) = true := by decide +kernel
/-- Case A: the output's block is not written back. -/
theorem noFlush1_5_A : ∀ t : Fin cfg1.N, cond1_0 (grid1.coords t) → ¬cond1_1 (grid1.coords t) → (cfg1.win 5).flush t = false := by decide +kernel
/-- Case B: the output is idle. -/
theorem idleAt1_5_B : ∀ t : Fin cfg1.N, ¬cond1_0 (grid1.coords t) → ¬cond1_1 (grid1.coords t) → cfg1.idle 5 (grid1.coords t) = true := by decide +kernel
/-- Case B: the output's block is not written back. -/
theorem noFlush1_5_B : ∀ t : Fin cfg1.N, ¬cond1_0 (grid1.coords t) → ¬cond1_1 (grid1.coords t) → (cfg1.win 5).flush t = false := by decide +kernel
/-- Case C: the output is live (the case stores into it). -/
theorem liveAt1_5_C : ∀ t : Fin cfg1.N, ¬cond1_0 (grid1.coords t) → cond1_1 (grid1.coords t) → cfg1.idle 5 (grid1.coords t) = false := by decide +kernel
/-- The two conditions never hold together: k = 0 and k = 3 are different steps. -/
theorem cond1_excl : ∀ t : Fin cfg1.N, cond1_0 (grid1.coords t) → ¬cond1_1 (grid1.coords t) := by decide +kernel

/-! ## The staging memrefs and the carried accumulator -/

/-- One staging buffer of the output window, through which its contents are stated. -/
abbrev VO1_5 : View sig .tc .vmem S512x128 .f32 := (Memref.whole cc1_stg5_0 : Memref sig .tc .vmem S512x128 .f32).view
/-- Each window's current staging memref at point `t`, and its wholeness. -/
abbrev ms1_0 (t : Fin cfg1.N) : Memref sig .tc .vmem S512x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x128 .f32 := win1_5.stage (cfg1.slots t 5)
abbrev hs1_5 (t : Fin cfg1.N) : (ms1_5 t).IsWhole := hstage1_5 ((cfg1.slots t 5).cast nbuf1_5)
/-- The accumulator: a whole scoped buffer of the kernel's own, passed beside the windows and carried between points. -/
abbrev scM1_0 : Memref sig .tc .vmem S512x128 .f32 := Memref.whole cc1_scratch0
/-- The accumulator as a view: what it holds is stated through it. -/
abbrev VS1_0 : View sig .tc .vmem S512x128 .f32 := scM1_0.view

/-- The body at point `t` is the kernel on the current staging memrefs and the accumulator. -/
theorem bodyAt1_eq (t : Fin cfg1.N) : bodyAt1 (F := F) t
    = cc1_kernel (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) := rfl

/-- `∗` is commutative and associative: the last of eleven conjuncts moved to the front. -/
theorem sep_last_first (A1 A2 A3 A4 A5 A6 A7 A8 A9 A10 S : sProp 𝕄) :
    (iprop(A1 ∗ A2 ∗ A3 ∗ A4 ∗ A5 ∗ A6 ∗ A7 ∗ A8 ∗ A9 ∗ A10 ∗ S) : sProp 𝕄) = iprop(S ∗ A1 ∗ A2 ∗ A3 ∗ A4 ∗ A5 ∗ A6 ∗ A7 ∗ A8 ∗ A9 ∗ A10) := by
  have h1 : (iprop(A1 ∗ A2 ∗ A3 ∗ A4 ∗ A5 ∗ A6 ∗ A7 ∗ A8 ∗ A9 ∗ A10 ∗ S) : sProp 𝕄) ⊢ iprop(S ∗ A1 ∗ A2 ∗ A3 ∗ A4 ∗ A5 ∗ A6 ∗ A7 ∗ A8 ∗ A9 ∗ A10) := by
    iintro ⟨H1, H2, H3, H4, H5, H6, H7, H8, H9, H10, HS⟩
    isplitl [HS]; · iexact HS
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  have h2 : (iprop(S ∗ A1 ∗ A2 ∗ A3 ∗ A4 ∗ A5 ∗ A6 ∗ A7 ∗ A8 ∗ A9 ∗ A10) : sProp 𝕄) ⊢ iprop(A1 ∗ A2 ∗ A3 ∗ A4 ∗ A5 ∗ A6 ∗ A7 ∗ A8 ∗ A9 ∗ A10 ∗ S) := by
    iintro ⟨HS, H1, H2, H3, H4, H5, H6, H7, H8, H9, H10⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact HS
  exact BI.Entails.antisymm h1 h2

/-- The scoped buffers of the core that region 1 neither stages through nor uses: the other region's staging
    buffers and accumulator, each whole at some contents. -/
def restS1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f))

/-- The region invariant: the accumulator owned at some contents, the other region's scoped buffers at some
    contents, and the generator register at some state (the scoped buffers reordered: `∗` is commutative). -/
theorem PhiA1_eq (c : Dev nD) :
    (Pipeline.ΦA spec1 c : sProp 𝕄)
      = iprop(iprop((∃ d, owns (c : Thread nD τ) scM1_0 fullShare d) ∗ restS1 (F := F) c) ∗ (∃ r, prngReg c r)) := by
  unfold Pipeline.ΦA restS1; rw [scopedRest1_eq]; simp only [scM1_0, owns_whole]
  rw [sep_last_first]; rfl

end Cert.KernelIdeal.Hand

end
-- ==== Proof.KI.Run1A.lean ====
import proofs.«123040_j36550171689307_2_alg».proof.Proof.KI.Shared1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Region 1, case A — the first reduction step of a row block (first branch taken, second not): the accumulator, at anything on entry,
    is zeroed and then receives the step's product; the output block is left as it was.
    The pieces the stores leave in the output block (`L5`) and in the accumulator (`LS0`), last first, with the
    triple: from the five inputs owned at their contents, the output block and the accumulator, the kernel runs to
    a continuation that is handed the inputs back as they were, the output block, and the accumulator with its
    pieces written. -/
noncomputable def kernelRun1_A (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond1_0 i) (hc1 : ¬cond1_1 i)
    (x0 : Vec F S512x2048 .f32) (x1 : Vec F S8192x128 .f32) (x2 : Vec F S512x128 .f32) (x3 : Vec F S128x128 .f32) (x4 : Vec F S128x128 .f32) :
    Σ' (L5 : List (View.Piece (Elt F) S512x128 .f32)), { LS0 : List (View.Piece (Elt F) S512x128 .f32) //
      ∀ (xi5 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, fun xi5 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI.Run1B.lean ====
import proofs.«123040_j36550171689307_2_alg».proof.Proof.KI.Run1A

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Region 1, case B — a middle reduction step (neither branch taken): the accumulator, at what the step before left, receives the
    step's product; the output block is left as it was.
    The pieces the stores leave in the output block (`L5`) and in the accumulator (`LS0`), last first, with the
    triple: from the five inputs owned at their contents, the output block and the accumulator, the kernel runs to
    a continuation that is handed the inputs back as they were, the output block, and the accumulator with its
    pieces written. -/
noncomputable def kernelRun1_B (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : ¬cond1_1 i)
    (x0 : Vec F S512x2048 .f32) (x1 : Vec F S8192x128 .f32) (x2 : Vec F S512x128 .f32) (x3 : Vec F S128x128 .f32) (x4 : Vec F S128x128 .f32) (xs0 : Vec F S512x128 .f32) :
    Σ' (L5 : List (View.Piece (Elt F) S512x128 .f32)), { LS0 : List (View.Piece (Elt F) S512x128 .f32) //
      ∀ (xi5 : Vec F S512x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨[], ?_, fun xi5 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI.Run1C.lean ====
import proofs.«123040_j36550171689307_2_alg».proof.Proof.KI.Run1B

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Region 1, case C — the last reduction step of a row block (second branch taken, first not): the accumulator, at what the step before
    left, receives the step's product, and the output block is stored from it, the destination block and the two weights.
    The pieces the stores leave in the output block (`L5`) and in the accumulator (`LS0`), last first, with the
    triple: from the five inputs owned at their contents, the output block and the accumulator, the kernel runs to
    a continuation that is handed the inputs back as they were, the output block, and the accumulator with its
    pieces written. -/
noncomputable def kernelRun1_C (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : cond1_1 i)
    (x0 : Vec F S512x2048 .f32) (x1 : Vec F S8192x128 .f32) (x2 : Vec F S512x128 .f32) (x3 : Vec F S128x128 .f32) (x4 : Vec F S128x128 .f32) (xs0 : Vec F S512x128 .f32) :
    Σ' (L5 : List (View.Piece (Elt F) S512x128 .f32)), { LS0 : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI.Region1.lean ====
import proofs.«123040_j36550171689307_2_alg».proof.Proof.KI.Run1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when region 1 is entered: everything below is stated at this parameter
variable (V : (c : Dev nD) → (b : Ref sig .tc) → Buf (Elt F) ((c : Thread nD τ).loc b))

/-! ## Region 1: the windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved), for any proof data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved), for any proof data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not (unfetched, the
    block index has not moved), for any proof data whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not (unfetched, the
    block index has not moved), for any proof data whose array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output block and in the accumulator -/

/-- Case A stores nothing into the output block: an arbitrary value (its empty list of pieces read back over arbitrary
    contents) that nothing consults, the block being neither written back nor read at the next point. -/
def out1_A_5 (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond1_0 i) (hc1 : ¬cond1_1 i)
    (x0 : Vec F S512x2048 .f32) (x1 : Vec F S8192x128 .f32) (x2 : Vec F S512x128 .f32) (x3 : Vec F S128x128 .f32) (x4 : Vec F S128x128 .f32) : Vec F S512x128 .f32 :=
  VO1_5.read (Elt F) (VO1_5.writes (Elt F) VO1_5.junk (kernelRun1_A c i arg2 harg2 arg3 harg3 arg4 harg4 arg5 harg5 arg6 harg6 arg7 harg7 arg8 harg8 hc0 hc1 x0 x1 x2 x3 x4).1)

/-- Case A's pieces for the accumulator cover it. -/
theorem scover1_A_0 (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond1_0 i) (hc1 : ¬cond1_1 i)
    (x0 : Vec F S512x2048 .f32) (x1 : Vec F S8192x128 .f32) (x2 : Vec F S512x128 .f32) (x3 : Vec F S128x128 .f32) (x4 : Vec F S128x128 .f32) (y : S512x128.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S512x128.size (by sl_kernel_rfl) y

/-- What case A leaves in the accumulator: its pieces read back over arbitrary contents. -/
def sout1_A_0 (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond1_0 i) (hc1 : ¬cond1_1 i)
    (x0 : Vec F S512x2048 .f32) (x1 : Vec F S8192x128 .f32) (x2 : Vec F S512x128 .f32) (x3 : Vec F S128x128 .f32) (x4 : Vec F S128x128 .f32) : Vec F S512x128 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2 x3 x4).2.1)

/-- Case B stores nothing into the output block: an arbitrary value (its empty list of pieces read back over arbitrary
    contents) that nothing consults, the block being neither written back nor read at the next point. -/
def out1_B_5 (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : ¬cond1_1 i)
    (x0 : Vec F S512x2048 .f32) (x1 : Vec F S8192x128 .f32) (x2 : Vec F S512x128 .f32) (x3 : Vec F S128x128 .f32) (x4 : Vec F S128x128 .f32) (xs0 : Vec F S512x128 .f32) : Vec F S512x128 .f32 :=
  VO1_5.read (Elt F) (VO1_5.writes (Elt F) VO1_5.junk (kernelRun1_B c i arg2 harg2 arg3 harg3 arg4 harg4 arg5 harg5 arg6 harg6 arg7 harg7 arg8 harg8 hc0 hc1 x0 x1 x2 x3 x4 xs0).1)

/-- Case B's pieces for the accumulator cover it. -/
theorem scover1_B_0 (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : ¬cond1_1 i)
    (x0 : Vec F S512x2048 .f32) (x1 : Vec F S8192x128 .f32) (x2 : Vec F S512x128 .f32) (x3 : Vec F S128x128 .f32) (x4 : Vec F S128x128 .f32) (xs0 : Vec F S512x128 .f32) (y : S512x128.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S512x128.size (by sl_kernel_rfl) y

/-- What case B leaves in the accumulator: its pieces read back over arbitrary contents. -/
def sout1_B_0 (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : ¬cond1_1 i)
    (x0 : Vec F S512x2048 .f32) (x1 : Vec F S8192x128 .f32) (x2 : Vec F S512x128 .f32) (x3 : Vec F S128x128 .f32) (x4 : Vec F S128x128 .f32) (xs0 : Vec F S512x128 .f32) : Vec F S512x128 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 x3 x4 xs0).2.1)

/-- Case C's pieces for the output block cover it. -/
theorem cover1_C_5 (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : cond1_1 i)
    (x0 : Vec F S512x2048 .f32) (x1 : Vec F S8192x128 .f32) (x2 : Vec F S512x128 .f32) (x3 : Vec F S128x128 .f32) (x4 : Vec F S128x128 .f32) (xs0 : Vec F S512x128 .f32) (y : S512x128.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S512x128.size (by sl_kernel_rfl) y

/-- What case C leaves in the output block: its pieces read back over arbitrary contents. -/
def out1_C_5 (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : cond1_1 i)
    (x0 : Vec F S512x2048 .f32) (x1 : Vec F S8192x128 .f32) (x2 : Vec F S512x128 .f32) (x3 : Vec F S128x128 .f32) (x4 : Vec F S128x128 .f32) (xs0 : Vec F S512x128 .f32) : Vec F S512x128 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- Case C's pieces for the accumulator cover it. -/
theorem scover1_C_0 (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : cond1_1 i)
    (x0 : Vec F S512x2048 .f32) (x1 : Vec F S8192x128 .f32) (x2 : Vec F S512x128 .f32) (x3 : Vec F S128x128 .f32) (x4 : Vec F S128x128 .f32) (xs0 : Vec F S512x128 .f32) (y : S512x128.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S512x128.size (by sl_kernel_rfl) y

/-- What case C leaves in the accumulator: its pieces read back over arbitrary contents. -/
def sout1_C_0 (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : cond1_1 i)
    (x0 : Vec F S512x2048 .f32) (x1 : Vec F S8192x128 .f32) (x2 : Vec F S512x128 .f32) (x3 : Vec F S128x128 .f32) (x4 : Vec F S128x128 .f32) (xs0 : Vec F S512x128 .f32) : Vec F S512x128 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 x3 x4 xs0).2.1)

/-! ## What the output block and the accumulator hold after each point -/

/-- The accumulation: the output block's staging buffer and the accumulator after the body at position `n`: the case the
    closed forms select at `n`, run at the point's memrefs and input blocks, the accumulator entered (cases B, C) at what
    position `n - 1` left. -/
def outsAt1 (c : Dev nD) : (n : ℕ) → n < cfg1.N → Vec F S512x128 .f32 × Vec F S512x128 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 4 = 0 then
      if h1 : (n + 1) % 4 = 3 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if h1 : (n + 1) % 4 = 3 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- `outsAt1` at a point of case A (k = 0): that case's contents. -/
theorem outsAt1_A (c : Dev nD) (t : Fin cfg1.N) (h0 : t.val % 4 = 0) (h1 : ¬t.val % 4 = 3) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans ((dif_neg h1).trans rfl)

/-- `outsAt1` at a point of case B (0 < k < last): that case's contents, over what the point before left. -/
theorem outsAt1_B (c : Dev nD) (t : Fin cfg1.N) (h0 : ¬t.val % 4 = 0) (h1 : ¬t.val % 4 = 3) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C (k = last): that case's contents, over what the point before left. -/
theorem outsAt1_C (c : Dev nD) (t : Fin cfg1.N) (h0 : ¬t.val % 4 = 0) (h1 : t.val % 4 = 3) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the region's own (the accumulator and the other
    scoped buffers at anything, the generator register at some state); afterwards the same with the accumulator at what
    the point before left in it. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restS1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ restS1 (F := F) c) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restS1 (F := F) c) ∗ (∃ r, prngReg c r)) := by
  cases n with
  | zero => exact absurd rfl hz
  | succ n => rfl

/-! ## The pipeline's proof data -/

/-- The proof data of pipeline 1 on core `c`: the arrays as the region finds them; after the body at point `t` each
    input's buffer at its block and the output's at `outsAt1`'s first component; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem owed1 (c : Dev nD) (t : Fin (cfg1.N + 1)) : (dat1 V c).owed t = 0 := rfl
theorem q1 (c : Dev nD) (w : Fin cfg1.W) : (dat1 V c).q w = fullShare := rfl
theorem q_eq1 (c : Dev nD) (w : Fin cfg1.W) : (dat1 V c).q w = fullShare := rfl
theorem rec_eq1 (c : Dev nD) (t : Fin (cfg1.N + 1)) : (dat1 V c).recorded t = Set.univ := rfl

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms say which case the point is in; the
    case's run applies; the invariant hands the body the accumulator at what the point before left (at anything at the
    first point) and takes it back at this point's contents; the other scoped buffers, the generator register and the
    core's debt pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 4 = 0
  · by_cases h1 : t.val % 4 = 3
    · exfalso; omega
    · rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold out1_C_5 sout1_C_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) ((hcond1_1 t).mpr h1) (iblk1 V c 0 t) (iblk1 V c 1 t) (iblk1 V c 2 t) (iblk1 V c 3 t) (iblk1 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover1_C_5 c _ _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩, ⟨%d4, H4⟩, ⟨%d5, H5⟩⟩
        iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the region's own back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 8 := N_1; omega)

end Cert.KernelIdeal.Hand

end
-- ==== Proof.KI.Frame.lean ====
/-
  The assembly of the two-hop forward pass as a run of segments.

  @main is thirteen items: eleven stretches of host operations and two kernel regions (items 1 and 3). Between two items
  core c holds every unscoped buffer whole at a valuation — the launch contents, folded through each host stretch, updated
  at a region's output array by what the region's write-backs leave — beside its generator register at some state and its
  dues at nothing. Each region is a segment record over its pipeline's proof data taken at the region's ENTRY valuation:
  the windows' arrays are split out of the unscoped buffers at entry and put back at exit, where an input window's array
  is as entered and the output window's array is the fold of the write-backs; the generator register and the scoped
  buffers no window stages go into the region's invariant and come back out; nothing is owed at any point.

  `runKI`: from any memory with zero counters every weakly fair execution terminates, the result buffer ends at the last
  valuation's contents and every argument array ends as launched. `frameKI` is its second half.
-/
import proofs.«123040_j36550171689307_2_alg».proof.Proof.Gen.KernelIdeal.Regions
import proofs.«123040_j36550171689307_2_alg».proof.Proof.KI.Region0
import proofs.«123040_j36550171689307_2_alg».proof.Proof.KI.Region1
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The contents the two regions leave -/

/-- Region 0's entry contents, read at the TensorCore's references. -/
abbrev VE0 : (c : Dev nD) → (b : Ref sig .tc) → Buf (Elt F) ((c : Thread nD τ).loc b) := fun c b => Gen.V1 m c b

/-- Core c's buffers as region 0 leaves them: each array of the region at what its write-backs leave, every other buffer as entered. -/
def W2 (c : Dev nD) : Valuation τ sig (Elt F) :=
  Pipeline.withArrays spec0 c (Gen.V1 m c) fun w => (dat0 (VE0 m) c).arrAt w cfg0.N

/-- The unknowns with region 0's contribution only (region 1's entry contents are written over it). -/
def outs0 : Gen.Outs (F := F) := fun _ r c => W2 m c r

/-- Region 1's entry contents, read at the TensorCore's references. -/
abbrev VE1 : (c : Dev nD) → (b : Ref sig .tc) → Buf (Elt F) ((c : Thread nD τ).loc b) := fun c b => Gen.V3 m (outs0 m) c b

/-- Core c's buffers as region 1 leaves them. -/
def W4 (c : Dev nD) : Valuation τ sig (Elt F) :=
  Pipeline.withArrays spec1 c (Gen.V3 m (outs0 m) c) fun w => (dat1 (VE1 m) c).arrAt w cfg1.N

/-- What the regions leave: after item 3 region 1's arrays, before that region 0's. -/
def outsK : Gen.Outs (F := F) := fun J r c => match J with
  | 4 => W4 m c r
  | _ => W2 m c r

theorem outsK_2 (c : Dev nD) : outsK m 2 main_v23 c = (dat0 (VE0 m) c).arrAt (5 : Fin 6) cfg0.N := by
  show W2 m c (Proc.devRef .tc (Pipeline.arrRef spec0 (5 : Fin 6))) = _
  unfold W2; exact Pipeline.withArrays_arr spec0 launch0.win.arr_inj c _ _ (5 : Fin 6)

theorem V3_outsK (c : Dev nD) : Gen.V3 m (outsK m) c = Gen.V3 m (outs0 m) c := rfl

theorem outsK_4 (c : Dev nD) : outsK m 4 main_v40 c = (dat1 (VE1 m) c).arrAt (5 : Fin 6) cfg1.N := by
  show W4 m c (Proc.devRef .tc (Pipeline.arrRef spec1 (5 : Fin 6))) = _
  unfold W4; exact Pipeline.withArrays_arr spec1 launch1.win.arr_inj c _ _ (5 : Fin 6)

/-! ## Each region's arrays at its exit, every other buffer as entered -/

/-- Region 0's exit contents, read at the TensorCore's references. -/
abbrev VX0 : (c : Dev nD) → (b : Ref sig .tc) → Buf (Elt F) ((c : Thread nD τ).loc b) := fun c b => Gen.V2 m (outsK m) c b
/-- Region 1's exit contents, read at the TensorCore's references. -/
abbrev VX1 : (c : Dev nD) → (b : Ref sig .tc) → Buf (Elt F) ((c : Thread nD τ).loc b) := fun c b => Gen.V4 m (outsK m) c b

/-- Every window of region 0 but the last is an input window, over an array other than the output's. -/
theorem isIn0 : ∀ w : Fin 6, w ≠ 5 → (cfg0.win w).isOut = false := by decide
theorem arr_ne0 : ∀ w : Fin 6, w ≠ 5 → Pipeline.arrRef spec0 w ∉ ([main_v23] : List (Ref sig .tc)) := by decide
theorem isIn1 : ∀ w : Fin 6, w ≠ 5 → (cfg1.win w).isOut = false := by decide
theorem arr_ne1 : ∀ w : Fin 6, w ≠ 5 → Pipeline.arrRef spec1 w ∉ ([main_v40] : List (Ref sig .tc)) := by decide

/-- An input window's array ends region 0 as it entered it; the output window's array is what the valuation was updated to. -/
theorem hF0 (c : Dev nD) (w : Fin 6) : (dat0 (VE0 m) c).arrAt w cfg0.N = VX0 m c (Pipeline.arrRef spec0 w) := by
  by_cases h : w = 5
  · subst h; exact (outsK_2 m c).symm.trans (by simp only [VX0, Gen.V2, Function.update_self])
  · exact ((dat0 (VE0 m) c).arrAt_in w (isIn0 w h) _).trans ((A_eq0 (VE0 m) c w).trans (Gen.V2_of m (outsK m) c _ (arr_ne0 w h)).symm)

theorem hrest0 (c : Dev nD) : ∀ b, b ∉ Finset.univ.image (Pipeline.arrRef spec0) → VX0 m c b = VE0 m c b :=
  fun b hb => Gen.V2_of m (outsK m) c b fun h => hb (Finset.mem_image.mpr ⟨(5 : Fin 6), Finset.mem_univ _, (List.mem_singleton.mp h).symm⟩)

theorem hF1 (c : Dev nD) (w : Fin 6) : (dat1 (VE1 m) c).arrAt w cfg1.N = VX1 m c (Pipeline.arrRef spec1 w) := by
  by_cases h : w = 5
  · subst h; exact (outsK_4 m c).symm.trans (by simp only [VX1, Gen.V4, Function.update_self])
  · exact ((dat1 (VE1 m) c).arrAt_in w (isIn1 w h) _).trans ((A_eq1 (VE1 m) c w).trans (Gen.V4_of m (outsK m) c _ (arr_ne1 w h)).symm)

theorem hrest1 (c : Dev nD) : ∀ b, b ∉ Finset.univ.image (Pipeline.arrRef spec1) → VX1 m c b = VE1 m c b :=
  fun b hb => Gen.V4_of m (outsK m) c b fun h => hb (Finset.mem_image.mpr ⟨(5 : Fin 6), Finset.mem_univ _, (List.mem_singleton.mp h).symm⟩)

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (VE0 m) c
  | ⟨1, _⟩ => fun c => dat1 (VE1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

set_option backward.isDefEq.respectTransparency.types false in
/-- REGION 0 over the thread state: entered from every unscoped buffer at the entry contents, left at the exit contents.
    Its arrays are split out of the unscoped buffers and put back at what the write-backs leave; the generator register
    goes into the region invariant and comes out; nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun c t => owed0 (VE0 m) c t
  pre c := iprop(StableHlo.held (c : Thread nD τ) (Pipeline.ucRefs τ sig) (Gen.V1 m c) ∗ R c)
  post c := iprop(StableHlo.held (c : Thread nD τ) (Pipeline.ucRefs τ sig) (Gen.V2 m (outsK m) c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) Gen.adm (pdats m) launch0.win launch0.arr_whole c
      ((pdats m 0 c).share_full fun w => q_eq0 (VE0 m) c w) (VE0 m c) fun w => A_eq0 (VE0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from owed0 (VE0 m) c 0]
      icases HO with ⟨%W, HO⟩; iexists W; isplitr
      · ipureintro; exact fun _ _ => Or.inl (by rw [show (pdats m 0 c).recorded 0 = Set.univ from rec_eq0 (VE0 m) c 0]; trivial)
      iexact HO
    isplitl [Hp]; · iexact Hp
    iexact Hrest
  hin c := by
    refine BIBase.Entails.trans ?_ (hin0 (VE0 m) c)
    unfold Pipeline.ΦA
    iintro ⟨Hp, -, Hr⟩
    isplitl [Hr]; · iexact Hr
    iexact Hp
  hout c := by
    rw [Pipeline.ownSems0_none]
    refine BIBase.Entails.trans (hout0 (VE0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun w => q_eq0 (VE0 m) c w)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last _) = 0 from owed0 (VE0 m) c _]
    icases HO with ⟨%W, -, HO⟩; iexists W; iexact HO

set_option backward.isDefEq.respectTransparency.types false in
/-- REGION 1 over the thread state: entered from every unscoped buffer at the entry contents, left at the exit contents.
    Its arrays are split out of the unscoped buffers and put back at what the write-backs leave; the generator register
    goes into the region invariant and comes out; nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun c t => owed1 (VE1 m) c t
  pre c := iprop(StableHlo.held (c : Thread nD τ) (Pipeline.ucRefs τ sig) (Gen.V3 m (outs0 m) c) ∗ R c)
  post c := iprop(StableHlo.held (c : Thread nD τ) (Pipeline.ucRefs τ sig) (Gen.V4 m (outsK m) c) ∗ R c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) Gen.adm (pdats m) launch1.win launch1.arr_whole c
      ((pdats m 1 c).share_full fun w => q_eq1 (VE1 m) c w) (VE1 m c) fun w => A_eq1 (VE1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from owed1 (VE1 m) c 0]
      icases HO with ⟨%W, HO⟩; iexists W; isplitr
      · ipureintro; exact fun _ _ => Or.inl (by rw [show (pdats m 1 c).recorded 0 = Set.univ from rec_eq1 (VE1 m) c 0]; trivial)
      iexact HO
    isplitl [Hp]; · iexact Hp
    iexact Hrest
  hin c := by
    refine BIBase.Entails.trans ?_ (hin1 (VE1 m) c)
    unfold Pipeline.ΦA
    iintro ⟨Hp, -, Hr⟩
    isplitl [Hr]; · iexact Hr
    iexact Hp
  hout c := by
    rw [Pipeline.ownSems0_none]
    refine BIBase.Entails.trans (hout1 (VE1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun w => q_eq1 (VE1 m) c w)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 1 c).owed (Fin.last _) = 0 from owed1 (VE1 m) c _]
    icases HO with ⟨%W, -, HO⟩; iexists W; iexact HO

/-! ## @main's run -/

/-- The rest state between any two items. -/
abbrev EK : Fin 3 → Dev nD → sProp 𝕄 := fun _ c => R c

set_option backward.isDefEq.respectTransparency.types false in
/-- THE RUN. From any memory with zero counters every weakly fair execution of @main terminates, and in every final memory
    the result buffer holds the last valuation's contents — the host stretches folded over the launch contents, each
    region's output array at what its write-backs leave — and each argument is as launched. -/
theorem runKI (ρ : Dev nD → PrngReg) :
    θ_run defs (onTc (τ := τ) (main (F := F))) ⟨m, fun _ => 0, ρ⟩ (fun r => ∀ c : Dev nD,
      r.2.mem ((c.tc : Thread nD τ).loc main_v81) = Gen.V13 m (outsK m) c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) := by
  refine Pipeline.θ_run_regions_kit_dev (pcfgs (F := F)) Gen.adm (pdats m) () cellOf_inj emb₁ defs₀ 𝒱₀ L lv m ρ main
    (fun c => Gen.segs m (outsK m) 𝒱₀ L lv EK () (pdats m) (reg0 m) (reg1 m) c)
    (fun c Q => by
      rewrite [main_chain c, Seg.run_eq_chain,
        show (Gen.segs m (outsK m) 𝒱₀ L lv EK () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8 ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V13 m (outsK m) c))
    (hch := fun c => ⟨.rfl, .rfl, .rfl, .rfl, .rfl, .rfl, .rfl, .rfl, .rfl, .rfl, .rfl, .rfl, .rfl,
      sep_mono .rfl (by iintro ⟨-, HO⟩; iexact HO)⟩)
    (hinit := ?_)
    (QY := fun c s => s.mem ((c.tc : Thread nD τ).loc main_v81) = Gen.V13 m (outsK m) c (Proc.devRef .tc main_v81) ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19))
    (hfin := fun c s' => ?_) (hQ := fun _ h => h)
  · -- the launch: each core's unscoped buffers are held at the launch contents, its generator register and its dues ride along
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result's buffer and each argument's read off the last valuation
    unfold StableHlo.held
    iintro ⟨Hh, HSI⟩
    ihave Hr := (pointsTo_read_all (Pipeline.ucRefs τ sig) (fun b => ((c : Thread nD τ).1, b)) (Gen.V13 m (outsK m) c) s') $$ [Hh HSI]
    · isplitl [Hh] <;> iassumption
    icases Hr with ⟨%h, HSI⟩
    imodintro
    isplitr
    · ipureintro
      exact ⟨h (Proc.devRef .tc main_v81) (Finset.mem_filter.mpr ⟨StableHlo.devRef_mem_tcRefs main_v81, by decide⟩),
        (h (Proc.devRef .tc main_arg0) (Finset.mem_filter.mpr ⟨StableHlo.devRef_mem_tcRefs main_arg0, by decide⟩)).trans (Gen.V13_main_arg0 m (outsK m) c),
        (h (Proc.devRef .tc main_arg1) (Finset.mem_filter.mpr ⟨StableHlo.devRef_mem_tcRefs main_arg1, by decide⟩)).trans (Gen.V13_main_arg1 m (outsK m) c),
        (h (Proc.devRef .tc main_arg2) (Finset.mem_filter.mpr ⟨StableHlo.devRef_mem_tcRefs main_arg2, by decide⟩)).trans (Gen.V13_main_arg2 m (outsK m) c),
        (h (Proc.devRef .tc main_arg3) (Finset.mem_filter.mpr ⟨StableHlo.devRef_mem_tcRefs main_arg3, by decide⟩)).trans (Gen.V13_main_arg3 m (outsK m) c),
        (h (Proc.devRef .tc main_arg4) (Finset.mem_filter.mpr ⟨StableHlo.devRef_mem_tcRefs main_arg4, by decide⟩)).trans (Gen.V13_main_arg4 m (outsK m) c),
        (h (Proc.devRef .tc main_arg5) (Finset.mem_filter.mpr ⟨StableHlo.devRef_mem_tcRefs main_arg5, by decide⟩)).trans (Gen.V13_main_arg5 m (outsK m) c),
        (h (Proc.devRef .tc main_arg6) (Finset.mem_filter.mpr ⟨StableHlo.devRef_mem_tcRefs main_arg6, by decide⟩)).trans (Gen.V13_main_arg6 m (outsK m) c),
        (h (Proc.devRef .tc main_arg7) (Finset.mem_filter.mpr ⟨StableHlo.devRef_mem_tcRefs main_arg7, by decide⟩)).trans (Gen.V13_main_arg7 m (outsK m) c),
        (h (Proc.devRef .tc main_arg8) (Finset.mem_filter.mpr ⟨StableHlo.devRef_mem_tcRefs main_arg8, by decide⟩)).trans (Gen.V13_main_arg8 m (outsK m) c),
        (h (Proc.devRef .tc main_arg9) (Finset.mem_filter.mpr ⟨StableHlo.devRef_mem_tcRefs main_arg9, by decide⟩)).trans (Gen.V13_main_arg9 m (outsK m) c),
        (h (Proc.devRef .tc main_arg10) (Finset.mem_filter.mpr ⟨StableHlo.devRef_mem_tcRefs main_arg10, by decide⟩)).trans (Gen.V13_main_arg10 m (outsK m) c),
        (h (Proc.devRef .tc main_arg11) (Finset.mem_filter.mpr ⟨StableHlo.devRef_mem_tcRefs main_arg11, by decide⟩)).trans (Gen.V13_main_arg11 m (outsK m) c),
        (h (Proc.devRef .tc main_arg12) (Finset.mem_filter.mpr ⟨StableHlo.devRef_mem_tcRefs main_arg12, by decide⟩)).trans (Gen.V13_main_arg12 m (outsK m) c),
        (h (Proc.devRef .tc main_arg13) (Finset.mem_filter.mpr ⟨StableHlo.devRef_mem_tcRefs main_arg13, by decide⟩)).trans (Gen.V13_main_arg13 m (outsK m) c),
        (h (Proc.devRef .tc main_arg14) (Finset.mem_filter.mpr ⟨StableHlo.devRef_mem_tcRefs main_arg14, by decide⟩)).trans (Gen.V13_main_arg14 m (outsK m) c),
        (h (Proc.devRef .tc main_arg15) (Finset.mem_filter.mpr ⟨StableHlo.devRef_mem_tcRefs main_arg15, by decide⟩)).trans (Gen.V13_main_arg15 m (outsK m) c),
        (h (Proc.devRef .tc main_arg16) (Finset.mem_filter.mpr ⟨StableHlo.devRef_mem_tcRefs main_arg16, by decide⟩)).trans (Gen.V13_main_arg16 m (outsK m) c),
        (h (Proc.devRef .tc main_arg17) (Finset.mem_filter.mpr ⟨StableHlo.devRef_mem_tcRefs main_arg17, by decide⟩)).trans (Gen.V13_main_arg17 m (outsK m) c),
        (h (Proc.devRef .tc main_arg18) (Finset.mem_filter.mpr ⟨StableHlo.devRef_mem_tcRefs main_arg18, by decide⟩)).trans (Gen.V13_main_arg18 m (outsK m) c),
        (h (Proc.devRef .tc main_arg19) (Finset.mem_filter.mpr ⟨StableHlo.devRef_mem_tcRefs main_arg19, by decide⟩)).trans (Gen.V13_main_arg19 m (outsK m) c)⟩
    · iexact HSI

/-- THE FRAME: every argument array ends as launched. -/
theorem frameKI (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (runKI m ρ).mono fun r h c => (h c).2

end Cert.KernelIdeal.Hand

end
-- ==== Proof.Val.KChain.lean ====
import proofs.«123040_j36550171689307_2_alg».proof.Proof.Gen.KernelIdeal.Regions
import Idealize.ShloMosaic.Lib.StableHlo.Run

set_option maxRecDepth 8192

noncomputable section

namespace Cert.KernelIdeal.Hand

open Idealize.ShloMosaic Idealize.ShloMosaic.TcCoe
open Idealize.SL Idealize.SL.Sem
open Idealize.ShloMosaic.StableHlo
open Cert.KernelIdeal Cert.KernelIdeal.Gen

variable {F : FTy → Type} [FloatOps F]

/-! ## The host operands of the two hops, as functions of the program's arguments

An index vector is first wrapped (a negative entry is shifted up by the length of the table it
reads), made a column, and used to gather rows. -/

/-- The wrapped node indices as a column: rows of the feature table. -/
def kIdx0 (a0 : (⟨S40960, .i32⟩ : BufTy).Contents (Elt F)) : (⟨S40960x1, .i32⟩ : BufTy).Contents (Elt F) :=
  broadcastInDim S40960x1 ![0] bcast_S40960_S40960x1_0
    (select (cmpi .slt a0 (broadcastInDim S40960 ![] bcast_S_S40960 (constantI S_ 32 0#32)))
      (addi a0 (broadcastInDim S40960 ![] bcast_S_S40960 (constantI S_ 32 100000#32))) a0)

/-- The gathered features of the sampled nodes. -/
def kFeat (a0 : (⟨S40960, .i32⟩ : BufTy).Contents (Elt F)) (a7 : (⟨S100000x128, .f32⟩ : BufTy).Contents (Elt F)) :
    (⟨S40960x128, .f32⟩ : BufTy).Contents (Elt F) :=
  Host.gather gather_S100000x128_S40960x1_S40960x128_1_0_n_n_0_1_1128 a7 (kIdx0 a0)

/-- The wrapped destination indices of the outer hop as a column. -/
def kIdx4 (a4 : (⟨S4096, .i32⟩ : BufTy).Contents (Elt F)) : (⟨S4096x1, .i32⟩ : BufTy).Contents (Elt F) :=
  broadcastInDim S4096x1 ![0] bcast_S4096_S4096x1_0
    (select (cmpi .slt a4 (broadcastInDim S4096 ![] bcast_S_S4096 (constantI S_ 32 0#32)))
      (addi a4 (broadcastInDim S4096 ![] bcast_S_S4096 (constantI S_ 32 40960#32))) a4)

/-- The destination rows of the outer hop. -/
def kDst2 (a0 : (⟨S40960, .i32⟩ : BufTy).Contents (Elt F)) (a4 : (⟨S4096, .i32⟩ : BufTy).Contents (Elt F))
    (a7 : (⟨S100000x128, .f32⟩ : BufTy).Contents (Elt F)) : (⟨S4096x128, .f32⟩ : BufTy).Contents (Elt F) :=
  Host.gather gather_S40960x128_S4096x1_S4096x128_1_0_n_n_0_1_1128 (kFeat a0 a7) (kIdx4 a4)

/-- The wrapped source indices of the outer hop as a column. -/
def kIdx2 (a2 : (⟨S40960, .i32⟩ : BufTy).Contents (Elt F)) : (⟨S40960x1, .i32⟩ : BufTy).Contents (Elt F) :=
  broadcastInDim S40960x1 ![0] bcast_S40960_S40960x1_0
    (select (cmpi .slt a2 (broadcastInDim S40960 ![] bcast_S_S40960 (constantI S_ 32 0#32)))
      (addi a2 (broadcastInDim S40960 ![] bcast_S_S40960 (constantI S_ 32 40960#32))) a2)

/-- The source rows of the outer hop. -/
def kSrc2 (a0 a2 : (⟨S40960, .i32⟩ : BufTy).Contents (Elt F)) (a7 : (⟨S100000x128, .f32⟩ : BufTy).Contents (Elt F)) :
    (⟨S40960x128, .f32⟩ : BufTy).Contents (Elt F) :=
  Host.gather gather_S40960x128_S40960x1_S40960x128_1_0_n_n_0_1_1128 (kFeat a0 a7) (kIdx2 a2)

/-- The upper half (rows 0 … 127) of a stacked weight. -/
def kWa (w : (⟨S256x128, .f32⟩ : BufTy).Contents (Elt F)) : (⟨S128x128, .f32⟩ : BufTy).Contents (Elt F) :=
  extractStridedSlice S128x128 ![0, 0] w slices_S256x128_S128x128_0_0

/-- The lower half (rows 128 … 255) of a stacked weight. -/
def kWb (w : (⟨S256x128, .f32⟩ : BufTy).Contents (Elt F)) : (⟨S128x128, .f32⟩ : BufTy).Contents (Elt F) :=
  extractStridedSlice S128x128 ![128, 0] w slices_S256x128_S128x128_128_0

/-- The wrapped destination indices of the inner hop as a column. -/
def kIdx3 (a3 : (⟨S1024, .i32⟩ : BufTy).Contents (Elt F)) : (⟨S1024x1, .i32⟩ : BufTy).Contents (Elt F) :=
  broadcastInDim S1024x1 ![0] bcast_S1024_S1024x1_0
    (select (cmpi .slt a3 (broadcastInDim S1024 ![] bcast_S_S1024 (constantI S_ 32 0#32)))
      (addi a3 (broadcastInDim S1024 ![] bcast_S_S1024 (constantI S_ 32 4096#32))) a3)

/-- The destination rows of the inner hop, gathered from the outer hop's result. -/
def kDst1 (h2 : (⟨S4096x128, .f32⟩ : BufTy).Contents (Elt F)) (a3 : (⟨S1024, .i32⟩ : BufTy).Contents (Elt F)) :
    (⟨S1024x128, .f32⟩ : BufTy).Contents (Elt F) :=
  Host.gather gather_S4096x128_S1024x1_S1024x128_1_0_n_n_0_1_1128 h2 (kIdx3 a3)

/-- The wrapped source indices of the inner hop as a column. -/
def kIdx1 (a1 : (⟨S8192, .i32⟩ : BufTy).Contents (Elt F)) : (⟨S8192x1, .i32⟩ : BufTy).Contents (Elt F) :=
  broadcastInDim S8192x1 ![0] bcast_S8192_S8192x1_0
    (select (cmpi .slt a1 (broadcastInDim S8192 ![] bcast_S_S8192 (constantI S_ 32 0#32)))
      (addi a1 (broadcastInDim S8192 ![] bcast_S_S8192 (constantI S_ 32 4096#32))) a1)

/-- The source rows of the inner hop, gathered from the outer hop's result. -/
def kSrc1 (h2 : (⟨S4096x128, .f32⟩ : BufTy).Contents (Elt F)) (a1 : (⟨S8192, .i32⟩ : BufTy).Contents (Elt F)) :
    (⟨S8192x128, .f32⟩ : BufTy).Contents (Elt F) :=
  Host.gather gather_S4096x128_S8192x1_S8192x128_1_0_n_n_0_1_1128 h2 (kIdx1 a1)

variable (m : (ℓ : Loc nD τ sig) → Buf (Elt F) ℓ) (outs : Gen.Outs (F := F)) (c : Dev nD)

/-! ## Before the outer hop's region: the first host stretch read back -/

theorem V1_arg6 : Gen.V1 m c (Proc.devRef .tc main_arg6) = m ((c : Thread nD τ).loc main_arg6) :=
  Gen.V1_of m c main_arg6 (by decide)

set_option maxHeartbeats 4000000 in
theorem V1_v20 : (Gen.V1 m c (Proc.devRef .tc main_v20) : (⟨S40960x128, .f32⟩ : BufTy).Contents (Elt F))
    = kSrc2 (m ((c : Thread nD τ).loc main_arg0)) (m ((c : Thread nD τ).loc main_arg2)) (m ((c : Thread nD τ).loc main_arg7)) := by
  dsimp only [Gen.V1, Gen.V0, Gen.hostOps0]
  after_results
  rfl

set_option maxHeartbeats 4000000 in
theorem V1_v13 : (Gen.V1 m c (Proc.devRef .tc main_v13) : (⟨S4096x128, .f32⟩ : BufTy).Contents (Elt F))
    = kDst2 (m ((c : Thread nD τ).loc main_arg0)) (m ((c : Thread nD τ).loc main_arg4)) (m ((c : Thread nD τ).loc main_arg7)) := by
  dsimp only [Gen.V1, Gen.V0, Gen.hostOps0]
  after_results
  rfl

set_option maxHeartbeats 4000000 in
theorem V1_v21 : (Gen.V1 m c (Proc.devRef .tc main_v21) : (⟨S128x128, .f32⟩ : BufTy).Contents (Elt F))
    = kWa (m ((c : Thread nD τ).loc main_arg8)) := by
  dsimp only [Gen.V1, Gen.V0, Gen.hostOps0]
  after_results
  rfl

set_option maxHeartbeats 4000000 in
theorem V1_v22 : (Gen.V1 m c (Proc.devRef .tc main_v22) : (⟨S128x128, .f32⟩ : BufTy).Contents (Elt F))
    = kWb (m ((c : Thread nD τ).loc main_arg8)) := by
  dsimp only [Gen.V1, Gen.V0, Gen.hostOps0]
  after_results
  rfl

/-! ## Between the two regions: the second host stretch read back

The outer hop's region may change one buffer only; the stretch gathers its rows. -/

theorem V2_v23 : Gen.V2 m outs c (Proc.devRef .tc main_v23) = outs 2 main_v23 c := by
  simp only [Gen.V2, Function.update_self]

theorem V3_arg5 : Gen.V3 m outs c (Proc.devRef .tc main_arg5) = m ((c : Thread nD τ).loc main_arg5) :=
  (Gen.V3_of m outs c main_arg5 (by decide)).trans <| (Gen.V2_of m outs c main_arg5 (by decide)).trans <|
    Gen.V1_of m c main_arg5 (by decide)

theorem V2_arg1 : Gen.V2 m outs c (Proc.devRef .tc main_arg1) = m ((c : Thread nD τ).loc main_arg1) :=
  (Gen.V2_of m outs c main_arg1 (by decide)).trans <| Gen.V1_of m c main_arg1 (by decide)

theorem V2_arg3 : Gen.V2 m outs c (Proc.devRef .tc main_arg3) = m ((c : Thread nD τ).loc main_arg3) :=
  (Gen.V2_of m outs c main_arg3 (by decide)).trans <| Gen.V1_of m c main_arg3 (by decide)

theorem V2_arg9 : Gen.V2 m outs c (Proc.devRef .tc main_arg9) = m ((c : Thread nD τ).loc main_arg9) :=
  (Gen.V2_of m outs c main_arg9 (by decide)).trans <| Gen.V1_of m c main_arg9 (by decide)

set_option maxHeartbeats 4000000 in
theorem V3_v37 : (Gen.V3 m outs c (Proc.devRef .tc main_v37) : (⟨S8192x128, .f32⟩ : BufTy).Contents (Elt F))
    = kSrc1 (outs 2 main_v23 c) (m ((c : Thread nD τ).loc main_arg1)) := by
  rw [← V2_v23 m outs c, ← V2_arg1 m outs c]
  dsimp only [Gen.V3, Gen.hostOps1]
  after_results
  rfl

set_option maxHeartbeats 4000000 in
theorem V3_v30 : (Gen.V3 m outs c (Proc.devRef .tc main_v30) : (⟨S1024x128, .f32⟩ : BufTy).Contents (Elt F))
    = kDst1 (outs 2 main_v23 c) (m ((c : Thread nD τ).loc main_arg3)) := by
  rw [← V2_v23 m outs c, ← V2_arg3 m outs c]
  dsimp only [Gen.V3, Gen.hostOps1]
  after_results
  rfl

set_option maxHeartbeats 4000000 in
theorem V3_v38 : (Gen.V3 m outs c (Proc.devRef .tc main_v38) : (⟨S128x128, .f32⟩ : BufTy).Contents (Elt F))
    = kWa (m ((c : Thread nD τ).loc main_arg9)) := by
  rw [← V2_arg9 m outs c]
  dsimp only [Gen.V3, Gen.hostOps1]
  after_results
  rfl

set_option maxHeartbeats 4000000 in
theorem V3_v39 : (Gen.V3 m outs c (Proc.devRef .tc main_v39) : (⟨S128x128, .f32⟩ : BufTy).Contents (Elt F))
    = kWb (m ((c : Thread nD τ).loc main_arg9)) := by
  rw [← V2_arg9 m outs c]
  dsimp only [Gen.V3, Gen.hostOps1]
  after_results
  rfl

/-! ## After the inner hop's region -/

theorem V4_v40 : Gen.V4 m outs c (Proc.devRef .tc main_v40) = outs 4 main_v40 c := by
  simp only [Gen.V4, Function.update_self]

/-- An argument the closing stretches read is still as launched after the inner hop's region. -/
theorem V4_arg (r : Ref sig .tc) (h4 : r ∉ ([main_v40] : List (Ref sig .tc))) (h3 : r ∉ Gen.hostOps1_W)
    (h2 : r ∉ ([main_v23] : List (Ref sig .tc))) (h1 : r ∉ Gen.hostOps0_W) :
    Gen.V4 m outs c r = Gen.V0 m c r :=
  (Gen.V4_of m outs c r h4).trans <| (Gen.V3_of m outs c r h3).trans <| (Gen.V2_of m outs c r h2).trans <|
    Gen.V1_of m c r h1

end Cert.KernelIdeal.Hand

end
-- ==== Proof.Val.Tail.lean ====
import proofs.«123040_j36550171689307_2_alg».proof.Proof.Gen.KernelIdeal.Regions
import Idealize.ShloMosaic.Lib.StableHlo.Run

set_option maxRecDepth 8192

noncomputable section

namespace Cert.KernelIdeal.Hand

open Idealize.ShloMosaic Idealize.ShloMosaic.TcCoe
open Idealize.SL Idealize.SL.Sem
open Idealize.ShloMosaic.StableHlo
open Cert.KernelIdeal Cert.KernelIdeal.Gen

variable {F : FTy → Type} [FloatOps F]

/-! ## What both programs do with the inner hop's result

Each row is scaled by the inverse square root of its sum of squares (bounded below), then passed
through five dense layers, the first four followed by a maximum with zero, and the one remaining
column is normalised by an exponential over its own maximum. -/

/-- Each row scaled by the inverse square root of (its sum of squares, bounded below). -/
def tNorm (x : (⟨S1024x128, .f32⟩ : BufTy).Contents (Elt F)) : (⟨S1024x128, .f32⟩ : BufTy).Contents (Elt F) :=
  mulf x (broadcastInDim S1024x128 ![0, 1] bcast_S1024x1_S1024x128_0_1
    (Host.rsqrt (maximumf
      (broadcastInDim S1024x1 ![0] bcast_S1024_S1024x1_0
        (Host.reduceAdd (mulf x x) (constant S_ .f32 0x00000000#32) reducesTo_S1024x128_S1024_d1 h_S_))
      (broadcastInDim S1024x1 ![] bcast_S_S1024x1 (constant S_ .f32 0x2B8CBCCC#32)))))

/-- The first dense layer and its maximum with zero. -/
def tL1 (x : (⟨S1024x128, .f32⟩ : BufTy).Contents (Elt F)) (w : (⟨S128x64, .f32⟩ : BufTy).Contents (Elt F)) (b : (⟨S64, .f32⟩ : BufTy).Contents (Elt F)) : (⟨S1024x64, .f32⟩ : BufTy).Contents (Elt F) :=
  maximumf
    (addf (Host.dotGeneral dot_S1024x128_S128x64_S1024x64_1_0_0_1_n_n none x w)
      (broadcastInDim S1024x64 ![0, 1] bcast_S1x64_S1024x64_0_1 (broadcastInDim S1x64 ![1] bcast_S64_S1x64_1 b)))
    (broadcastInDim S1024x64 ![] bcast_S_S1024x64 (constant S_ .f32 0x00000000#32))

/-- The second dense layer and its maximum with zero. -/
def tL2 (x : (⟨S1024x64, .f32⟩ : BufTy).Contents (Elt F)) (w : (⟨S64x32, .f32⟩ : BufTy).Contents (Elt F)) (b : (⟨S32, .f32⟩ : BufTy).Contents (Elt F)) : (⟨S1024x32, .f32⟩ : BufTy).Contents (Elt F) :=
  maximumf
    (addf (Host.dotGeneral dot_S1024x64_S64x32_S1024x32_1_0_0_1_n_n none x w)
      (broadcastInDim S1024x32 ![0, 1] bcast_S1x32_S1024x32_0_1 (broadcastInDim S1x32 ![1] bcast_S32_S1x32_1 b)))
    (broadcastInDim S1024x32 ![] bcast_S_S1024x32 (constant S_ .f32 0x00000000#32))

/-- The third dense layer and its maximum with zero. -/
def tL3 (x : (⟨S1024x32, .f32⟩ : BufTy).Contents (Elt F)) (w : (⟨S32x16, .f32⟩ : BufTy).Contents (Elt F)) (b : (⟨S16, .f32⟩ : BufTy).Contents (Elt F)) : (⟨S1024x16, .f32⟩ : BufTy).Contents (Elt F) :=
  maximumf
    (addf (Host.dotGeneral dot_S1024x32_S32x16_S1024x16_1_0_0_1_n_n none x w)
      (broadcastInDim S1024x16 ![0, 1] bcast_S1x16_S1024x16_0_1 (broadcastInDim S1x16 ![1] bcast_S16_S1x16_1 b)))
    (broadcastInDim S1024x16 ![] bcast_S_S1024x16 (constant S_ .f32 0x00000000#32))

/-- The fourth dense layer and its maximum with zero. -/
def tL4 (x : (⟨S1024x16, .f32⟩ : BufTy).Contents (Elt F)) (w : (⟨S16x8, .f32⟩ : BufTy).Contents (Elt F)) (b : (⟨S8, .f32⟩ : BufTy).Contents (Elt F)) : (⟨S1024x8, .f32⟩ : BufTy).Contents (Elt F) :=
  maximumf
    (addf (Host.dotGeneral dot_S1024x16_S16x8_S1024x8_1_0_0_1_n_n none x w)
      (broadcastInDim S1024x8 ![0, 1] bcast_S1x8_S1024x8_0_1 (broadcastInDim S1x8 ![1] bcast_S8_S1x8_1 b)))
    (broadcastInDim S1024x8 ![] bcast_S_S1024x8 (constant S_ .f32 0x00000000#32))

/-- The last dense layer: one column. -/
def tL5 (x : (⟨S1024x8, .f32⟩ : BufTy).Contents (Elt F)) (w : (⟨S8x1, .f32⟩ : BufTy).Contents (Elt F)) (b : (⟨S1, .f32⟩ : BufTy).Contents (Elt F)) : (⟨S1024x1, .f32⟩ : BufTy).Contents (Elt F) :=
  addf (Host.dotGeneral dot_S1024x8_S8x1_S1024x1_1_0_0_1_n_n none x w)
    (broadcastInDim S1024x1 ![0, 1] bcast_S1x1_S1024x1_0_1 (broadcastInDim S1x1 ![1] bcast_S1_S1x1_1 b))

/-- The exponential of each row less the row's maximum. -/
def tExp (z : (⟨S1024x1, .f32⟩ : BufTy).Contents (Elt F)) : (⟨S1024x1, .f32⟩ : BufTy).Contents (Elt F) :=
  Host.exp (subf z (broadcastInDim S1024x1 ![0] bcast_S1024_S1024x1_0
    (maximumf (broadcastInDim S1024 ![] bcast_S_S1024 (constant S_ .f32 0xFF800000#32))
      (Host.reduce FloatOps.maximumf z (constant S_ .f32 0xFF800000#32) reducesTo_S1024x1_S1024_d1 h_S_))))

/-- Each row's exponentials divided by their sum. -/
def tSoft (z : (⟨S1024x1, .f32⟩ : BufTy).Contents (Elt F)) : (⟨S1024x1, .f32⟩ : BufTy).Contents (Elt F) :=
  Host.divf (tExp z) (broadcastInDim S1024x1 ![0] bcast_S1024_S1024x1_0
    (Host.reduceAdd (tExp z) (constant S_ .f32 0x00000000#32) reducesTo_S1024x1_S1024_d1 h_S_))

/-- Everything after the inner hop, as one function of the hop's result and the ten layer parameters. -/
def tail (x : (⟨S1024x128, .f32⟩ : BufTy).Contents (Elt F))
    (w1 : (⟨S128x64, .f32⟩ : BufTy).Contents (Elt F)) (b1 : (⟨S64, .f32⟩ : BufTy).Contents (Elt F))
    (w2 : (⟨S64x32, .f32⟩ : BufTy).Contents (Elt F)) (b2 : (⟨S32, .f32⟩ : BufTy).Contents (Elt F))
    (w3 : (⟨S32x16, .f32⟩ : BufTy).Contents (Elt F)) (b3 : (⟨S16, .f32⟩ : BufTy).Contents (Elt F))
    (w4 : (⟨S16x8, .f32⟩ : BufTy).Contents (Elt F)) (b4 : (⟨S8, .f32⟩ : BufTy).Contents (Elt F))
    (w5 : (⟨S8x1, .f32⟩ : BufTy).Contents (Elt F)) (b5 : (⟨S1, .f32⟩ : BufTy).Contents (Elt F)) : (⟨S1024x1, .f32⟩ : BufTy).Contents (Elt F) :=
  tSoft (tL5 (tL4 (tL3 (tL2 (tL1 (tNorm x) w1 b1) w2 b2) w3 b3) w4 b4) w5 b5)

/-! ## The nine closing host stretches compute that function -/

set_option maxHeartbeats 8000000 in
/-- From any contents `W` of the buffers: after the nine closing stretches the result buffer holds
    the closing function of `W`'s inner-hop result and layer parameters. -/
theorem tail_after (W : Valuation τ sig (Elt F)) :
    (after hostOps2_8 (after hostOps2_7 (after hostOps2_6 (after hostOps2_5 (after hostOps2_4 (after hostOps2_3
      (after hostOps2_2 (after hostOps2_1 (after hostOps2 W)))))))) (Proc.devRef .tc main_v81)
        : (⟨S1024x1, .f32⟩ : BufTy).Contents (Elt F))
    = tail (W (Proc.devRef .tc main_v40))
        (W (Proc.devRef .tc main_arg10)) (W (Proc.devRef .tc main_arg11)) (W (Proc.devRef .tc main_arg12))
        (W (Proc.devRef .tc main_arg13)) (W (Proc.devRef .tc main_arg14)) (W (Proc.devRef .tc main_arg15))
        (W (Proc.devRef .tc main_arg16)) (W (Proc.devRef .tc main_arg17)) (W (Proc.devRef .tc main_arg18))
        (W (Proc.devRef .tc main_arg19)) := by
  dsimp only [Gen.hostOps2, Gen.hostOps2_1, Gen.hostOps2_2, Gen.hostOps2_3, Gen.hostOps2_4, Gen.hostOps2_5,
    Gen.hostOps2_6, Gen.hostOps2_7, Gen.hostOps2_8]
  after_results_simp
  rfl

variable (m : (ℓ : Loc nD τ sig) → Buf (Elt F) ℓ) (outs : Gen.Outs (F := F)) (c : Dev nD)

/-- After the inner hop's region its output buffer holds what the region left there. -/
theorem V4_at40 : Gen.V4 m outs c (Proc.devRef .tc main_v40) = outs 4 main_v40 c := by
  simp only [Gen.V4, Function.update_self]

/-- A buffer that neither region may change and neither of the first two stretches writes is, after the
    inner hop's region, as launched. -/
theorem V4_keep (r : Ref sig .tc) (h4 : r ∉ ([main_v40] : List (Ref sig .tc))) (h3 : r ∉ Gen.hostOps1_W)
    (h2 : r ∉ ([main_v23] : List (Ref sig .tc))) (h1 : r ∉ Gen.hostOps0_W) :
    Gen.V4 m outs c (Proc.devRef .tc r) = m ((c : Thread nD τ).loc r) :=
  (Gen.V4_of m outs c r h4).trans <| (Gen.V3_of m outs c r h3).trans <| (Gen.V2_of m outs c r h2).trans <|
    Gen.V1_of m c r h1

/-- The kernel program's result: the closing function of what the inner hop's region left and the ten
    layer parameters as launched. -/
theorem V13_v81 :
    (Gen.V13 m outs c (Proc.devRef .tc main_v81) : (⟨S1024x1, .f32⟩ : BufTy).Contents (Elt F))
    = tail (outs 4 main_v40 c)
        (m ((c : Thread nD τ).loc main_arg10)) (m ((c : Thread nD τ).loc main_arg11)) (m ((c : Thread nD τ).loc main_arg12)) (m ((c : Thread nD τ).loc main_arg13)) (m ((c : Thread nD τ).loc main_arg14))
        (m ((c : Thread nD τ).loc main_arg15)) (m ((c : Thread nD τ).loc main_arg16)) (m ((c : Thread nD τ).loc main_arg17)) (m ((c : Thread nD τ).loc main_arg18)) (m ((c : Thread nD τ).loc main_arg19)) := by
  refine (tail_after (Gen.V4 m outs c)).trans ?_
  rw [V4_at40 m outs c,
    V4_keep m outs c main_arg10 (by decide) (by decide) (by decide) (by decide),
    V4_keep m outs c main_arg11 (by decide) (by decide) (by decide) (by decide),
    V4_keep m outs c main_arg12 (by decide) (by decide) (by decide) (by decide),
    V4_keep m outs c main_arg13 (by decide) (by decide) (by decide) (by decide),
    V4_keep m outs c main_arg14 (by decide) (by decide) (by decide) (by decide),
    V4_keep m outs c main_arg15 (by decide) (by decide) (by decide) (by decide),
    V4_keep m outs c main_arg16 (by decide) (by decide) (by decide) (by decide),
    V4_keep m outs c main_arg17 (by decide) (by decide) (by decide) (by decide),
    V4_keep m outs c main_arg18 (by decide) (by decide) (by decide) (by decide),
    V4_keep m outs c main_arg19 (by decide) (by decide) (by decide) (by decide)]

end Cert.KernelIdeal.Hand

end
-- ==== Proof.Val.Spec.lean ====
/-
  The value both programs compute in one hop of the two-hop neighbourhood aggregation, at one entry.
  For a diffusion matrix `dif` (R rows, K columns), source features `src` (K rows of 128), destination features
  `dst` (R rows of 128) and a weight matrix `w` of 256 rows — its first 128 rows act on the aggregate, its last
  128 on the destination's own features — row `r`, column `e` of the hop is

      Σ_{j<128} (Σ_{k<K} dif r k · src k j) · w j e   +   Σ_{j<128} dst r j · w (128 + j) e

  on the extended reals. The reference reaches it as ONE product of the concatenation [dif·src | dst] with `w`
  (a sum over 256 split into its halves); the kernel as the sum of two products with the two halves of `w`, the
  aggregate accumulated block by block over `k` (a sum over K regrouped by blocks). Both regroupings use only
  that addition on the extended reals is commutative and associative: no finiteness is needed.
-/
import Mathlib.Data.EReal.Operations
import Mathlib.Algebra.BigOperators.Fin

open scoped BigOperators

noncomputable section

namespace Cert.Spec

/-- Row `j` of the first half of a 256-row matrix. -/
def lo (j : Fin 128) : Fin 256 := ⟨j.val, Nat.lt_of_lt_of_le j.isLt (by decide)⟩
/-- Row `128 + j` of a 256-row matrix: row `j` of its second half. -/
def hi (j : Fin 128) : Fin 256 := ⟨128 + j.val, by have := j.isLt; omega⟩

theorem lo_val (j : Fin 128) : (lo j).val = j.val := rfl
theorem hi_val (j : Fin 128) : (hi j).val = 128 + j.val := rfl

/-- The aggregate: row `r`, column `j` of `dif · src`. -/
def aggAt {R K : ℕ} (dif : Fin R → Fin K → EReal) (src : Fin K → Fin 128 → EReal) (r : Fin R) (j : Fin 128) : EReal :=
  ∑ k : Fin K, dif r k * src k j

/-- One hop at row `r`, column `e`, before any activation. -/
def hopAt {R K : ℕ} (dif : Fin R → Fin K → EReal) (src : Fin K → Fin 128 → EReal) (dst : Fin R → Fin 128 → EReal)
    (w : Fin 256 → Fin 128 → EReal) (r : Fin R) (e : Fin 128) : EReal :=
  (∑ j : Fin 128, aggAt dif src r j * w (lo j) e) + ∑ j : Fin 128, dst r j * w (hi j) e

/-- One hop with the two halves of the weight matrix given separately: `wa` acts on the aggregate, `wb` on the
    destination's own features. -/
def hopAt2 {R K : ℕ} (dif : Fin R → Fin K → EReal) (src : Fin K → Fin 128 → EReal) (dst : Fin R → Fin 128 → EReal)
    (wa wb : Fin 128 → Fin 128 → EReal) (r : Fin R) (e : Fin 128) : EReal :=
  (∑ j : Fin 128, aggAt dif src r j * wa j e) + ∑ j : Fin 128, dst r j * wb j e

/-- The hop over the whole weight matrix is the hop over its two halves. -/
theorem hopAt_eq_hopAt2 {R K : ℕ} (dif : Fin R → Fin K → EReal) (src : Fin K → Fin 128 → EReal) (dst : Fin R → Fin 128 → EReal)
    (w : Fin 256 → Fin 128 → EReal) (r : Fin R) (e : Fin 128) :
    hopAt dif src dst w r e = hopAt2 dif src dst (fun j e => w (lo j) e) (fun j e => w (hi j) e) r e := rfl

/-- A sum over 256 is the sum over its first 128 entries plus the sum over its last 128. -/
theorem sum_256_halves {M : Type*} [AddCommMonoid M] (f : Fin 256 → M) :
    ∑ j : Fin 256, f j = (∑ j : Fin 128, f (lo j)) + ∑ j : Fin 128, f (hi j) := by
  have h : (256 : ℕ) = 128 + 128 := rfl
  rw [← Equiv.sum_comp (finCongr h).symm f, Fin.sum_univ_add]
  refine congrArg₂ (· + ·) (Finset.sum_congr rfl fun j _ => congrArg f (Fin.ext ?_)) (Finset.sum_congr rfl fun j _ => congrArg f (Fin.ext ?_))
  · simp [lo]
  · simp [hi, Nat.add_comm]

end Cert.Spec

end
-- ==== Proof.Val.RefHop.lean ====
/-
  The reference's hop read at one entry. The reference forms the aggregate `dif · src` with one product over the
  whole contraction axis, lays the aggregate and the destination's own features side by side (a concatenation along
  the columns: column `j < 128` is the aggregate's column `j`, column `128 + j` the destination's column `j`),
  and multiplies the 256-column result with the whole weight matrix. Read at row `r`, column `e`, the last
  product is a sum over 256 columns; split into its two halves it is the hop of `Cert.Spec.hopAt`:

      Σ_{j<128} (Σ_k dif r k · src k j) · w j e   +   Σ_{j<128} dst r j · w (128 + j) e.

  Only the reading of each operation at an index and the splitting of a finite sum are used; nothing about
  finiteness of the entries.
-/
import proofs.«123040_j36550171689307_2_alg».proof.ReferenceIdeal
import proofs.«123040_j36550171689307_2_alg».proof.Proof.Val.Spec
import Idealize.ShloMosaic.Lib.Pipeline.Value
import Idealize.ShloMosaic.Lib.ValueIdx
import Idealize.ShloMosaic.PureOps.Ideal.Laws

open scoped BigOperators

noncomputable section

namespace Cert.ReferenceIdeal.Hand

open Cert.ReferenceIdeal Cert.ReferenceIdeal.Facts₀ Idealize.ShloMosaic Idealize.ShloMosaic.ValueIdx Idealize.SL.Sem

/-! ## The four products of the two hops at an entry -/

/-- The left operand's row is the output's row, whatever the contraction position. -/
theorem agg2_apply_lrow [Facts₀] (i : S4096x128.Idx) (c : dot_S4096x40960_S40960x128_S4096x128_1_0_0_1_n_n.contr.Idx) : (dot_S4096x40960_S40960x128_S4096x128_1_0_0_1_n_n.lhsIdx i c 0).val = (i 0).val := by
  unfold DotDims.lhsIdx
  rw [dif_neg (show ¬(0 : Fin S4096x40960.rank) ∈ dot_S4096x40960_S40960x128_S4096x128_1_0_0_1_n_n.lhsBatch from List.not_mem_nil),
    dif_pos (show (0 : Fin S4096x40960.rank) ∈ dot_S4096x40960_S40960x128_S4096x128_1_0_0_1_n_n.lhsNonContracting from List.mem_singleton.mpr rfl)]
  rfl
/-- The right operand's column is the output's column, whatever the contraction position. -/
theorem agg2_apply_rcol [Facts₀] (i : S4096x128.Idx) (c : dot_S4096x40960_S40960x128_S4096x128_1_0_0_1_n_n.contr.Idx) : (dot_S4096x40960_S40960x128_S4096x128_1_0_0_1_n_n.rhsIdx i c 1).val = (i 1).val := by
  unfold DotDims.rhsIdx
  rw [dif_neg (show ¬(1 : Fin S40960x128.rank) ∈ dot_S4096x40960_S40960x128_S4096x128_1_0_0_1_n_n.rhsBatch from List.not_mem_nil),
    dif_pos (show (1 : Fin S40960x128.rank) ∈ dot_S4096x40960_S40960x128_S4096x128_1_0_0_1_n_n.rhsNonContracting from List.mem_singleton.mpr rfl)]
  rfl
/-- Hop 2's aggregate `dif · src` (4096 rows, contraction over 40960) at row `p`, column `q`. -/
theorem agg2_apply [Facts₀] (l : (⟨S4096x40960, .f32⟩ : BufTy).Contents (Elt Ideal)) (r : (⟨S40960x128, .f32⟩ : BufTy).Contents (Elt Ideal)) (p : Fin 4096) (q : Fin 128) :
    Host.dotGeneral (F := Ideal) (φ₁ := .f32) (φ₂ := .f32) dot_S4096x40960_S40960x128_S4096x128_1_0_0_1_n_n none l r (ix2 p q) = ∑ k : Fin 40960, l (ix2 p k) * r (ix2 k q) := by
  simp only [Host.dotGeneral]
  rw [Ideal.dotGeneral_apply, ← Equiv.sum_comp (contrEquiv1 dot_S4096x40960_S40960x128_S4096x128_1_0_0_1_n_n 40960 rfl rfl).symm]
  refine Finset.sum_congr rfl fun k _ => ?_
  have hk := contrEquiv1_symm_val dot_S4096x40960_S40960x128_S4096x128_1_0_0_1_n_n 40960 rfl rfl k
  -- the left operand is read at (row of the output, contraction position) …
  have el : dot_S4096x40960_S40960x128_S4096x128_1_0_0_1_n_n.lhsIdx (ix2 p q) ((contrEquiv1 dot_S4096x40960_S40960x128_S4096x128_1_0_0_1_n_n 40960 rfl rfl).symm k) = ix2 p k := funext fun a => Fin.ext (by
    match a with
    | ⟨0, _⟩ => exact agg2_apply_lrow _ _
    | ⟨1, _⟩ => exact (dot_S4096x40960_S40960x128_S4096x128_1_0_0_1_n_n.lhsIdx_val_of_single rfl (ix2 p q) _).trans hk)
  -- … and the right operand at (contraction position, column of the output)
  have er : dot_S4096x40960_S40960x128_S4096x128_1_0_0_1_n_n.rhsIdx (ix2 p q) ((contrEquiv1 dot_S4096x40960_S40960x128_S4096x128_1_0_0_1_n_n 40960 rfl rfl).symm k) = ix2 k q := funext fun a => Fin.ext (by
    match a with
    | ⟨0, _⟩ => exact (dot_S4096x40960_S40960x128_S4096x128_1_0_0_1_n_n.rhsIdx_val_of_single rfl (ix2 p q) _).trans hk
    | ⟨1, _⟩ => exact agg2_apply_rcol _ _)
  rw [el, er]

/-- The left operand's row is the output's row, whatever the contraction position. -/
theorem mix2_apply_lrow [Facts₀] (i : S4096x128.Idx) (c : dot_S4096x256_S256x128_S4096x128_1_0_0_1_n_n.contr.Idx) : (dot_S4096x256_S256x128_S4096x128_1_0_0_1_n_n.lhsIdx i c 0).val = (i 0).val := by
  unfold DotDims.lhsIdx
  rw [dif_neg (show ¬(0 : Fin S4096x256.rank) ∈ dot_S4096x256_S256x128_S4096x128_1_0_0_1_n_n.lhsBatch from List.not_mem_nil),
    dif_pos (show (0 : Fin S4096x256.rank) ∈ dot_S4096x256_S256x128_S4096x128_1_0_0_1_n_n.lhsNonContracting from List.mem_singleton.mpr rfl)]
  rfl
/-- The right operand's column is the output's column, whatever the contraction position. -/
theorem mix2_apply_rcol [Facts₀] (i : S4096x128.Idx) (c : dot_S4096x256_S256x128_S4096x128_1_0_0_1_n_n.contr.Idx) : (dot_S4096x256_S256x128_S4096x128_1_0_0_1_n_n.rhsIdx i c 1).val = (i 1).val := by
  unfold DotDims.rhsIdx
  rw [dif_neg (show ¬(1 : Fin S256x128.rank) ∈ dot_S4096x256_S256x128_S4096x128_1_0_0_1_n_n.rhsBatch from List.not_mem_nil),
    dif_pos (show (1 : Fin S256x128.rank) ∈ dot_S4096x256_S256x128_S4096x128_1_0_0_1_n_n.rhsNonContracting from List.mem_singleton.mpr rfl)]
  rfl
/-- Hop 2's product with the weight matrix (contraction over the 256 concatenated columns) at row `p`, column `q`. -/
theorem mix2_apply [Facts₀] (l : (⟨S4096x256, .f32⟩ : BufTy).Contents (Elt Ideal)) (r : (⟨S256x128, .f32⟩ : BufTy).Contents (Elt Ideal)) (p : Fin 4096) (q : Fin 128) :
    Host.dotGeneral (F := Ideal) (φ₁ := .f32) (φ₂ := .f32) dot_S4096x256_S256x128_S4096x128_1_0_0_1_n_n none l r (ix2 p q) = ∑ k : Fin 256, l (ix2 p k) * r (ix2 k q) := by
  simp only [Host.dotGeneral]
  rw [Ideal.dotGeneral_apply, ← Equiv.sum_comp (contrEquiv1 dot_S4096x256_S256x128_S4096x128_1_0_0_1_n_n 256 rfl rfl).symm]
  refine Finset.sum_congr rfl fun k _ => ?_
  have hk := contrEquiv1_symm_val dot_S4096x256_S256x128_S4096x128_1_0_0_1_n_n 256 rfl rfl k
  -- the left operand is read at (row of the output, contraction position) …
  have el : dot_S4096x256_S256x128_S4096x128_1_0_0_1_n_n.lhsIdx (ix2 p q) ((contrEquiv1 dot_S4096x256_S256x128_S4096x128_1_0_0_1_n_n 256 rfl rfl).symm k) = ix2 p k := funext fun a => Fin.ext (by
    match a with
    | ⟨0, _⟩ => exact mix2_apply_lrow _ _
    | ⟨1, _⟩ => exact (dot_S4096x256_S256x128_S4096x128_1_0_0_1_n_n.lhsIdx_val_of_single rfl (ix2 p q) _).trans hk)
  -- … and the right operand at (contraction position, column of the output)
  have er : dot_S4096x256_S256x128_S4096x128_1_0_0_1_n_n.rhsIdx (ix2 p q) ((contrEquiv1 dot_S4096x256_S256x128_S4096x128_1_0_0_1_n_n 256 rfl rfl).symm k) = ix2 k q := funext fun a => Fin.ext (by
    match a with
    | ⟨0, _⟩ => exact (dot_S4096x256_S256x128_S4096x128_1_0_0_1_n_n.rhsIdx_val_of_single rfl (ix2 p q) _).trans hk
    | ⟨1, _⟩ => exact mix2_apply_rcol _ _)
  rw [el, er]

/-- The left operand's row is the output's row, whatever the contraction position. -/
theorem agg1_apply_lrow [Facts₀] (i : S1024x128.Idx) (c : dot_S1024x8192_S8192x128_S1024x128_1_0_0_1_n_n.contr.Idx) : (dot_S1024x8192_S8192x128_S1024x128_1_0_0_1_n_n.lhsIdx i c 0).val = (i 0).val := by
  unfold DotDims.lhsIdx
  rw [dif_neg (show ¬(0 : Fin S1024x8192.rank) ∈ dot_S1024x8192_S8192x128_S1024x128_1_0_0_1_n_n.lhsBatch from List.not_mem_nil),
    dif_pos (show (0 : Fin S1024x8192.rank) ∈ dot_S1024x8192_S8192x128_S1024x128_1_0_0_1_n_n.lhsNonContracting from List.mem_singleton.mpr rfl)]
  rfl
/-- The right operand's column is the output's column, whatever the contraction position. -/
theorem agg1_apply_rcol [Facts₀] (i : S1024x128.Idx) (c : dot_S1024x8192_S8192x128_S1024x128_1_0_0_1_n_n.contr.Idx) : (dot_S1024x8192_S8192x128_S1024x128_1_0_0_1_n_n.rhsIdx i c 1).val = (i 1).val := by
  unfold DotDims.rhsIdx
  rw [dif_neg (show ¬(1 : Fin S8192x128.rank) ∈ dot_S1024x8192_S8192x128_S1024x128_1_0_0_1_n_n.rhsBatch from List.not_mem_nil),
    dif_pos (show (1 : Fin S8192x128.rank) ∈ dot_S1024x8192_S8192x128_S1024x128_1_0_0_1_n_n.rhsNonContracting from List.mem_singleton.mpr rfl)]
  rfl
/-- Hop 1's aggregate `dif · src` (1024 rows, contraction over 8192) at row `p`, column `q`. -/
theorem agg1_apply [Facts₀] (l : (⟨S1024x8192, .f32⟩ : BufTy).Contents (Elt Ideal)) (r : (⟨S8192x128, .f32⟩ : BufTy).Contents (Elt Ideal)) (p : Fin 1024) (q : Fin 128) :
    Host.dotGeneral (F := Ideal) (φ₁ := .f32) (φ₂ := .f32) dot_S1024x8192_S8192x128_S1024x128_1_0_0_1_n_n none l r (ix2 p q) = ∑ k : Fin 8192, l (ix2 p k) * r (ix2 k q) := by
  simp only [Host.dotGeneral]
  rw [Ideal.dotGeneral_apply, ← Equiv.sum_comp (contrEquiv1 dot_S1024x8192_S8192x128_S1024x128_1_0_0_1_n_n 8192 rfl rfl).symm]
  refine Finset.sum_congr rfl fun k _ => ?_
  have hk := contrEquiv1_symm_val dot_S1024x8192_S8192x128_S1024x128_1_0_0_1_n_n 8192 rfl rfl k
  -- the left operand is read at (row of the output, contraction position) …
  have el : dot_S1024x8192_S8192x128_S1024x128_1_0_0_1_n_n.lhsIdx (ix2 p q) ((contrEquiv1 dot_S1024x8192_S8192x128_S1024x128_1_0_0_1_n_n 8192 rfl rfl).symm k) = ix2 p k := funext fun a => Fin.ext (by
    match a with
    | ⟨0, _⟩ => exact agg1_apply_lrow _ _
    | ⟨1, _⟩ => exact (dot_S1024x8192_S8192x128_S1024x128_1_0_0_1_n_n.lhsIdx_val_of_single rfl (ix2 p q) _).trans hk)
  -- … and the right operand at (contraction position, column of the output)
  have er : dot_S1024x8192_S8192x128_S1024x128_1_0_0_1_n_n.rhsIdx (ix2 p q) ((contrEquiv1 dot_S1024x8192_S8192x128_S1024x128_1_0_0_1_n_n 8192 rfl rfl).symm k) = ix2 k q := funext fun a => Fin.ext (by
    match a with
    | ⟨0, _⟩ => exact (dot_S1024x8192_S8192x128_S1024x128_1_0_0_1_n_n.rhsIdx_val_of_single rfl (ix2 p q) _).trans hk
    | ⟨1, _⟩ => exact agg1_apply_rcol _ _)
  rw [el, er]

/-- The left operand's row is the output's row, whatever the contraction position. -/
theorem mix1_apply_lrow [Facts₀] (i : S1024x128.Idx) (c : dot_S1024x256_S256x128_S1024x128_1_0_0_1_n_n.contr.Idx) : (dot_S1024x256_S256x128_S1024x128_1_0_0_1_n_n.lhsIdx i c 0).val = (i 0).val := by
  unfold DotDims.lhsIdx
  rw [dif_neg (show ¬(0 : Fin S1024x256.rank) ∈ dot_S1024x256_S256x128_S1024x128_1_0_0_1_n_n.lhsBatch from List.not_mem_nil),
    dif_pos (show (0 : Fin S1024x256.rank) ∈ dot_S1024x256_S256x128_S1024x128_1_0_0_1_n_n.lhsNonContracting from List.mem_singleton.mpr rfl)]
  rfl
/-- The right operand's column is the output's column, whatever the contraction position. -/
theorem mix1_apply_rcol [Facts₀] (i : S1024x128.Idx) (c : dot_S1024x256_S256x128_S1024x128_1_0_0_1_n_n.contr.Idx) : (dot_S1024x256_S256x128_S1024x128_1_0_0_1_n_n.rhsIdx i c 1).val = (i 1).val := by
  unfold DotDims.rhsIdx
  rw [dif_neg (show ¬(1 : Fin S256x128.rank) ∈ dot_S1024x256_S256x128_S1024x128_1_0_0_1_n_n.rhsBatch from List.not_mem_nil),
    dif_pos (show (1 : Fin S256x128.rank) ∈ dot_S1024x256_S256x128_S1024x128_1_0_0_1_n_n.rhsNonContracting from List.mem_singleton.mpr rfl)]
  rfl
/-- Hop 1's product with the weight matrix (contraction over the 256 concatenated columns) at row `p`, column `q`. -/
theorem mix1_apply [Facts₀] (l : (⟨S1024x256, .f32⟩ : BufTy).Contents (Elt Ideal)) (r : (⟨S256x128, .f32⟩ : BufTy).Contents (Elt Ideal)) (p : Fin 1024) (q : Fin 128) :
    Host.dotGeneral (F := Ideal) (φ₁ := .f32) (φ₂ := .f32) dot_S1024x256_S256x128_S1024x128_1_0_0_1_n_n none l r (ix2 p q) = ∑ k : Fin 256, l (ix2 p k) * r (ix2 k q) := by
  simp only [Host.dotGeneral]
  rw [Ideal.dotGeneral_apply, ← Equiv.sum_comp (contrEquiv1 dot_S1024x256_S256x128_S1024x128_1_0_0_1_n_n 256 rfl rfl).symm]
  refine Finset.sum_congr rfl fun k _ => ?_
  have hk := contrEquiv1_symm_val dot_S1024x256_S256x128_S1024x128_1_0_0_1_n_n 256 rfl rfl k
  -- the left operand is read at (row of the output, contraction position) …
  have el : dot_S1024x256_S256x128_S1024x128_1_0_0_1_n_n.lhsIdx (ix2 p q) ((contrEquiv1 dot_S1024x256_S256x128_S1024x128_1_0_0_1_n_n 256 rfl rfl).symm k) = ix2 p k := funext fun a => Fin.ext (by
    match a with
    | ⟨0, _⟩ => exact mix1_apply_lrow _ _
    | ⟨1, _⟩ => exact (dot_S1024x256_S256x128_S1024x128_1_0_0_1_n_n.lhsIdx_val_of_single rfl (ix2 p q) _).trans hk)
  -- … and the right operand at (contraction position, column of the output)
  have er : dot_S1024x256_S256x128_S1024x128_1_0_0_1_n_n.rhsIdx (ix2 p q) ((contrEquiv1 dot_S1024x256_S256x128_S1024x128_1_0_0_1_n_n 256 rfl rfl).symm k) = ix2 k q := funext fun a => Fin.ext (by
    match a with
    | ⟨0, _⟩ => exact (dot_S1024x256_S256x128_S1024x128_1_0_0_1_n_n.rhsIdx_val_of_single rfl (ix2 p q) _).trans hk
    | ⟨1, _⟩ => exact mix1_apply_rcol _ _)
  rw [el, er]

/-! ## The side-by-side matrix at a column of either half -/

/-- Hop 2: the side-by-side matrix at a column of its first half is the first piece at that column. -/
theorem cat2_lo [Facts₀] (a b : (⟨S4096x128, .f32⟩ : BufTy).Contents (Elt Ideal)) (r : Fin 4096) (j : Fin 128) :
    concatenate S4096x256 1 [⟨S4096x128, a⟩, ⟨S4096x128, b⟩] concatenates_S4096x128_S4096x128_S4096x256_d1 (ix2 r (Cert.Spec.lo j)) = a (ix2 r j) :=
  concatenate_pair_apply_left (t := S4096x256) (s₁ := S4096x128) (s₂ := S4096x128) (1 : Fin S4096x256.rank) a b concatenates_S4096x128_S4096x128_S4096x256_d1
    (ix2 r (Cert.Spec.lo j)) rfl (ix2 r j) (fun c => match c with | ⟨0, _⟩ => rfl | ⟨1, _⟩ => rfl)

/-- Hop 2: the side-by-side matrix at column `128 + j` is the second piece at column `j`. -/
theorem cat2_hi [Facts₀] (a b : (⟨S4096x128, .f32⟩ : BufTy).Contents (Elt Ideal)) (r : Fin 4096) (j : Fin 128) :
    concatenate S4096x256 1 [⟨S4096x128, a⟩, ⟨S4096x128, b⟩] concatenates_S4096x128_S4096x128_S4096x256_d1 (ix2 r (Cert.Spec.hi j)) = b (ix2 r j) :=
  concatenate_pair_apply_right (t := S4096x256) (s₁ := S4096x128) (s₂ := S4096x128) (1 : Fin S4096x256.rank) a b concatenates_S4096x128_S4096x128_S4096x256_d1
    (ix2 r (Cert.Spec.hi j)) rfl rfl (ix2 r j)
    (fun c hc => match c, hc with | ⟨0, _⟩, _ => rfl | ⟨1, _⟩, hc => absurd rfl hc)
    (show j.val + 128 = 128 + j.val from Nat.add_comm _ _)

/-- Hop 1: the side-by-side matrix at a column of its first half is the first piece at that column. -/
theorem cat1_lo [Facts₀] (a b : (⟨S1024x128, .f32⟩ : BufTy).Contents (Elt Ideal)) (r : Fin 1024) (j : Fin 128) :
    concatenate S1024x256 1 [⟨S1024x128, a⟩, ⟨S1024x128, b⟩] concatenates_S1024x128_S1024x128_S1024x256_d1 (ix2 r (Cert.Spec.lo j)) = a (ix2 r j) :=
  concatenate_pair_apply_left (t := S1024x256) (s₁ := S1024x128) (s₂ := S1024x128) (1 : Fin S1024x256.rank) a b concatenates_S1024x128_S1024x128_S1024x256_d1
    (ix2 r (Cert.Spec.lo j)) rfl (ix2 r j) (fun c => match c with | ⟨0, _⟩ => rfl | ⟨1, _⟩ => rfl)

/-- Hop 1: the side-by-side matrix at column `128 + j` is the second piece at column `j`. -/
theorem cat1_hi [Facts₀] (a b : (⟨S1024x128, .f32⟩ : BufTy).Contents (Elt Ideal)) (r : Fin 1024) (j : Fin 128) :
    concatenate S1024x256 1 [⟨S1024x128, a⟩, ⟨S1024x128, b⟩] concatenates_S1024x128_S1024x128_S1024x256_d1 (ix2 r (Cert.Spec.hi j)) = b (ix2 r j) :=
  concatenate_pair_apply_right (t := S1024x256) (s₁ := S1024x128) (s₂ := S1024x128) (1 : Fin S1024x256.rank) a b concatenates_S1024x128_S1024x128_S1024x256_d1
    (ix2 r (Cert.Spec.hi j)) rfl rfl (ix2 r j)
    (fun c hc => match c, hc with | ⟨0, _⟩, _ => rfl | ⟨1, _⟩, hc => absurd rfl hc)
    (show j.val + 128 = 128 + j.val from Nat.add_comm _ _)

/-! ## The hops -/

/-- Hop 2 of the reference before any activation, at row `r`, column `e`: the product of the side-by-side matrix
    [dif · src | dst] with the whole weight matrix is the hop of `Cert.Spec.hopAt` (the sum over the 256 columns
    split into the aggregate's half and the destination's half). -/
theorem refHop2_apply [Facts₀] (dif : (⟨S4096x40960, .f32⟩ : BufTy).Contents (Elt Ideal)) (src : (⟨S40960x128, .f32⟩ : BufTy).Contents (Elt Ideal))
    (dst : (⟨S4096x128, .f32⟩ : BufTy).Contents (Elt Ideal)) (w : (⟨S256x128, .f32⟩ : BufTy).Contents (Elt Ideal)) (r : Fin 4096) (e : Fin 128) :
    (Host.dotGeneral (F := Ideal) (φ₁ := .f32) (φ₂ := .f32) dot_S4096x256_S256x128_S4096x128_1_0_0_1_n_n none
        (concatenate S4096x256 1 [⟨S4096x128, Host.dotGeneral (F := Ideal) (φ₁ := .f32) (φ₂ := .f32) dot_S4096x40960_S40960x128_S4096x128_1_0_0_1_n_n none dif src⟩, ⟨S4096x128, dst⟩] concatenates_S4096x128_S4096x128_S4096x256_d1) w) (ix2 r e)
      = Cert.Spec.hopAt (fun r k => dif (ix2 r k)) (fun k j => src (ix2 k j)) (fun r j => dst (ix2 r j)) (fun a b => w (ix2 a b)) r e := by
  refine (mix2_apply _ w r e).trans ?_
  refine (Cert.Spec.sum_256_halves _).trans ?_
  unfold Cert.Spec.hopAt Cert.Spec.aggAt
  refine congrArg₂ (· + ·) (Finset.sum_congr rfl fun j _ => ?_) (Finset.sum_congr rfl fun j _ => ?_)
  · exact congrArg (· * w (ix2 (Cert.Spec.lo j) e)) ((cat2_lo _ dst r j).trans (agg2_apply dif src r j))
  · exact congrArg (· * w (ix2 (Cert.Spec.hi j) e)) (cat2_hi _ dst r j)

/-- Hop 1 of the reference before any activation, at row `r`, column `e`: the product of the side-by-side matrix
    [dif · src | dst] with the whole weight matrix is the hop of `Cert.Spec.hopAt` (the sum over the 256 columns
    split into the aggregate's half and the destination's half). -/
theorem refHop1_apply [Facts₀] (dif : (⟨S1024x8192, .f32⟩ : BufTy).Contents (Elt Ideal)) (src : (⟨S8192x128, .f32⟩ : BufTy).Contents (Elt Ideal))
    (dst : (⟨S1024x128, .f32⟩ : BufTy).Contents (Elt Ideal)) (w : (⟨S256x128, .f32⟩ : BufTy).Contents (Elt Ideal)) (r : Fin 1024) (e : Fin 128) :
    (Host.dotGeneral (F := Ideal) (φ₁ := .f32) (φ₂ := .f32) dot_S1024x256_S256x128_S1024x128_1_0_0_1_n_n none
        (concatenate S1024x256 1 [⟨S1024x128, Host.dotGeneral (F := Ideal) (φ₁ := .f32) (φ₂ := .f32) dot_S1024x8192_S8192x128_S1024x128_1_0_0_1_n_n none dif src⟩, ⟨S1024x128, dst⟩] concatenates_S1024x128_S1024x128_S1024x256_d1) w) (ix2 r e)
      = Cert.Spec.hopAt (fun r k => dif (ix2 r k)) (fun k j => src (ix2 k j)) (fun r j => dst (ix2 r j)) (fun a b => w (ix2 a b)) r e := by
  refine (mix1_apply _ w r e).trans ?_
  refine (Cert.Spec.sum_256_halves _).trans ?_
  unfold Cert.Spec.hopAt Cert.Spec.aggAt
  refine congrArg₂ (· + ·) (Finset.sum_congr rfl fun j _ => ?_) (Finset.sum_congr rfl fun j _ => ?_)
  · exact congrArg (· * w (ix2 (Cert.Spec.lo j) e)) ((cat1_lo _ dst r j).trans (agg1_apply dif src r j))
  · exact congrArg (· * w (ix2 (Cert.Spec.hi j) e)) (cat1_hi _ dst r j)

/-! ## The activation -/

/-- The rectifier of hop 2 at an entry: the maximum of the entry and the zero literal (the literal a scalar constant
    broadcast to the whole matrix). -/
theorem relu_apply [Facts₀] (x : (⟨S4096x128, .f32⟩ : BufTy).Contents (Elt Ideal)) (r : Fin 4096) (e : Fin 128) :
    (maximumf x (broadcastInDim S4096x128 ![] bcast_S_S4096x128 (constant (F := Ideal) S_ .f32 0x00000000#32))) (ix2 r e)
      = max (x (ix2 r e)) (Ideal.ofBits .f32 0x00000000#32) :=
  congrArg (max (x (ix2 r e)))
    (broadcastInDim_apply (s := S_) (t := S4096x128) ![] bcast_S_S4096x128 (constant (F := Ideal) S_ .f32 0x00000000#32)
      (ix2 r e) ix0 (fun a => a.elim0))

end Cert.ReferenceIdeal.Hand

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.Val.KPay0.lean ====
/-
  The three values the kernel of the first launch stores, read at an entry, on the extended reals.

  The accumulator's reset value is zero; the accumulator's update at (p, q) is the old accumulator plus the
  block product ∑ kk < 2048, dif-block[p, kk] · src-slice[kk, q]; the output block at (p, q) is the maximum with
  zero of (∑ j < 128, acc[p, j] · wa[j, q]) + ∑ j < 128, dst[p, j] · wb[j, q]. Format changes and shape casts to
  the same shape are the identity here.
-/
import proofs.«123040_j36550171689307_2_alg».proof.Proof.Gen.KernelIdeal.Skeleton
import proofs.«123040_j36550171689307_2_alg».proof.Proof.Val.Spec
import proofs.«123040_j36550171689307_2_alg».proof.Proof.LibPlainMatmul
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.SL.Sem Idealize.ShloMosaic.ValueIdx
open Cert.KernelIdeal Cert.KernelIdeal.Gen

/-- The zero the program's relu compares against: the f32 zero word read as an extended real. -/
abbrev zeroLit : Ideal .f32 := Scalar.ofBits .f32 0x00000000#32

/-- The reset value of the accumulator is zero at every entry. -/
theorem pay1_apply (p : Fin 512) (q : Fin 128) : k0_pay1 (F := Ideal) (ix2 p q) = 0 := by
  unfold k0_pay1
  rw [shapeCast_self]
  exact Ideal.ofBits_zero_f32

/-- The accumulator's update at (p, q): the old accumulator plus the block product. -/
theorem pay2_apply (v6 : Vec Ideal S2048x128 .f32) (v8 : Vec Ideal S512x2048 .f32) (v11 : Vec Ideal S512x128 .f32)
    (p : Fin 512) (q : Fin 128) :
    k0_pay2 (F := Ideal) v6 v8 v11 (ix2 p q) = v11 (ix2 p q) + ∑ kk : Fin 2048, v8 (ix2 p kk) * v6 (ix2 kk q) := by
  unfold k0_pay2
  rw [shapeCast_self, shapeCast_self]
  refine congrArg (v11 (ix2 p q) + ·) ?_
  exact matmul_plain_zero_apply _ rfl none _ _ p q

/-- The output block at (p, q): the maximum with zero of the two products' sum. -/
theorem pay3_apply (v20 v21 : Vec Ideal S512x128 .f32) (v23 v25 : Vec Ideal S128x128 .f32) (p : Fin 512) (q : Fin 128) :
    k0_pay3 (F := Ideal) v20 v21 v23 v25 (ix2 p q)
      = max ((∑ j : Fin 128, v20 (ix2 p j) * v23 (ix2 j q)) + ∑ j : Fin 128, v21 (ix2 p j) * v25 (ix2 j q)) zeroLit := by
  unfold k0_pay3
  rw [shapeCast_self, shapeCast_self, shapeCast_self]
  refine congrArg₂ max (congrArg₂ (· + ·) ?_ ?_) rfl
  · exact matmul_plain_zero_apply _ rfl (some .fp32) _ _ p q
  · exact matmul_plain_zero_apply _ rfl (some .fp32) _ _ p q

end Cert.KernelIdeal.Hand

end
-- ==== Proof.LibBlockSum.lean ====
/-
  Sums over array indices, re-indexed through coordinates.

  A rank-3 (rank-4) index set is the product of its coordinate ranges, so a sum over it is the iterated sum over the
  coordinates; and an axis of extent `T * B` cut into `T` blocks of `B` is summed block by block. Together these turn
  "the total over a whole array" into "the total, over the blocks that tile its leading axis, of each block's total" — the
  equation between a reference's one reduction over an array and a kernel's accumulation over a grid of row blocks.
-/
import Idealize.ShloMosaic.Lib.ValueIdx

noncomputable section

open scoped BigOperators

namespace Idealize.ShloMosaic.ValueIdx

open Idealize.ShloMosaic

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl
/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Row `b` of block `t`, of `T` blocks of `B` rows: row `t * B + b` of the whole. -/
def blockRow {T B : Nat} (t : Fin T) (b : Fin B) : Fin (T * B) :=
  ⟨t.val * B + b.val, by
    have ht := t.isLt; have hb := b.isLt
    calc t.val * B + b.val < t.val * B + B := by omega
      _ = (t.val + 1) * B := by ring
      _ ≤ T * B := Nat.mul_le_mul_right B ht⟩

theorem blockRow_val {T B : Nat} (t : Fin T) (b : Fin B) : (blockRow t b).val = t.val * B + b.val := rfl

/-- The rows of an axis of extent `T * B` are the rows of its `T` blocks: a bijection. -/
def blockRowEquiv (T B : Nat) : Fin T × Fin B ≃ Fin (T * B) where
  toFun p := blockRow p.1 p.2
  invFun r := (⟨r.val / B, by
      have hr := r.isLt
      rcases Nat.eq_zero_or_pos B with hB | hB
      · subst hB; simp at hr
      · exact (Nat.div_lt_iff_lt_mul hB).mpr hr⟩,
    ⟨r.val % B, by
      have hr := r.isLt
      rcases Nat.eq_zero_or_pos B with hB | hB
      · subst hB; simp at hr
      · exact Nat.mod_lt _ hB⟩)
  left_inv p := by
    obtain ⟨t, b⟩ := p
    have hb := b.isLt
    have hB : 0 < B := by omega
    refine Prod.ext (Fin.ext ?_) (Fin.ext ?_)
    · show (t.val * B + b.val) / B = t.val
      rw [Nat.add_comm, Nat.add_mul_div_right _ _ hB, Nat.div_eq_of_lt hb, Nat.zero_add]
    · show (t.val * B + b.val) % B = b.val
      rw [Nat.add_comm, Nat.add_mul_mod_self_right, Nat.mod_eq_of_lt hb]
  right_inv r := by
    apply Fin.ext
    show r.val / B * B + r.val % B = r.val
    rw [Nat.mul_comm]; exact Nat.div_add_mod r.val B

/-- A sum over an axis of extent `T * B` is the sum over its `T` blocks of the sum over each block's `B` rows. -/
theorem sum_blockRows {M : Type*} [AddCommMonoid M] (T B : Nat) (f : Fin (T * B) → M) :
    ∑ r, f r = ∑ t : Fin T, ∑ b : Fin B, f (blockRow t b) := by
  rw [← Equiv.sum_comp (blockRowEquiv T B) f, Fintype.sum_prod_type]
  rfl

end Idealize.ShloMosaic.ValueIdx

end
-- ==== Proof.LibSliceRead.lean ====
/-
  A unit-stride slice of a matrix, read at an entry.

  A load of a [p, q] window of an [a, b] matrix through consecutive rows from `off 0` and consecutive columns from
  `off 1` — a static sub-block, or a window whose first row is computed from a grid coordinate — reads, at (r, e),
  the matrix at (off 0 + r, off 1 + e). The target entry is named by the caller together with the two equations
  that say so, so that the offsets may be any expressions.
-/
import Idealize.ShloMosaic.Lib.ValueIdx
import Idealize.ShloMosaic.Lib.Pipeline.Value

noncomputable section

namespace Cert.LibSliceRead

open Idealize.ShloMosaic Idealize.ShloMosaic.ValueIdx

/-- A unit-stride slice of a matrix read at (r, e) is the matrix at (off₀ + r, off₁ + e). -/
theorem ld_unit_ix2 {a b p q : ℕ} {Val : EltTy → Type} {el : EltTy} (x : (⟨2, ![a, b]⟩ : Shape).Idx → Val el) (off : Fin 2 → Nat)
    (inb : ∀ ax, off ax + (![p, q] : Fin 2 → Nat) ax ≤ (⟨2, ![a, b]⟩ : Shape).size ax) (r : Fin p) (e : Fin q)
    (i : Fin a) (j : Fin b) (hi : i.val = off 0 + r.val) (hj : j.val = off 1 + e.val) :
    View.ld x (Rect.unit (s := ⟨2, ![a, b]⟩) off ![p, q] inb) (ix2 r e) = x (ix2 i j) := by
  show x ((Rect.unit (s := ⟨2, ![a, b]⟩) off ![p, q] inb).emb (ix2 r e)) = _
  refine congrArg x (funext fun ax => Fin.ext ?_)
  match ax with
  | ⟨0, _⟩ => show off 0 + 1 * r.val = i.val; omega
  | ⟨1, _⟩ => show off 1 + 1 * e.val = j.val; omega

end Cert.LibSliceRead

end
-- ==== Proof.Val.KHop0.lean ====
/-
  What the first launch leaves in its output array, entry by entry, on the extended reals.

  The grid is 8 row blocks by 20 column blocks. At a point (m, k) the accumulator receives the product of block (m, k)
  of the diffusion matrix (512 × 2048) with rows k·2048 … of the source features; it restarts from zero at k = 0, so
  after (m, k) it holds, at (p, q), the sum over the column blocks 0 … k. After k = 19 that is the whole aggregate
  ∑ over 40960 columns (a sum over 20 · 2048 regrouped by blocks), and the output block is the maximum with zero of
  aggregate · wa + dst-block · wb. The 8 points with k = 19 write their row blocks back and these tile the array, so
  the array ends, at (r, e), at the maximum with zero of the hop's value there.
-/
import proofs.«123040_j36550171689307_2_alg».proof.Proof.KI.Region0
import proofs.«123040_j36550171689307_2_alg».proof.Proof.Val.KPay0
import proofs.«123040_j36550171689307_2_alg».proof.Proof.LibBlockSum
import proofs.«123040_j36550171689307_2_alg».proof.Proof.LibSliceRead
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat Cfg Window)
open scoped BigOperators

section Cases

variable {F : FTy → Type} [FloatOps F]

theorem hz2 : (![0, 0] : Fin 2 → Nat) = fun _ => 0 := funext fun a => by fin_cases a <;> rfl

/-! ## What each case leaves, as values: the payloads of its covering stores -/

set_option maxHeartbeats 400000 in
theorem scovA (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond0_0 i) (hc1 : ¬cond0_1 i) (x0 : Vec F S512x2048 .f32) (x1 : Vec F S40960x128 .f32) (x2 : Vec F S512x128 .f32) (x3 : Vec F S128x128 .f32) (x4 : Vec F S128x128 .f32) (y : S512x128.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S512x128.size (by sl_kernel_rfl) y

set_option maxHeartbeats 400000 in
theorem scovB (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : ¬cond0_1 i) (x0 : Vec F S512x2048 .f32) (x1 : Vec F S40960x128 .f32) (x2 : Vec F S512x128 .f32) (x3 : Vec F S128x128 .f32) (x4 : Vec F S128x128 .f32) (xs0 : Vec F S512x128 .f32) (y : S512x128.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S512x128.size (by sl_kernel_rfl) y

set_option maxHeartbeats 400000 in
theorem scovC (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : cond0_1 i) (x0 : Vec F S512x2048 .f32) (x1 : Vec F S40960x128 .f32) (x2 : Vec F S512x128 .f32) (x3 : Vec F S128x128 .f32) (x4 : Vec F S128x128 .f32) (xs0 : Vec F S512x128 .f32) (y : S512x128.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S512x128.size (by sl_kernel_rfl) y

set_option maxHeartbeats 400000 in
theorem covC (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : cond0_1 i) (x0 : Vec F S512x2048 .f32) (x1 : Vec F S40960x128 .f32) (x2 : Vec F S512x128 .f32) (x3 : Vec F S128x128 .f32) (x4 : Vec F S128x128 .f32) (xs0 : Vec F S512x128 .f32) (y : S512x128.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S512x128.size (by sl_kernel_rfl) y

set_option maxHeartbeats 400000 in
/-- A middle step leaves in the accumulator the old accumulator plus the step's block product. -/
theorem sB (v : View sig .tc .vmem S512x128 .f32) (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : ¬cond0_1 i) (x0 : Vec F S512x2048 .f32) (x1 : Vec F S40960x128 .f32) (x2 : Vec F S512x128 .f32) (x3 : Vec F S128x128 .f32) (x4 : Vec F S128x128 .f32) (xs0 : Vec F S512x128 .f32) :
    v.read (Elt F) (v.writes (Elt F) v.junk (kernelRun0_B c i arg2 harg2 arg3 harg3 arg4 harg4 arg5 harg5 arg6 harg6 arg7 harg7 arg8 harg8 hc0 hc1 x0 x1 x2 x3 x4 xs0).2.1)
      = k0_pay2 (View.ld x1 (Rect.unit (s := S40960x128) (k0_off1 i) S2048x128.size (k0_off1_inb i))) x0 xs0 := by
  rw [View.read_writes_eq_canon _ _ _ (scovB c i arg2 harg2 arg3 harg3 arg4 harg4 arg5 harg5 arg6 harg6 arg7 harg7 arg8 harg8 hc0 hc1 x0 x1 x2 x3 x4 xs0)]
  unfold kernelRun0_B
  dsimp only
  rw [View.canon_unit_zero hz2]
  simp only [View.readAt_eq_ld, harg2.read_unread, harg3.read_unread, harg8.read_unread, View.ld_unit_zero (S := S512x2048) hz2, View.ld_unit_zero (S := S512x128) hz2]

set_option maxHeartbeats 400000 in
/-- The first step leaves in the accumulator zero plus the step's block product. -/
theorem sA (v : View sig .tc .vmem S512x128 .f32) (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond0_0 i) (hc1 : ¬cond0_1 i) (x0 : Vec F S512x2048 .f32) (x1 : Vec F S40960x128 .f32) (x2 : Vec F S512x128 .f32) (x3 : Vec F S128x128 .f32) (x4 : Vec F S128x128 .f32) :
    v.read (Elt F) (v.writes (Elt F) v.junk (kernelRun0_A c i arg2 harg2 arg3 harg3 arg4 harg4 arg5 harg5 arg6 harg6 arg7 harg7 arg8 harg8 hc0 hc1 x0 x1 x2 x3 x4).2.1)
      = k0_pay2 (View.ld x1 (Rect.unit (s := S40960x128) (k0_off1 i) S2048x128.size (k0_off1_inb i))) x0 (k0_pay1 (F := F)) := by
  rw [View.read_writes_eq_canon _ _ _ (scovA c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S512x128) hz2, View.readCov_unit_zero (S := S512x128) _ hz2]
  simp only [View.readAt_eq_ld, harg2.read_unread, harg3.read_unread, View.ld_unit_zero (S := S512x2048) hz2]
  try rfl

set_option maxHeartbeats 400000 in
/-- The last step leaves in the accumulator what a middle step does, -/
theorem sC (v : View sig .tc .vmem S512x128 .f32) (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : cond0_1 i) (x0 : Vec F S512x2048 .f32) (x1 : Vec F S40960x128 .f32) (x2 : Vec F S512x128 .f32) (x3 : Vec F S128x128 .f32) (x4 : Vec F S128x128 .f32) (xs0 : Vec F S512x128 .f32) :
    v.read (Elt F) (v.writes (Elt F) v.junk (kernelRun0_C c i arg2 harg2 arg3 harg3 arg4 harg4 arg5 harg5 arg6 harg6 arg7 harg7 arg8 harg8 hc0 hc1 x0 x1 x2 x3 x4 xs0).2.1)
      = k0_pay2 (View.ld x1 (Rect.unit (s := S40960x128) (k0_off1 i) S2048x128.size (k0_off1_inb i))) x0 xs0 := by
  rw [View.read_writes_eq_canon _ _ _ (scovC c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero (S := S512x128) hz2]
  simp only [View.readAt_eq_ld, harg2.read_unread, harg3.read_unread, harg8.read_unread, View.ld_unit_zero (S := S512x2048) hz2, View.ld_unit_zero (S := S512x128) hz2]
  try rfl

set_option maxHeartbeats 400000 in
/-- and in the output block the finishing product of that accumulator, the destination block and the two weights. -/
theorem oC (v : View sig .tc .vmem S512x128 .f32) (c : Dev nD) (i : grid0.Coords) (arg2 : Memref sig .tc .vmem S512x2048 .f32) (harg2 : arg2.IsWhole) (arg3 : Memref sig .tc .vmem S40960x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond0_0 i) (hc1 : cond0_1 i) (x0 : Vec F S512x2048 .f32) (x1 : Vec F S40960x128 .f32) (x2 : Vec F S512x128 .f32) (x3 : Vec F S128x128 .f32) (x4 : Vec F S128x128 .f32) (xs0 : Vec F S512x128 .f32) :
    v.read (Elt F) (v.writes (Elt F) v.junk (kernelRun0_C c i arg2 harg2 arg3 harg3 arg4 harg4 arg5 harg5 arg6 harg6 arg7 harg7 arg8 harg8 hc0 hc1 x0 x1 x2 x3 x4 xs0).1)
      = k0_pay3 (k0_pay2 (View.ld x1 (Rect.unit (s := S40960x128) (k0_off1 i) S2048x128.size (k0_off1_inb i))) x0 xs0) x2 x3 x4 := by
  rw [View.read_writes_eq_canon _ _ _ (covC c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero (S := S512x128) hz2, View.readCov_unit_zero (S := S512x128) _ hz2]
  simp only [View.readAt_eq_ld, harg2.read_unread, harg3.read_unread, harg4.read_unread, harg5.read_unread, harg6.read_unread, harg8.read_unread, View.ld_unit_zero (S := S512x2048) hz2, View.ld_unit_zero (S := S512x128) hz2, View.ld_unit_zero (S := S128x128) hz2]
  try rfl

end Cases

/-! ## The accumulation, as sums -/

/-- The contribution of column block `k` (2048 columns of the diffusion matrix against the matching 2048 rows of
    the source features) to entry (row `p` of row block `m`, column `q`) of the aggregate; zero past the last block. -/
def blkTerm (Mb T : ℕ) (dif : Fin (Mb * 512) → Fin (T * 2048) → EReal) (src : Fin (T * 2048) → Fin 128 → EReal)
    (m : Fin Mb) (k : ℕ) (p : Fin 512) (q : Fin 128) : EReal :=
  if h : k < T then ∑ kk : Fin 2048, dif (blockRow m p) (blockRow ⟨k, h⟩ kk) * src (blockRow ⟨k, h⟩ kk) q else 0

/-- The aggregate accumulated over column blocks `0 … k`. -/
def partialAgg (Mb T : ℕ) (dif : Fin (Mb * 512) → Fin (T * 2048) → EReal) (src : Fin (T * 2048) → Fin 128 → EReal)
    (m : Fin Mb) (k : ℕ) (p : Fin 512) (q : Fin 128) : EReal :=
  ∑ s ∈ Finset.range (k + 1), blkTerm Mb T dif src m s p q

theorem partialAgg_zero (Mb T : ℕ) (dif : Fin (Mb * 512) → Fin (T * 2048) → EReal) (src : Fin (T * 2048) → Fin 128 → EReal)
    (m : Fin Mb) (p : Fin 512) (q : Fin 128) : partialAgg Mb T dif src m 0 p q = blkTerm Mb T dif src m 0 p q := by
  unfold partialAgg; rw [Finset.sum_range_one]

theorem partialAgg_succ (Mb T : ℕ) (dif : Fin (Mb * 512) → Fin (T * 2048) → EReal) (src : Fin (T * 2048) → Fin 128 → EReal)
    (m : Fin Mb) (k : ℕ) (p : Fin 512) (q : Fin 128) :
    partialAgg Mb T dif src m (k + 1) p q = partialAgg Mb T dif src m k p q + blkTerm Mb T dif src m (k + 1) p q := by
  unfold partialAgg; rw [Finset.sum_range_succ]

/-- Accumulated over all the column blocks, the aggregate is the whole row-by-column sum. -/
theorem partialAgg_last (Mb T : ℕ) (dif : Fin (Mb * 512) → Fin (T * 2048) → EReal) (src : Fin (T * 2048) → Fin 128 → EReal)
    (m : Fin Mb) (k : ℕ) (hk : k + 1 = T) (p : Fin 512) (q : Fin 128) :
    partialAgg Mb T dif src m k p q = Cert.Spec.aggAt dif src (blockRow m p) q := by
  unfold partialAgg Cert.Spec.aggAt
  rw [hk, Finset.sum_range, sum_blockRows T 2048]
  refine Finset.sum_congr rfl fun s _ => ?_
  unfold blkTerm
  rw [dif_pos s.isLt]

/-! ## The windows' blocks, read at an entry of the arrays as the launch finds them -/

section Blocks

variable (V : (c : Dev nD) → (b : Ref sig .tc) → Buf (Elt Ideal) ((c : Thread nD τ).loc b))

/-- The diffusion matrix, the source features, the destination features and the two weight matrices at launch. -/
abbrev difA (c : Dev nD) : Fin (8 * 512) → Fin (20 * 2048) → EReal := fun r k => (V c main_arg6 : S4096x40960.Idx → EReal) (ix2 r k)
abbrev srcA (c : Dev nD) : Fin (20 * 2048) → Fin 128 → EReal := fun k j => (V c main_v20 : S40960x128.Idx → EReal) (ix2 k j)
abbrev dstA (c : Dev nD) : Fin (8 * 512) → Fin 128 → EReal := fun r j => (V c main_v13 : S4096x128.Idx → EReal) (ix2 r j)
abbrev waA (c : Dev nD) : Fin 128 → Fin 128 → EReal := fun j e => (V c main_v21 : S128x128.Idx → EReal) (ix2 j e)
abbrev wbA (c : Dev nD) : Fin 128 → Fin 128 → EReal := fun j e => (V c main_v22 : S128x128.Idx → EReal) (ix2 j e)

/-- The block indices of the six windows at a point: row block t / 20, column block t % 20. -/
theorem idx0_0 : ∀ t : Fin cfg0.N, (cfg0.win 0).index t 0 = t.val / 20 ∧ (cfg0.win 0).index t 1 = t.val % 20 :=
  (by decide +kernel : ∀ t : Fin grid0.N, win0_0.index t 0 = t.val / 20 ∧ win0_0.index t 1 = t.val % 20)
theorem idx0_1 : ∀ t : Fin cfg0.N, (cfg0.win 1).index t 0 = 0 ∧ (cfg0.win 1).index t 1 = 0 :=
  (by decide +kernel : ∀ t : Fin grid0.N, win0_1.index t 0 = 0 ∧ win0_1.index t 1 = 0)
theorem idx0_2 : ∀ t : Fin cfg0.N, (cfg0.win 2).index t 0 = t.val / 20 ∧ (cfg0.win 2).index t 1 = 0 :=
  (by decide +kernel : ∀ t : Fin grid0.N, win0_2.index t 0 = t.val / 20 ∧ win0_2.index t 1 = 0)
theorem idx0_3 : ∀ t : Fin cfg0.N, (cfg0.win 3).index t 0 = 0 ∧ (cfg0.win 3).index t 1 = 0 :=
  (by decide +kernel : ∀ t : Fin grid0.N, win0_3.index t 0 = 0 ∧ win0_3.index t 1 = 0)
theorem idx0_4 : ∀ t : Fin cfg0.N, (cfg0.win 4).index t 0 = 0 ∧ (cfg0.win 4).index t 1 = 0 :=
  (by decide +kernel : ∀ t : Fin grid0.N, win0_4.index t 0 = 0 ∧ win0_4.index t 1 = 0)
theorem idx0_5 : ∀ t : Fin cfg0.N, (cfg0.win 5).index t 0 = t.val / 20 ∧ (cfg0.win 5).index t 1 = 0 :=
  (by decide +kernel : ∀ t : Fin grid0.N, win0_5.index t 0 = t.val / 20 ∧ win0_5.index t 1 = 0)
/-- The first row of the source slice a point loads: column block t % 20 times 2048. -/
theorem off0 : ∀ t : Fin cfg0.N, k0_off1 (grid0.coords t) 0 = t.val % 20 * 2048 ∧ k0_off1 (grid0.coords t) 1 = 0 :=
  (by decide +kernel : ∀ t : Fin grid0.N, k0_off1 (grid0.coords t) 0 = t.val % 20 * 2048 ∧ k0_off1 (grid0.coords t) 1 = 0)

/-- The row block and the column block of a point. -/
def mOf (t : Fin cfg0.N) : Fin 8 := ⟨t.val / 20, by have := lt_of_lt_of_eq t.isLt (show cfg0.N = 160 from N_0); omega⟩
def kOf (t : Fin cfg0.N) : Fin 20 := ⟨t.val % 20, Nat.mod_lt _ (by decide)⟩

set_option maxHeartbeats 400000 in
/-- Block (m, k) of the diffusion matrix at (p, kk) is the matrix at (m·512 + p, k·2048 + kk). -/
theorem blk0_apply (c : Dev nD) (t : Fin cfg0.N) (p : Fin 512) (kk : Fin 2048) :
    (iblk0 V c 0 t : Vec Ideal S512x2048 .f32) (ix2 p kk) = difA V c (blockRow (mOf t) p) (blockRow (kOf t) kk) := by
  unfold iblk0
  rw [View.read_apply]
  show V c main_arg6 _ = V c main_arg6 _
  refine congrArg (V c main_arg6) (funext fun a => Fin.ext ?_)
  have h := idx0_0 t
  match a with
  | ⟨0, _⟩ => show win0_0.index t 0 * 512 + 1 * p.val = t.val / 20 * 512 + p.val; rw [h.1]; omega
  | ⟨1, _⟩ => show win0_0.index t 1 * 2048 + 1 * kk.val = t.val % 20 * 2048 + kk.val; rw [h.2]; omega

set_option maxHeartbeats 400000 in
/-- The source window is the whole array, -/
theorem blk1_apply (c : Dev nD) (t : Fin cfg0.N) (k : Fin 40960) (q : Fin 128) :
    (iblk0 V c 1 t : Vec Ideal S40960x128 .f32) (ix2 k q) = (V c main_v20 : S40960x128.Idx → EReal) (ix2 k q) := by
  unfold iblk0
  rw [View.read_apply]
  show V c main_v20 _ = V c main_v20 _
  refine congrArg (V c main_v20) (funext fun a => Fin.ext ?_)
  have h := idx0_1 t
  match a with
  | ⟨0, _⟩ => show win0_1.index t 0 * 40960 + 1 * k.val = k.val; rw [h.1]; omega
  | ⟨1, _⟩ => show win0_1.index t 1 * 128 + 1 * q.val = q.val; rw [h.2]; omega

set_option maxHeartbeats 400000 in
/-- and the slice a point loads from it, at (kk, q), is the source at (k·2048 + kk, q). -/
theorem slice_apply (c : Dev nD) (t : Fin cfg0.N) (kk : Fin 2048) (q : Fin 128) :
    View.ld (iblk0 V c 1 t : Vec Ideal S40960x128 .f32) (Rect.unit (s := S40960x128) (k0_off1 (grid0.coords t)) S2048x128.size (k0_off1_inb (grid0.coords t))) (ix2 kk q)
      = srcA V c (blockRow (kOf t) kk) q := by
  have h := off0 t
  refine (Cert.LibSliceRead.ld_unit_ix2 (iblk0 V c 1 t : Vec Ideal S40960x128 .f32) (k0_off1 (grid0.coords t)) (k0_off1_inb (grid0.coords t)) kk q
    (blockRow (kOf t) kk) q (by rw [h.1]; rfl) (by rw [h.2]; omega)).trans ?_
  exact blk1_apply V c t _ _

set_option maxHeartbeats 400000 in
/-- Block m of the destination features at (p, j) is the array at (m·512 + p, j). -/
theorem blk2_apply (c : Dev nD) (t : Fin cfg0.N) (p : Fin 512) (j : Fin 128) :
    (iblk0 V c 2 t : Vec Ideal S512x128 .f32) (ix2 p j) = dstA V c (blockRow (mOf t) p) j := by
  unfold iblk0
  rw [View.read_apply]
  show V c main_v13 _ = V c main_v13 _
  refine congrArg (V c main_v13) (funext fun a => Fin.ext ?_)
  have h := idx0_2 t
  match a with
  | ⟨0, _⟩ => show win0_2.index t 0 * 512 + 1 * p.val = t.val / 20 * 512 + p.val; rw [h.1]; omega
  | ⟨1, _⟩ => show win0_2.index t 1 * 128 + 1 * j.val = j.val; rw [h.2]; omega

set_option maxHeartbeats 400000 in
/-- The two weight windows are their whole arrays. -/
theorem blk3_apply (c : Dev nD) (t : Fin cfg0.N) (j e : Fin 128) :
    (iblk0 V c 3 t : Vec Ideal S128x128 .f32) (ix2 j e) = waA V c j e := by
  unfold iblk0
  rw [View.read_apply]
  show V c main_v21 _ = V c main_v21 _
  refine congrArg (V c main_v21) (funext fun a => Fin.ext ?_)
  have h := idx0_3 t
  match a with
  | ⟨0, _⟩ => show win0_3.index t 0 * 128 + 1 * j.val = j.val; rw [h.1]; omega
  | ⟨1, _⟩ => show win0_3.index t 1 * 128 + 1 * e.val = e.val; rw [h.2]; omega

set_option maxHeartbeats 400000 in
theorem blk4_apply (c : Dev nD) (t : Fin cfg0.N) (j e : Fin 128) :
    (iblk0 V c 4 t : Vec Ideal S128x128 .f32) (ix2 j e) = wbA V c j e := by
  unfold iblk0
  rw [View.read_apply]
  show V c main_v22 _ = V c main_v22 _
  refine congrArg (V c main_v22) (funext fun a => Fin.ext ?_)
  have h := idx0_4 t
  match a with
  | ⟨0, _⟩ => show win0_4.index t 0 * 128 + 1 * j.val = j.val; rw [h.1]; omega
  | ⟨1, _⟩ => show win0_4.index t 1 * 128 + 1 * e.val = e.val; rw [h.2]; omega

end Blocks

/-! ## The accumulator after each point, and the output block after the last point of a row block -/

section Accumulate

variable (V : (c : Dev nD) → (b : Ref sig .tc) → Buf (Elt Ideal) ((c : Thread nD τ).loc b))

set_option maxHeartbeats 400000 in
/-- One step at point (m, k): the accumulator's update at (p, q) adds column block k's contribution. -/
theorem step_apply (c : Dev nD) (t : Fin cfg0.N) (acc : Vec Ideal S512x128 .f32) (p : Fin 512) (q : Fin 128) :
    k0_pay2 (F := Ideal) (View.ld (iblk0 V c 1 t : Vec Ideal S40960x128 .f32) (Rect.unit (s := S40960x128) (k0_off1 (grid0.coords t)) S2048x128.size (k0_off1_inb (grid0.coords t)))) (iblk0 V c 0 t) acc (ix2 p q)
      = acc (ix2 p q) + blkTerm 8 20 (difA V c) (srcA V c) (mOf t) (t.val % 20) p q := by
  refine (pay2_apply _ _ _ p q).trans ?_
  refine congrArg (acc (ix2 p q) + ·) ?_
  unfold blkTerm
  rw [dif_pos (show t.val % 20 < 20 from (kOf t).isLt)]
  exact Finset.sum_congr rfl fun kk _ => congrArg₂ (· * ·) (blk0_apply V c t p kk) (slice_apply V c t kk q)

set_option maxHeartbeats 400000 in
/-- At the first column block the accumulator restarts: it holds that block's contribution. -/
theorem acc_first (c : Dev nD) (t : Fin cfg0.N) (h0 : t.val % 20 = 0) (p : Fin 512) (q : Fin 128) :
    (outsAt0 V c t.val t.isLt).2 (ix2 p q) = blkTerm 8 20 (difA V c) (srcA V c) (mOf t) (t.val % 20) p q := by
  have h1 : ¬t.val % 20 = 19 := by omega
  rw [outsAt0_A V c t h0 h1]
  dsimp only
  unfold sout0_A_0
  rw [sA]
  refine (step_apply V c t _ p q).trans ?_
  rw [pay1_apply, zero_add]

set_option maxHeartbeats 400000 in
/-- At a later column block it adds that block's contribution to what the point before left. -/
theorem acc_next (c : Dev nD) (t : Fin cfg0.N) (h0 : ¬t.val % 20 = 0) (p : Fin 512) (q : Fin 128) :
    (outsAt0 V c t.val t.isLt).2 (ix2 p q)
      = (outsAt0 V c (t.val - 1) (Nat.lt_of_le_of_lt (Nat.sub_le _ _) t.isLt)).2 (ix2 p q)
        + blkTerm 8 20 (difA V c) (srcA V c) (mOf t) (t.val % 20) p q := by
  by_cases h1 : t.val % 20 = 19
  · rw [outsAt0_C V c t h0 h1]
    dsimp only
    unfold sout0_C_0
    rw [sC]
    exact step_apply V c t _ p q
  · rw [outsAt0_B V c t h0 h1]
    dsimp only
    unfold sout0_B_0
    rw [sB]
    exact step_apply V c t _ p q

set_option maxHeartbeats 400000 in
/-- So after point (m, k) the accumulator holds the aggregate over column blocks 0 … k. -/
theorem acc_apply (c : Dev nD) (p : Fin 512) (q : Fin 128) : ∀ (n : ℕ) (hn : n < cfg0.N),
    (outsAt0 V c n hn).2 (ix2 p q) = partialAgg 8 20 (difA V c) (srcA V c) (mOf ⟨n, hn⟩) (n % 20) p q := by
  intro n
  induction n with
  | zero =>
    intro hn
    rw [acc_first V c ⟨0, hn⟩ rfl p q]
    exact (partialAgg_zero 8 20 _ _ _ p q).symm
  | succ n ih =>
    intro hn
    by_cases h0 : (n + 1) % 20 = 0
    · rw [acc_first V c ⟨n + 1, hn⟩ h0 p q]
      show blkTerm 8 20 _ _ _ ((n + 1) % 20) p q = _
      rw [h0]
      exact (partialAgg_zero 8 20 _ _ _ p q).symm
    · rw [acc_next V c ⟨n + 1, hn⟩ h0 p q]
      show (outsAt0 V c n _).2 (ix2 p q) + blkTerm 8 20 _ _ _ ((n + 1) % 20) p q = _
      rw [ih]
      have e1 : n / 20 = (n + 1) / 20 := by omega
      have e2 : (n + 1) % 20 = n % 20 + 1 := by omega
      have em : mOf ⟨n, Nat.lt_of_succ_lt hn⟩ = mOf ⟨n + 1, hn⟩ := Fin.ext e1
      rw [e2, partialAgg_succ, em]

end Accumulate

/-! ## The output block, the write-backs, and the array after the launch -/

section Output

variable (V : (c : Dev nD) → (b : Ref sig .tc) → Buf (Elt Ideal) ((c : Thread nD τ).loc b))

/-- The hop at row `r`, column `e`, after the activation: the maximum with zero. -/
abbrev hopR (c : Dev nD) (r : Fin (8 * 512)) (e : Fin 128) : EReal :=
  max (Cert.Spec.hopAt2 (difA V c) (srcA V c) (dstA V c) (waA V c) (wbA V c) r e) zeroLit

set_option maxHeartbeats 400000 in
/-- After the last column block of row block m the output block holds, at (p, q), the hop at (m·512 + p, q). -/
theorem out_last (c : Dev nD) (t : Fin cfg0.N) (h1 : t.val % 20 = 19) (p : Fin 512) (q : Fin 128) :
    (outsAt0 V c t.val t.isLt).1 (ix2 p q) = hopR V c (blockRow (mOf t) p) q := by
  have h0 : ¬t.val % 20 = 0 := by omega
  have hacc : (outsAt0 V c t.val t.isLt).1
      = k0_pay3 ((outsAt0 V c t.val t.isLt).2) (iblk0 V c 2 t) (iblk0 V c 3 t) (iblk0 V c 4 t) := by
    rw [outsAt0_C V c t h0 h1]
    dsimp only
    unfold out0_C_5 sout0_C_0
    rw [oC, sC]
  rw [hacc]
  refine (pay3_apply _ _ _ _ p q).trans ?_
  refine congrArg (max · zeroLit) ?_
  unfold Cert.Spec.hopAt2
  refine congrArg₂ (· + ·) (Finset.sum_congr rfl fun j _ => ?_) (Finset.sum_congr rfl fun j _ => ?_)
  · rw [acc_apply V c p j t.val t.isLt, h1, partialAgg_last 8 20 _ _ _ 19 rfl, blk3_apply]
  · rw [blk2_apply, blk4_apply]

/-- The array the launch leaves: the hop, after the activation, at every entry. -/
def G0 (c : Dev nD) : S4096x128.Idx → EReal := fun i => hopR V c (i 0) (i 1)

set_option maxHeartbeats 400000 in
/-- What a writing point writes back is its block of that array. -/
theorem flushed0_eq (c : Dev nD) (t : Fin cfg0.N) (hf : (cfg0.win 5).flush t = true) :
    (dat0 V c).flushed 5 t = ((cfg0.win 5).blk t).view.read (Elt Ideal) (G0 V c) := by
  have h1 : t.val % 20 = 19 := (flush0_5 t).mp hf
  show (cfg0.win 5).cut (grid0.coords t) ((dat0 V c).after 5 t) = _
  rw [after0_5]
  funext y
  obtain ⟨p, q, rfl⟩ : ∃ (p : Fin 512) (q : Fin 128), y = ix2 p q := ⟨y 0, y 1, eq_ix2 y⟩
  rw [View.read_apply]
  show (outsAt0 V c t.val t.isLt).1 (ix2 p q) = G0 V c _
  rw [out_last V c t h1 p q]
  unfold G0
  have h := idx0_5 t
  refine congrArg₂ (hopR V c) (Fin.ext ?_) (Fin.ext ?_)
  · show t.val / 20 * 512 + p.val = win0_5.index t 0 * 512 + 1 * p.val; rw [h.1]; omega
  · show q.val = win0_5.index t 1 * 128 + 1 * q.val; rw [h.2]; omega

end Output

section Final

variable (V : (c : Dev nD) → (b : Ref sig .tc) → Buf (Elt Ideal) ((c : Thread nD τ).loc b))

set_option maxHeartbeats 400000 in
/-- The eight writing points' blocks tile the array: row r lies in the block written at (r / 512, 19). -/
theorem arr0_eq (c : Dev nD) : (dat0 V c).arrAt 5 cfg0.N = G0 V c :=
  (dat0 V c).arrAt_eq_of_cover 5 (G0 V c) (flushed0_eq V c) fun i => by
    have hi0 : (i 0 : Nat) < 4096 := (i 0).isLt
    have hi1 : (i 1 : Nat) < 128 := (i 1).isLt
    have hN : cfg0.N = 160 := N_0
    have hb : (i 0 : Nat) / 512 * 20 + 19 < cfg0.N := by rw [hN]; omega
    refine ⟨⟨(i 0 : Nat) / 512 * 20 + 19, hb⟩, (flush0_5 _).mpr (by show ((i 0 : Nat) / 512 * 20 + 19) % 20 = 19; omega), ?_⟩
    show i ∈ ((View.whole main_v23).slice (win0_5.rect ⟨(i 0 : Nat) / 512 * 20 + 19, hb⟩)).set
    rw [View.set_slice_whole, Rect.mem_set_unit]
    intro a
    have h := idx0_5 ⟨(i 0 : Nat) / 512 * 20 + 19, hb⟩
    match a with
    | ⟨0, _⟩ =>
      show win0_5.index ⟨(i 0 : Nat) / 512 * 20 + 19, hb⟩ 0 * 512 ≤ (i 0 : Nat) ∧ (i 0 : Nat) < win0_5.index ⟨(i 0 : Nat) / 512 * 20 + 19, hb⟩ 0 * 512 + 512
      rw [h.1]; show ((i 0 : Nat) / 512 * 20 + 19) / 20 * 512 ≤ (i 0 : Nat) ∧ (i 0 : Nat) < ((i 0 : Nat) / 512 * 20 + 19) / 20 * 512 + 512; omega
    | ⟨1, _⟩ =>
      show win0_5.index ⟨(i 0 : Nat) / 512 * 20 + 19, hb⟩ 1 * 128 ≤ (i 1 : Nat) ∧ (i 1 : Nat) < win0_5.index ⟨(i 0 : Nat) / 512 * 20 + 19, hb⟩ 1 * 128 + 128
      rw [h.2]; omega

/-- THE VALUE OF THE FIRST LAUNCH: its output array at (r, e) is the maximum with zero of the hop at (r, e) over the
    arrays the launch finds. -/
theorem hop0_value (c : Dev nD) (r : Fin 4096) (e : Fin 128) :
    ((dat0 (F := Ideal) V c).arrAt 5 cfg0.N : S4096x128.Idx → EReal) (ix2 r e)
      = max (Cert.Spec.hopAt2 (fun r k => (V c main_arg6 : S4096x40960.Idx → EReal) (ix2 r k))
          (fun k j => (V c main_v20 : S40960x128.Idx → EReal) (ix2 k j))
          (fun r j => (V c main_v13 : S4096x128.Idx → EReal) (ix2 r j))
          (fun j e => (V c main_v21 : S128x128.Idx → EReal) (ix2 j e))
          (fun j e => (V c main_v22 : S128x128.Idx → EReal) (ix2 j e)) r e)
        (Ideal.ofBits .f32 0x00000000#32) := by
  rw [arr0_eq V c]
  rfl

end Final

end Cert.KernelIdeal.Hand

end
-- ==== Proof.Val.KPay1.lean ====
/-
  The three values the kernel of the second launch stores, read at an entry, on the extended reals.

  The same as the first launch's but for the last: the output block at (p, q) is
  (∑ j < 128, acc[p, j] · wa[j, q]) + ∑ j < 128, dst[p, j] · wb[j, q], with no activation.
-/
import proofs.«123040_j36550171689307_2_alg».proof.Proof.Gen.KernelIdeal.Skeleton
import proofs.«123040_j36550171689307_2_alg».proof.Proof.Val.Spec
import proofs.«123040_j36550171689307_2_alg».proof.Proof.LibPlainMatmul
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.SL.Sem Idealize.ShloMosaic.ValueIdx
open Cert.KernelIdeal Cert.KernelIdeal.Gen

/-- The reset value of the accumulator is zero at every entry. -/
theorem pay1_apply1 (p : Fin 512) (q : Fin 128) : k1_pay1 (F := Ideal) (ix2 p q) = 0 := by
  unfold k1_pay1
  rw [shapeCast_self]
  exact Ideal.ofBits_zero_f32

/-- The accumulator's update at (p, q): the old accumulator plus the block product. -/
theorem pay2_apply1 (v6 : Vec Ideal S2048x128 .f32) (v8 : Vec Ideal S512x2048 .f32) (v11 : Vec Ideal S512x128 .f32)
    (p : Fin 512) (q : Fin 128) :
    k1_pay2 (F := Ideal) v6 v8 v11 (ix2 p q) = v11 (ix2 p q) + ∑ kk : Fin 2048, v8 (ix2 p kk) * v6 (ix2 kk q) := by
  unfold k1_pay2
  rw [shapeCast_self, shapeCast_self]
  refine congrArg (v11 (ix2 p q) + ·) ?_
  exact matmul_plain_zero_apply _ rfl none _ _ p q

/-- The output block at (p, q): the two products' sum. -/
theorem pay3_apply1 (v20 v21 : Vec Ideal S512x128 .f32) (v23 v25 : Vec Ideal S128x128 .f32) (p : Fin 512) (q : Fin 128) :
    k1_pay3 (F := Ideal) v20 v21 v23 v25 (ix2 p q)
      = (∑ j : Fin 128, v20 (ix2 p j) * v23 (ix2 j q)) + ∑ j : Fin 128, v21 (ix2 p j) * v25 (ix2 j q) := by
  unfold k1_pay3
  rw [shapeCast_self, shapeCast_self, shapeCast_self]
  refine congrArg₂ (· + ·) ?_ ?_
  · exact matmul_plain_zero_apply _ rfl (some .fp32) _ _ p q
  · exact matmul_plain_zero_apply _ rfl (some .fp32) _ _ p q

end Cert.KernelIdeal.Hand

end
-- ==== Proof.Val.KHop1.lean ====
/-
  What the second launch leaves in its output array, entry by entry, on the extended reals.

  The same kernel at a grid of 2 row blocks by 4 column blocks: 1024 rows, 8192 columns of the diffusion matrix, and
  no activation at the end. After the last column block the output block is aggregate · wa + dst-block · wb; the 2
  points with k = 3 write their row blocks back and these tile the array, so the array ends, at (r, e), at the hop's
  value there. The sums over column blocks and their regrouping are the first launch's, at these extents.
-/
import proofs.«123040_j36550171689307_2_alg».proof.Proof.KI.Region1
import proofs.«123040_j36550171689307_2_alg».proof.Proof.Val.KPay1
import proofs.«123040_j36550171689307_2_alg».proof.Proof.Val.KHop0

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat Cfg Window)
open scoped BigOperators

section Cases

variable {F : FTy → Type} [FloatOps F]

/-! ## What each case leaves, as values: the payloads of its covering stores -/

set_option maxHeartbeats 400000 in
theorem scovA1 (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond1_0 i) (hc1 : ¬cond1_1 i) (x0 : Vec F S512x2048 .f32) (x1 : Vec F S8192x128 .f32) (x2 : Vec F S512x128 .f32) (x3 : Vec F S128x128 .f32) (x4 : Vec F S128x128 .f32) (y : S512x128.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S512x128.size (by sl_kernel_rfl) y

set_option maxHeartbeats 400000 in
theorem scovB1 (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : ¬cond1_1 i) (x0 : Vec F S512x2048 .f32) (x1 : Vec F S8192x128 .f32) (x2 : Vec F S512x128 .f32) (x3 : Vec F S128x128 .f32) (x4 : Vec F S128x128 .f32) (xs0 : Vec F S512x128 .f32) (y : S512x128.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S512x128.size (by sl_kernel_rfl) y

set_option maxHeartbeats 400000 in
theorem scovC1 (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : cond1_1 i) (x0 : Vec F S512x2048 .f32) (x1 : Vec F S8192x128 .f32) (x2 : Vec F S512x128 .f32) (x3 : Vec F S128x128 .f32) (x4 : Vec F S128x128 .f32) (xs0 : Vec F S512x128 .f32) (y : S512x128.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S512x128.size (by sl_kernel_rfl) y

set_option maxHeartbeats 400000 in
theorem covC1 (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : cond1_1 i) (x0 : Vec F S512x2048 .f32) (x1 : Vec F S8192x128 .f32) (x2 : Vec F S512x128 .f32) (x3 : Vec F S128x128 .f32) (x4 : Vec F S128x128 .f32) (xs0 : Vec F S512x128 .f32) (y : S512x128.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S512x128.size (by sl_kernel_rfl) y

set_option maxHeartbeats 400000 in
/-- A middle step leaves in the accumulator the old accumulator plus the step's block product. -/
theorem sB1 (v : View sig .tc .vmem S512x128 .f32) (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : ¬cond1_1 i) (x0 : Vec F S512x2048 .f32) (x1 : Vec F S8192x128 .f32) (x2 : Vec F S512x128 .f32) (x3 : Vec F S128x128 .f32) (x4 : Vec F S128x128 .f32) (xs0 : Vec F S512x128 .f32) :
    v.read (Elt F) (v.writes (Elt F) v.junk (kernelRun1_B c i arg2 harg2 arg3 harg3 arg4 harg4 arg5 harg5 arg6 harg6 arg7 harg7 arg8 harg8 hc0 hc1 x0 x1 x2 x3 x4 xs0).2.1)
      = k1_pay2 (View.ld x1 (Rect.unit (s := S8192x128) (k1_off1 i) S2048x128.size (k1_off1_inb i))) x0 xs0 := by
  rw [View.read_writes_eq_canon _ _ _ (scovB1 c i arg2 harg2 arg3 harg3 arg4 harg4 arg5 harg5 arg6 harg6 arg7 harg7 arg8 harg8 hc0 hc1 x0 x1 x2 x3 x4 xs0)]
  unfold kernelRun1_B
  dsimp only
  rw [View.canon_unit_zero hz2]
  simp only [View.readAt_eq_ld, harg2.read_unread, harg3.read_unread, harg8.read_unread, View.ld_unit_zero (S := S512x2048) hz2, View.ld_unit_zero (S := S512x128) hz2]

set_option maxHeartbeats 400000 in
/-- The first step leaves in the accumulator zero plus the step's block product. -/
theorem sA1 (v : View sig .tc .vmem S512x128 .f32) (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : cond1_0 i) (hc1 : ¬cond1_1 i) (x0 : Vec F S512x2048 .f32) (x1 : Vec F S8192x128 .f32) (x2 : Vec F S512x128 .f32) (x3 : Vec F S128x128 .f32) (x4 : Vec F S128x128 .f32) :
    v.read (Elt F) (v.writes (Elt F) v.junk (kernelRun1_A c i arg2 harg2 arg3 harg3 arg4 harg4 arg5 harg5 arg6 harg6 arg7 harg7 arg8 harg8 hc0 hc1 x0 x1 x2 x3 x4).2.1)
      = k1_pay2 (View.ld x1 (Rect.unit (s := S8192x128) (k1_off1 i) S2048x128.size (k1_off1_inb i))) x0 (k1_pay1 (F := F)) := by
  rw [View.read_writes_eq_canon _ _ _ (scovA1 c i arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero (S := S512x128) hz2, View.readCov_unit_zero (S := S512x128) _ hz2]
  simp only [View.readAt_eq_ld, harg2.read_unread, harg3.read_unread, View.ld_unit_zero (S := S512x2048) hz2]
  try rfl

set_option maxHeartbeats 400000 in
/-- The last step leaves in the accumulator what a middle step does, -/
theorem sC1 (v : View sig .tc .vmem S512x128 .f32) (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : cond1_1 i) (x0 : Vec F S512x2048 .f32) (x1 : Vec F S8192x128 .f32) (x2 : Vec F S512x128 .f32) (x3 : Vec F S128x128 .f32) (x4 : Vec F S128x128 .f32) (xs0 : Vec F S512x128 .f32) :
    v.read (Elt F) (v.writes (Elt F) v.junk (kernelRun1_C c i arg2 harg2 arg3 harg3 arg4 harg4 arg5 harg5 arg6 harg6 arg7 harg7 arg8 harg8 hc0 hc1 x0 x1 x2 x3 x4 xs0).2.1)
      = k1_pay2 (View.ld x1 (Rect.unit (s := S8192x128) (k1_off1 i) S2048x128.size (k1_off1_inb i))) x0 xs0 := by
  rw [View.read_writes_eq_canon _ _ _ (scovC1 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero (S := S512x128) hz2]
  simp only [View.readAt_eq_ld, harg2.read_unread, harg3.read_unread, harg8.read_unread, View.ld_unit_zero (S := S512x2048) hz2, View.ld_unit_zero (S := S512x128) hz2]
  try rfl

set_option maxHeartbeats 400000 in
/-- and in the output block the finishing product of that accumulator, the destination block and the two weights. -/
theorem oC1 (v : View sig .tc .vmem S512x128 .f32) (c : Dev nD) (i : grid1.Coords) (arg2 : Memref sig .tc .vmem S512x2048 .f32) (harg2 : arg2.IsWhole) (arg3 : Memref sig .tc .vmem S8192x128 .f32) (harg3 : arg3.IsWhole) (arg4 : Memref sig .tc .vmem S512x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S512x128 .f32) (harg7 : arg7.IsWhole) (arg8 : Memref sig .tc .vmem S512x128 .f32) (harg8 : arg8.IsWhole) (hc0 : ¬cond1_0 i) (hc1 : cond1_1 i) (x0 : Vec F S512x2048 .f32) (x1 : Vec F S8192x128 .f32) (x2 : Vec F S512x128 .f32) (x3 : Vec F S128x128 .f32) (x4 : Vec F S128x128 .f32) (xs0 : Vec F S512x128 .f32) :
    v.read (Elt F) (v.writes (Elt F) v.junk (kernelRun1_C c i arg2 harg2 arg3 harg3 arg4 harg4 arg5 harg5 arg6 harg6 arg7 harg7 arg8 harg8 hc0 hc1 x0 x1 x2 x3 x4 xs0).1)
      = k1_pay3 (k1_pay2 (View.ld x1 (Rect.unit (s := S8192x128) (k1_off1 i) S2048x128.size (k1_off1_inb i))) x0 xs0) x2 x3 x4 := by
  rw [View.read_writes_eq_canon _ _ _ (covC1 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero (S := S512x128) hz2, View.readCov_unit_zero (S := S512x128) _ hz2]
  simp only [View.readAt_eq_ld, harg2.read_unread, harg3.read_unread, harg4.read_unread, harg5.read_unread, harg6.read_unread, harg8.read_unread, View.ld_unit_zero (S := S512x2048) hz2, View.ld_unit_zero (S := S512x128) hz2, View.ld_unit_zero (S := S128x128) hz2]
  try rfl

end Cases

/-! ## The windows' blocks, read at an entry of the arrays as the launch finds them -/

section Blocks

variable (V : (c : Dev nD) → (b : Ref sig .tc) → Buf (Elt Ideal) ((c : Thread nD τ).loc b))

/-- The diffusion matrix, the source features, the destination features and the two weight matrices at launch. -/
abbrev difA1 (c : Dev nD) : Fin (2 * 512) → Fin (4 * 2048) → EReal := fun r k => (V c main_arg5 : S1024x8192.Idx → EReal) (ix2 r k)
abbrev srcA1 (c : Dev nD) : Fin (4 * 2048) → Fin 128 → EReal := fun k j => (V c main_v37 : S8192x128.Idx → EReal) (ix2 k j)
abbrev dstA1 (c : Dev nD) : Fin (2 * 512) → Fin 128 → EReal := fun r j => (V c main_v30 : S1024x128.Idx → EReal) (ix2 r j)
abbrev waA1 (c : Dev nD) : Fin 128 → Fin 128 → EReal := fun j e => (V c main_v38 : S128x128.Idx → EReal) (ix2 j e)
abbrev wbA1 (c : Dev nD) : Fin 128 → Fin 128 → EReal := fun j e => (V c main_v39 : S128x128.Idx → EReal) (ix2 j e)

/-- The block indices of the six windows at a point: row block t / 4, column block t % 4. -/
theorem idx1_0 : ∀ t : Fin cfg1.N, (cfg1.win 0).index t 0 = t.val / 4 ∧ (cfg1.win 0).index t 1 = t.val % 4 :=
  (by decide +kernel : ∀ t : Fin grid1.N, win1_0.index t 0 = t.val / 4 ∧ win1_0.index t 1 = t.val % 4)
theorem idx1_1 : ∀ t : Fin cfg1.N, (cfg1.win 1).index t 0 = 0 ∧ (cfg1.win 1).index t 1 = 0 :=
  (by decide +kernel : ∀ t : Fin grid1.N, win1_1.index t 0 = 0 ∧ win1_1.index t 1 = 0)
theorem idx1_2 : ∀ t : Fin cfg1.N, (cfg1.win 2).index t 0 = t.val / 4 ∧ (cfg1.win 2).index t 1 = 0 :=
  (by decide +kernel : ∀ t : Fin grid1.N, win1_2.index t 0 = t.val / 4 ∧ win1_2.index t 1 = 0)
theorem idx1_3 : ∀ t : Fin cfg1.N, (cfg1.win 3).index t 0 = 0 ∧ (cfg1.win 3).index t 1 = 0 :=
  (by decide +kernel : ∀ t : Fin grid1.N, win1_3.index t 0 = 0 ∧ win1_3.index t 1 = 0)
theorem idx1_4 : ∀ t : Fin cfg1.N, (cfg1.win 4).index t 0 = 0 ∧ (cfg1.win 4).index t 1 = 0 :=
  (by decide +kernel : ∀ t : Fin grid1.N, win1_4.index t 0 = 0 ∧ win1_4.index t 1 = 0)
theorem idx1_5 : ∀ t : Fin cfg1.N, (cfg1.win 5).index t 0 = t.val / 4 ∧ (cfg1.win 5).index t 1 = 0 :=
  (by decide +kernel : ∀ t : Fin grid1.N, win1_5.index t 0 = t.val / 4 ∧ win1_5.index t 1 = 0)
/-- The first row of the source slice a point loads: column block t % 4 times 2048. -/
theorem off1 : ∀ t : Fin cfg1.N, k1_off1 (grid1.coords t) 0 = t.val % 4 * 2048 ∧ k1_off1 (grid1.coords t) 1 = 0 :=
  (by decide +kernel : ∀ t : Fin grid1.N, k1_off1 (grid1.coords t) 0 = t.val % 4 * 2048 ∧ k1_off1 (grid1.coords t) 1 = 0)

/-- The row block and the column block of a point of the second launch. -/
def mOf1 (t : Fin cfg1.N) : Fin 2 := ⟨t.val / 4, by have := lt_of_lt_of_eq t.isLt (show cfg1.N = 8 from N_1); omega⟩
def kOf1 (t : Fin cfg1.N) : Fin 4 := ⟨t.val % 4, Nat.mod_lt _ (by decide)⟩

set_option maxHeartbeats 400000 in
/-- Block (m, k) of the diffusion matrix at (p, kk) is the matrix at (m·512 + p, k·2048 + kk). -/
theorem blk0_apply1 (c : Dev nD) (t : Fin cfg1.N) (p : Fin 512) (kk : Fin 2048) :
    (iblk1 V c 0 t : Vec Ideal S512x2048 .f32) (ix2 p kk) = difA1 V c (blockRow (mOf1 t) p) (blockRow (kOf1 t) kk) := by
  unfold iblk1
  rw [View.read_apply]
  show V c main_arg5 _ = V c main_arg5 _
  refine congrArg (V c main_arg5) (funext fun a => Fin.ext ?_)
  have h := idx1_0 t
  match a with
  | ⟨0, _⟩ => show win1_0.index t 0 * 512 + 1 * p.val = t.val / 4 * 512 + p.val; rw [h.1]; omega
  | ⟨1, _⟩ => show win1_0.index t 1 * 2048 + 1 * kk.val = t.val % 4 * 2048 + kk.val; rw [h.2]; omega

set_option maxHeartbeats 400000 in
/-- The source window is the whole array, -/
theorem blk1_apply1 (c : Dev nD) (t : Fin cfg1.N) (k : Fin 8192) (q : Fin 128) :
    (iblk1 V c 1 t : Vec Ideal S8192x128 .f32) (ix2 k q) = (V c main_v37 : S8192x128.Idx → EReal) (ix2 k q) := by
  unfold iblk1
  rw [View.read_apply]
  show V c main_v37 _ = V c main_v37 _
  refine congrArg (V c main_v37) (funext fun a => Fin.ext ?_)
  have h := idx1_1 t
  match a with
  | ⟨0, _⟩ => show win1_1.index t 0 * 8192 + 1 * k.val = k.val; rw [h.1]; omega
  | ⟨1, _⟩ => show win1_1.index t 1 * 128 + 1 * q.val = q.val; rw [h.2]; omega

set_option maxHeartbeats 400000 in
/-- and the slice a point loads from it, at (kk, q), is the source at (k·2048 + kk, q). -/
theorem slice_apply1 (c : Dev nD) (t : Fin cfg1.N) (kk : Fin 2048) (q : Fin 128) :
    View.ld (iblk1 V c 1 t : Vec Ideal S8192x128 .f32) (Rect.unit (s := S8192x128) (k1_off1 (grid1.coords t)) S2048x128.size (k1_off1_inb (grid1.coords t))) (ix2 kk q)
      = srcA1 V c (blockRow (kOf1 t) kk) q := by
  have h := off1 t
  refine (Cert.LibSliceRead.ld_unit_ix2 (iblk1 V c 1 t : Vec Ideal S8192x128 .f32) (k1_off1 (grid1.coords t)) (k1_off1_inb (grid1.coords t)) kk q
    (blockRow (kOf1 t) kk) q (by rw [h.1]; rfl) (by rw [h.2]; omega)).trans ?_
  exact blk1_apply1 V c t _ _

set_option maxHeartbeats 400000 in
/-- Block m of the destination features at (p, j) is the array at (m·512 + p, j). -/
theorem blk2_apply1 (c : Dev nD) (t : Fin cfg1.N) (p : Fin 512) (j : Fin 128) :
    (iblk1 V c 2 t : Vec Ideal S512x128 .f32) (ix2 p j) = dstA1 V c (blockRow (mOf1 t) p) j := by
  unfold iblk1
  rw [View.read_apply]
  show V c main_v30 _ = V c main_v30 _
  refine congrArg (V c main_v30) (funext fun a => Fin.ext ?_)
  have h := idx1_2 t
  match a with
  | ⟨0, _⟩ => show win1_2.index t 0 * 512 + 1 * p.val = t.val / 4 * 512 + p.val; rw [h.1]; omega
  | ⟨1, _⟩ => show win1_2.index t 1 * 128 + 1 * j.val = j.val; rw [h.2]; omega

set_option maxHeartbeats 400000 in
/-- The two weight windows are their whole arrays. -/
theorem blk3_apply1 (c : Dev nD) (t : Fin cfg1.N) (j e : Fin 128) :
    (iblk1 V c 3 t : Vec Ideal S128x128 .f32) (ix2 j e) = waA1 V c j e := by
  unfold iblk1
  rw [View.read_apply]
  show V c main_v38 _ = V c main_v38 _
  refine congrArg (V c main_v38) (funext fun a => Fin.ext ?_)
  have h := idx1_3 t
  match a with
  | ⟨0, _⟩ => show win1_3.index t 0 * 128 + 1 * j.val = j.val; rw [h.1]; omega
  | ⟨1, _⟩ => show win1_3.index t 1 * 128 + 1 * e.val = e.val; rw [h.2]; omega

set_option maxHeartbeats 400000 in
theorem blk4_apply1 (c : Dev nD) (t : Fin cfg1.N) (j e : Fin 128) :
    (iblk1 V c 4 t : Vec Ideal S128x128 .f32) (ix2 j e) = wbA1 V c j e := by
  unfold iblk1
  rw [View.read_apply]
  show V c main_v39 _ = V c main_v39 _
  refine congrArg (V c main_v39) (funext fun a => Fin.ext ?_)
  have h := idx1_4 t
  match a with
  | ⟨0, _⟩ => show win1_4.index t 0 * 128 + 1 * j.val = j.val; rw [h.1]; omega
  | ⟨1, _⟩ => show win1_4.index t 1 * 128 + 1 * e.val = e.val; rw [h.2]; omega

end Blocks

/-! ## The accumulator after each point, and the output block after the last point of a row block -/

section Accumulate

variable (V : (c : Dev nD) → (b : Ref sig .tc) → Buf (Elt Ideal) ((c : Thread nD τ).loc b))

set_option maxHeartbeats 400000 in
/-- One step at point (m, k): the accumulator's update at (p, q) adds column block k's contribution. -/
theorem step_apply1 (c : Dev nD) (t : Fin cfg1.N) (acc : Vec Ideal S512x128 .f32) (p : Fin 512) (q : Fin 128) :
    k1_pay2 (F := Ideal) (View.ld (iblk1 V c 1 t : Vec Ideal S8192x128 .f32) (Rect.unit (s := S8192x128) (k1_off1 (grid1.coords t)) S2048x128.size (k1_off1_inb (grid1.coords t)))) (iblk1 V c 0 t) acc (ix2 p q)
      = acc (ix2 p q) + blkTerm 2 4 (difA1 V c) (srcA1 V c) (mOf1 t) (t.val % 4) p q := by
  refine (pay2_apply1 _ _ _ p q).trans ?_
  refine congrArg (acc (ix2 p q) + ·) ?_
  unfold blkTerm
  rw [dif_pos (show t.val % 4 < 4 from (kOf1 t).isLt)]
  exact Finset.sum_congr rfl fun kk _ => congrArg₂ (· * ·) (blk0_apply1 V c t p kk) (slice_apply1 V c t kk q)

set_option maxHeartbeats 400000 in
/-- At the first column block the accumulator restarts: it holds that block's contribution. -/
theorem acc_first1 (c : Dev nD) (t : Fin cfg1.N) (h0 : t.val % 4 = 0) (p : Fin 512) (q : Fin 128) :
    (outsAt1 V c t.val t.isLt).2 (ix2 p q) = blkTerm 2 4 (difA1 V c) (srcA1 V c) (mOf1 t) (t.val % 4) p q := by
  have h1 : ¬t.val % 4 = 3 := by omega
  rw [outsAt1_A V c t h0 h1]
  dsimp only
  unfold sout1_A_0
  rw [sA1]
  refine (step_apply1 V c t _ p q).trans ?_
  rw [pay1_apply1, zero_add]

set_option maxHeartbeats 400000 in
/-- At a later column block it adds that block's contribution to what the point before left. -/
theorem acc_next1 (c : Dev nD) (t : Fin cfg1.N) (h0 : ¬t.val % 4 = 0) (p : Fin 512) (q : Fin 128) :
    (outsAt1 V c t.val t.isLt).2 (ix2 p q)
      = (outsAt1 V c (t.val - 1) (Nat.lt_of_le_of_lt (Nat.sub_le _ _) t.isLt)).2 (ix2 p q)
        + blkTerm 2 4 (difA1 V c) (srcA1 V c) (mOf1 t) (t.val % 4) p q := by
  by_cases h1 : t.val % 4 = 3
  · rw [outsAt1_C V c t h0 h1]
    dsimp only
    unfold sout1_C_0
    rw [sC1]
    exact step_apply1 V c t _ p q
  · rw [outsAt1_B V c t h0 h1]
    dsimp only
    unfold sout1_B_0
    rw [sB1]
    exact step_apply1 V c t _ p q

set_option maxHeartbeats 400000 in
/-- So after point (m, k) the accumulator holds the aggregate over column blocks 0 … k. -/
theorem acc_apply1 (c : Dev nD) (p : Fin 512) (q : Fin 128) : ∀ (n : ℕ) (hn : n < cfg1.N),
    (outsAt1 V c n hn).2 (ix2 p q) = partialAgg 2 4 (difA1 V c) (srcA1 V c) (mOf1 ⟨n, hn⟩) (n % 4) p q := by
  intro n
  induction n with
  | zero =>
    intro hn
    rw [acc_first1 V c ⟨0, hn⟩ rfl p q]
    exact (partialAgg_zero 2 4 _ _ _ p q).symm
  | succ n ih =>
    intro hn
    by_cases h0 : (n + 1) % 4 = 0
    · rw [acc_first1 V c ⟨n + 1, hn⟩ h0 p q]
      show blkTerm 2 4 _ _ _ ((n + 1) % 4) p q = _
      rw [h0]
      exact (partialAgg_zero 2 4 _ _ _ p q).symm
    · rw [acc_next1 V c ⟨n + 1, hn⟩ h0 p q]
      show (outsAt1 V c n _).2 (ix2 p q) + blkTerm 2 4 _ _ _ ((n + 1) % 4) p q = _
      rw [ih]
      have e1 : n / 4 = (n + 1) / 4 := by omega
      have e2 : (n + 1) % 4 = n % 4 + 1 := by omega
      have em : mOf1 ⟨n, Nat.lt_of_succ_lt hn⟩ = mOf1 ⟨n + 1, hn⟩ := Fin.ext e1
      rw [e2, partialAgg_succ, em]

end Accumulate

/-! ## The output block, the write-backs, and the array after the launch -/

section Output

variable (V : (c : Dev nD) → (b : Ref sig .tc) → Buf (Elt Ideal) ((c : Thread nD τ).loc b))

/-- The hop at row `r`, column `e`. -/
abbrev hopR1 (c : Dev nD) (r : Fin (2 * 512)) (e : Fin 128) : EReal :=
  Cert.Spec.hopAt2 (difA1 V c) (srcA1 V c) (dstA1 V c) (waA1 V c) (wbA1 V c) r e

set_option maxHeartbeats 400000 in
/-- After the last column block of row block m the output block holds, at (p, q), the hop at (m·512 + p, q). -/
theorem out_last1 (c : Dev nD) (t : Fin cfg1.N) (h1 : t.val % 4 = 3) (p : Fin 512) (q : Fin 128) :
    (outsAt1 V c t.val t.isLt).1 (ix2 p q) = hopR1 V c (blockRow (mOf1 t) p) q := by
  have h0 : ¬t.val % 4 = 0 := by omega
  have hacc : (outsAt1 V c t.val t.isLt).1
      = k1_pay3 ((outsAt1 V c t.val t.isLt).2) (iblk1 V c 2 t) (iblk1 V c 3 t) (iblk1 V c 4 t) := by
    rw [outsAt1_C V c t h0 h1]
    dsimp only
    unfold out1_C_5 sout1_C_0
    rw [oC1, sC1]
  rw [hacc]
  refine (pay3_apply1 _ _ _ _ p q).trans ?_
  show _ = Cert.Spec.hopAt2 (difA1 V c) (srcA1 V c) (dstA1 V c) (waA1 V c) (wbA1 V c) (blockRow (mOf1 t) p) q
  unfold Cert.Spec.hopAt2
  refine congrArg₂ (· + ·) (Finset.sum_congr rfl fun j _ => ?_) (Finset.sum_congr rfl fun j _ => ?_)
  · rw [acc_apply1 V c p j t.val t.isLt, h1, partialAgg_last 2 4 _ _ _ 3 rfl, blk3_apply1]
  · rw [blk2_apply1, blk4_apply1]

/-- The array the launch leaves: the hop at every entry. -/
def G1 (c : Dev nD) : S1024x128.Idx → EReal := fun i => hopR1 V c (i 0) (i 1)

set_option maxHeartbeats 400000 in
/-- What a writing point writes back is its block of that array. -/
theorem flushed1_eq (c : Dev nD) (t : Fin cfg1.N) (hf : (cfg1.win 5).flush t = true) :
    (dat1 V c).flushed 5 t = ((cfg1.win 5).blk t).view.read (Elt Ideal) (G1 V c) := by
  have h1 : t.val % 4 = 3 := (flush1_5 t).mp hf
  show (cfg1.win 5).cut (grid1.coords t) ((dat1 V c).after 5 t) = _
  rw [after1_5]
  funext y
  obtain ⟨p, q, rfl⟩ : ∃ (p : Fin 512) (q : Fin 128), y = ix2 p q := ⟨y 0, y 1, eq_ix2 y⟩
  rw [View.read_apply]
  show (outsAt1 V c t.val t.isLt).1 (ix2 p q) = G1 V c _
  rw [out_last1 V c t h1 p q]
  unfold G1
  have h := idx1_5 t
  refine congrArg₂ (hopR1 V c) (Fin.ext ?_) (Fin.ext ?_)
  · show t.val / 4 * 512 + p.val = win1_5.index t 0 * 512 + 1 * p.val; rw [h.1]; omega
  · show q.val = win1_5.index t 1 * 128 + 1 * q.val; rw [h.2]; omega

end Output

section Final

variable (V : (c : Dev nD) → (b : Ref sig .tc) → Buf (Elt Ideal) ((c : Thread nD τ).loc b))

set_option maxHeartbeats 400000 in
/-- The two writing points' blocks tile the array: row r lies in the block written at (r / 512, 3). -/
theorem arr1_eq (c : Dev nD) : (dat1 V c).arrAt 5 cfg1.N = G1 V c :=
  (dat1 V c).arrAt_eq_of_cover 5 (G1 V c) (flushed1_eq V c) fun i => by
    have hi0 : (i 0 : Nat) < 1024 := (i 0).isLt
    have hi1 : (i 1 : Nat) < 128 := (i 1).isLt
    have hN : cfg1.N = 8 := N_1
    have hb : (i 0 : Nat) / 512 * 4 + 3 < cfg1.N := by rw [hN]; omega
    refine ⟨⟨(i 0 : Nat) / 512 * 4 + 3, hb⟩, (flush1_5 _).mpr (by show ((i 0 : Nat) / 512 * 4 + 3) % 4 = 3; omega), ?_⟩
    show i ∈ ((View.whole main_v40).slice (win1_5.rect ⟨(i 0 : Nat) / 512 * 4 + 3, hb⟩)).set
    rw [View.set_slice_whole, Rect.mem_set_unit]
    intro a
    have h := idx1_5 ⟨(i 0 : Nat) / 512 * 4 + 3, hb⟩
    match a with
    | ⟨0, _⟩ =>
      show win1_5.index ⟨(i 0 : Nat) / 512 * 4 + 3, hb⟩ 0 * 512 ≤ (i 0 : Nat) ∧ (i 0 : Nat) < win1_5.index ⟨(i 0 : Nat) / 512 * 4 + 3, hb⟩ 0 * 512 + 512
      rw [h.1]; show ((i 0 : Nat) / 512 * 4 + 3) / 4 * 512 ≤ (i 0 : Nat) ∧ (i 0 : Nat) < ((i 0 : Nat) / 512 * 4 + 3) / 4 * 512 + 512; omega
    | ⟨1, _⟩ =>
      show win1_5.index ⟨(i 0 : Nat) / 512 * 4 + 3, hb⟩ 1 * 128 ≤ (i 1 : Nat) ∧ (i 1 : Nat) < win1_5.index ⟨(i 0 : Nat) / 512 * 4 + 3, hb⟩ 1 * 128 + 128
      rw [h.2]; omega

/-- THE VALUE OF THE SECOND LAUNCH: its output array at (r, e) is the hop at (r, e) over the arrays the launch finds,
    with no activation. -/
theorem hop1_value (c : Dev nD) (r : Fin 1024) (e : Fin 128) :
    ((dat1 (F := Ideal) V c).arrAt 5 cfg1.N : S1024x128.Idx → EReal) (ix2 r e)
      = Cert.Spec.hopAt2 (fun r k => (V c main_arg5 : S1024x8192.Idx → EReal) (ix2 r k))
          (fun k j => (V c main_v37 : S8192x128.Idx → EReal) (ix2 k j))
          (fun r j => (V c main_v30 : S1024x128.Idx → EReal) (ix2 r j))
          (fun j e => (V c main_v38 : S128x128.Idx → EReal) (ix2 j e))
          (fun j e => (V c main_v39 : S128x128.Idx → EReal) (ix2 j e)) r e := by
  rw [arr1_eq V c]
  rfl

end Final

end Cert.KernelIdeal.Hand

end
-- ==== Proof.Val.Bridge.lean ====
import proofs.«123040_j36550171689307_2_alg».proof.Proof.Val.KChain
import proofs.«123040_j36550171689307_2_alg».proof.Proof.Val.Tail
import proofs.«123040_j36550171689307_2_alg».proof.Proof.Val.Spec
import proofs.«123040_j36550171689307_2_alg».proof.Proof.Val.RefHop
import proofs.«123040_j36550171689307_2_alg».proof.Proof.RefReadP
import proofs.«123040_j36550171689307_2_alg».proof.Proof.KI.Frame
import proofs.«123040_j36550171689307_2_alg».proof.Proof.Val.KHop0
import proofs.«123040_j36550171689307_2_alg».proof.Proof.Val.KHop1
import proofs.«123040_j36550171689307_2_alg».proof.Proof.RefRunP
import proofs.«123040_j36550171689307_2_alg».proof.Proof.Gen.Pre_finite_inputs
import proofs.«123040_j36550171689307_2_alg».proof.Defs
import Idealize.ShloMosaic.Lib.ValueLayout
import Idealize.ShloMosaic.Lib.ValueIdx

set_option maxRecDepth 8192

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

/-! ## The two halves of a stacked weight at an entry -/

/-- Row `j` of the upper half is row `j` of the stacked matrix. -/
theorem kWa_apply (w : (⟨S256x128, .f32⟩ : BufTy).Contents (Elt Ideal)) (j e : Fin 128) :
    kWa w (ix2 j e) = w (ix2 (Cert.Spec.lo j) e) :=
  slice2_axis0_apply 0 w slices_S256x128_S128x128_0_0 j e (Cert.Spec.lo j) (Nat.zero_add _).symm

/-- Row `j` of the lower half is row `128 + j` of the stacked matrix. -/
theorem kWb_apply (w : (⟨S256x128, .f32⟩ : BufTy).Contents (Elt Ideal)) (j e : Fin 128) :
    kWb w (ix2 j e) = w (ix2 (Cert.Spec.hi j) e) :=
  slice2_axis0_apply 128 w slices_S256x128_S128x128_128_0 j e (Cert.Spec.hi j) rfl

/-! ## The two programs gather the same operands -/

section Operands
variable {F : FTy → Type} [FloatOps F]

theorem kSrc2_eq (a0 a2 : (⟨S40960, .i32⟩ : BufTy).Contents (Elt F)) (a7 : (⟨S100000x128, .f32⟩ : BufTy).Contents (Elt F)) :
    kSrc2 a0 a2 a7 = Cert.ReferenceIdeal.ReadP.val_main_v20 (F := F) a0 a2 a7 := rfl

theorem kDst2_eq (a0 : (⟨S40960, .i32⟩ : BufTy).Contents (Elt F)) (a4 : (⟨S4096, .i32⟩ : BufTy).Contents (Elt F)) (a7 : (⟨S100000x128, .f32⟩ : BufTy).Contents (Elt F)) :
    kDst2 a0 a4 a7 = Cert.ReferenceIdeal.ReadP.val_main_v13 (F := F) a0 a4 a7 := rfl

theorem kSrc1_eq (h2 : (⟨S4096x128, .f32⟩ : BufTy).Contents (Elt F)) (a1 : (⟨S8192, .i32⟩ : BufTy).Contents (Elt F)) :
    kSrc1 h2 a1 = Host.gather Cert.ReferenceIdeal.gather_S4096x128_S8192x1_S8192x128_1_0_n_n_0_1_1128 h2 (Cert.ReferenceIdeal.ReadP.val_main_v37 (F := F) a1) := rfl

theorem kDst1_eq (h2 : (⟨S4096x128, .f32⟩ : BufTy).Contents (Elt F)) (a3 : (⟨S1024, .i32⟩ : BufTy).Contents (Elt F)) :
    kDst1 h2 a3 = Host.gather Cert.ReferenceIdeal.gather_S4096x128_S1024x1_S1024x128_1_0_n_n_0_1_1128 h2 (Cert.ReferenceIdeal.ReadP.val_main_v30 (F := F) a3) := rfl

set_option maxHeartbeats 4000000 in
/-- The reference's result is the closing function of its inner hop's result. -/
theorem ref_tail (a0 : (⟨S40960, .i32⟩ : BufTy).Contents (Elt F)) (a1 : (⟨S8192, .i32⟩ : BufTy).Contents (Elt F)) (a2 : (⟨S40960, .i32⟩ : BufTy).Contents (Elt F)) (a3 : (⟨S1024, .i32⟩ : BufTy).Contents (Elt F)) (a4 : (⟨S4096, .i32⟩ : BufTy).Contents (Elt F)) (a5 : (⟨S1024x8192, .f32⟩ : BufTy).Contents (Elt F)) (a6 : (⟨S4096x40960, .f32⟩ : BufTy).Contents (Elt F)) (a7 : (⟨S100000x128, .f32⟩ : BufTy).Contents (Elt F)) (a8 : (⟨S256x128, .f32⟩ : BufTy).Contents (Elt F)) (a9 : (⟨S256x128, .f32⟩ : BufTy).Contents (Elt F)) (a10 : (⟨S128x64, .f32⟩ : BufTy).Contents (Elt F)) (a11 : (⟨S64, .f32⟩ : BufTy).Contents (Elt F)) (a12 : (⟨S64x32, .f32⟩ : BufTy).Contents (Elt F)) (a13 : (⟨S32, .f32⟩ : BufTy).Contents (Elt F)) (a14 : (⟨S32x16, .f32⟩ : BufTy).Contents (Elt F)) (a15 : (⟨S16, .f32⟩ : BufTy).Contents (Elt F)) (a16 : (⟨S16x8, .f32⟩ : BufTy).Contents (Elt F)) (a17 : (⟨S8, .f32⟩ : BufTy).Contents (Elt F)) (a18 : (⟨S8x1, .f32⟩ : BufTy).Contents (Elt F)) (a19 : (⟨S1, .f32⟩ : BufTy).Contents (Elt F)) :
    Cert.ReferenceIdeal.ReadP.val_main_v82 (F := F) a0 a1 a2 a3 a4 a5 a6 a7 a8 a9 a10 a11 a12 a13 a14 a15 a16 a17 a18 a19
      = tail (Cert.ReferenceIdeal.ReadP.val_main_v41 (F := F) a0 a1 a2 a3 a4 a5 a6 a7 a8 a9) a10 a11 a12 a13 a14 a15 a16 a17 a18 a19 := rfl

end Operands

/-! ## One hop: two halves of the weight against the stacked weight -/

/-- An array that is, entry by entry, the rectified hop over the two halves of `w` is the reference's
    rectified product of [dif · src | dst] with `w`. -/
theorem hop2_bridge (dif : (⟨S4096x40960, .f32⟩ : BufTy).Contents (Elt Ideal)) (src : (⟨S40960x128, .f32⟩ : BufTy).Contents (Elt Ideal)) (dst : (⟨S4096x128, .f32⟩ : BufTy).Contents (Elt Ideal))
    (w : (⟨S256x128, .f32⟩ : BufTy).Contents (Elt Ideal)) (X : (⟨S4096x128, .f32⟩ : BufTy).Contents (Elt Ideal))
    (hX : ∀ (r : Fin 4096) (e : Fin 128), X (ix2 r e)
      = max (Cert.Spec.hopAt2 (fun r k => dif (ix2 r k)) (fun k j => src (ix2 k j)) (fun r j => dst (ix2 r j))
          (fun j e => kWa w (ix2 j e)) (fun j e => kWb w (ix2 j e)) r e) (Ideal.ofBits .f32 0x00000000#32)) :
    X = maximumf
      (Host.dotGeneral (F := Ideal) (φ₁ := .f32) (φ₂ := .f32) Cert.ReferenceIdeal.dot_S4096x256_S256x128_S4096x128_1_0_0_1_n_n none
        (concatenate Cert.ReferenceIdeal.S4096x256 1 [⟨Cert.ReferenceIdeal.S4096x128, Host.dotGeneral (F := Ideal) (φ₁ := .f32) (φ₂ := .f32) Cert.ReferenceIdeal.dot_S4096x40960_S40960x128_S4096x128_1_0_0_1_n_n none dif src⟩, ⟨Cert.ReferenceIdeal.S4096x128, dst⟩] Cert.ReferenceIdeal.Gen.concatenates_S4096x128_S4096x128_S4096x256_d1) w)
      (broadcastInDim Cert.ReferenceIdeal.S4096x128 ![] Cert.ReferenceIdeal.Gen.bcast_S_S4096x128 (constant (F := Ideal) Cert.ReferenceIdeal.S_ .f32 0x00000000#32)) := by
  funext j
  obtain ⟨r, e, rfl⟩ : ∃ (r : Fin 4096) (e : Fin 128), j = ix2 r e := ⟨j 0, j 1, eq_ix2 j⟩
  refine (hX r e).trans ?_
  refine Eq.trans ?_ (Cert.ReferenceIdeal.Hand.relu_apply _ r e).symm
  refine congrArg (fun t => max t (Ideal.ofBits .f32 0x00000000#32)) ?_
  refine Eq.trans ?_ (Cert.ReferenceIdeal.Hand.refHop2_apply dif src dst w r e).symm
  rw [Cert.Spec.hopAt_eq_hopAt2]
  simp only [kWa_apply, kWb_apply]

/-- An array that is, entry by entry, the hop over the two halves of `w` is the reference's product of
    [dif · src | dst] with `w`. -/
theorem hop1_bridge (dif : (⟨S1024x8192, .f32⟩ : BufTy).Contents (Elt Ideal)) (src : (⟨S8192x128, .f32⟩ : BufTy).Contents (Elt Ideal)) (dst : (⟨S1024x128, .f32⟩ : BufTy).Contents (Elt Ideal))
    (w : (⟨S256x128, .f32⟩ : BufTy).Contents (Elt Ideal)) (X : (⟨S1024x128, .f32⟩ : BufTy).Contents (Elt Ideal))
    (hX : ∀ (r : Fin 1024) (e : Fin 128), X (ix2 r e)
      = Cert.Spec.hopAt2 (fun r k => dif (ix2 r k)) (fun k j => src (ix2 k j)) (fun r j => dst (ix2 r j))
          (fun j e => kWa w (ix2 j e)) (fun j e => kWb w (ix2 j e)) r e) :
    X = Host.dotGeneral (F := Ideal) (φ₁ := .f32) (φ₂ := .f32) Cert.ReferenceIdeal.dot_S1024x256_S256x128_S1024x128_1_0_0_1_n_n none
        (concatenate Cert.ReferenceIdeal.S1024x256 1 [⟨Cert.ReferenceIdeal.S1024x128, Host.dotGeneral (F := Ideal) (φ₁ := .f32) (φ₂ := .f32) Cert.ReferenceIdeal.dot_S1024x8192_S8192x128_S1024x128_1_0_0_1_n_n none dif src⟩, ⟨Cert.ReferenceIdeal.S1024x128, dst⟩] Cert.ReferenceIdeal.Gen.concatenates_S1024x128_S1024x128_S1024x256_d1) w := by
  funext j
  obtain ⟨r, e, rfl⟩ : ∃ (r : Fin 1024) (e : Fin 128), j = ix2 r e := ⟨j 0, j 1, eq_ix2 j⟩
  refine (hX r e).trans ?_
  refine Eq.trans ?_ (Cert.ReferenceIdeal.Hand.refHop1_apply dif src dst w r e).symm
  rw [Cert.Spec.hopAt_eq_hopAt2]
  simp only [kWa_apply, kWb_apply]

/-! ## The two hops of the kernel program are the reference's -/

section Hops
variable (m : (ℓ : Loc nD τ sig) → Buf (Elt Ideal) ℓ) (c : Dev nD)

/-- The outer hop: what its region leaves in its output array is the reference's rectified hop. -/
theorem hop2_eq :
    outsK m 2 main_v23 c = Cert.ReferenceIdeal.ReadP.val_main_v24 (F := Ideal) (m ((c : Thread nD τ).loc main_arg0)) (m ((c : Thread nD τ).loc main_arg2)) (m ((c : Thread nD τ).loc main_arg4)) (m ((c : Thread nD τ).loc main_arg6)) (m ((c : Thread nD τ).loc main_arg7)) (m ((c : Thread nD τ).loc main_arg8)) := by
  have e6 : VE0 m c main_arg6 = (m ((c : Thread nD τ).loc main_arg6)) := V1_arg6 m c
  have e20 : VE0 m c main_v20 = kSrc2 (m ((c : Thread nD τ).loc main_arg0)) (m ((c : Thread nD τ).loc main_arg2)) (m ((c : Thread nD τ).loc main_arg7)) := V1_v20 m c
  have e13 : VE0 m c main_v13 = kDst2 (m ((c : Thread nD τ).loc main_arg0)) (m ((c : Thread nD τ).loc main_arg4)) (m ((c : Thread nD τ).loc main_arg7)) := V1_v13 m c
  have e21 : VE0 m c main_v21 = kWa (m ((c : Thread nD τ).loc main_arg8)) := V1_v21 m c
  have e22 : VE0 m c main_v22 = kWb (m ((c : Thread nD τ).loc main_arg8)) := V1_v22 m c
  refine (outsK_2 m c).trans ?_
  refine (hop2_bridge (m ((c : Thread nD τ).loc main_arg6)) (kSrc2 (m ((c : Thread nD τ).loc main_arg0)) (m ((c : Thread nD τ).loc main_arg2)) (m ((c : Thread nD τ).loc main_arg7))) (kDst2 (m ((c : Thread nD τ).loc main_arg0)) (m ((c : Thread nD τ).loc main_arg4)) (m ((c : Thread nD τ).loc main_arg7))) (m ((c : Thread nD τ).loc main_arg8)) _ (fun r e => ?_)).trans ?_
  · refine (hop0_value (VE0 m) c r e).trans ?_
    rw [e6, e20, e13, e21, e22]
  · rfl

/-- The inner hop: its operands are gathered from the outer hop's result, which is the reference's. -/
theorem hop1_eq :
    outsK m 4 main_v40 c = Cert.ReferenceIdeal.ReadP.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h2 : outs0 m 2 main_v23 c = Cert.ReferenceIdeal.ReadP.val_main_v24 (F := Ideal) (m ((c : Thread nD τ).loc main_arg0)) (m ((c : Thread nD τ).loc main_arg2)) (m ((c : Thread nD τ).loc main_arg4)) (m ((c : Thread nD τ).loc main_arg6)) (m ((c : Thread nD τ).loc main_arg7)) (m ((c : Thread nD τ).loc main_arg8)) := hop2_eq m c
  have e5 : VE1 m c main_arg5 = (m ((c : Thread nD τ).loc main_arg5)) := V3_arg5 m (outs0 m) c
  have e37 : VE1 m c main_v37 = kSrc1 (outs0 m 2 main_v23 c) (m ((c : Thread nD τ).loc main_arg1)) := V3_v37 m (outs0 m) c
  have e30 : VE1 m c main_v30 = kDst1 (outs0 m 2 main_v23 c) (m ((c : Thread nD τ).loc main_arg3)) := V3_v30 m (outs0 m) c
  have e38 : VE1 m c main_v38 = kWa (m ((c : Thread nD τ).loc main_arg9)) := V3_v38 m (outs0 m) c
  have e39 : VE1 m c main_v39 = kWb (m ((c : Thread nD τ).loc main_arg9)) := V3_v39 m (outs0 m) c
  refine (outsK_4 m c).trans ?_
  refine (hop1_bridge (m ((c : Thread nD τ).loc main_arg5)) (kSrc1 (outs0 m 2 main_v23 c) (m ((c : Thread nD τ).loc main_arg1))) (kDst1 (outs0 m 2 main_v23 c) (m ((c : Thread nD τ).loc main_arg3))) (m ((c : Thread nD τ).loc main_arg9)) _ (fun r e => ?_)).trans ?_
  · refine (hop1_value (VE1 m) c r e).trans ?_
    rw [e5, e37, e30, e38, e39]
  · rw [h2]
    rfl

end Hops

/-! ## The claim -/

set_option maxHeartbeats 4000000 in
/-- At the extended reals the kernel program and the reference end with equal results, arguments unchanged. -/
theorem algebraic : Cert.algebraic_KernelIdeal_ReferenceIdeal := by
  intro m ρ m' ρ' _ hagree
  refine ⟨fun c => Gen.V13 m (outsK m) c (Proc.devRef .tc main_v81), runKI m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14, h15, h16, h17, h18, h19⟩ := hagree c
  unfold Cert.ReferenceIdeal.ValueP.res_main_v82
  rw [h0, h1, h2, h3, h4, h5, h6, h7, h8, h9, h10, h11, h12, h13, h14, h15, h16, h17, h18, h19]
  rw [ref_tail, ← hop1_eq m c]
  exact (V13_v81 m (outsK m) c).symm

end Cert.KernelIdeal.Hand

end
-- ==== Proof.lean ====
/-
  The proof of `Cert.Claim`: a two-hop neighbourhood aggregation, the kernel program against the reference, at the
  ideal instance.

  Each hop takes per-row weights `dif`, source rows `src`, the rows' own features `dst` and a weight matrix `w` of
  twice the feature width. The reference forms `concat([dif · src, dst]) · w`. The kernel accumulates `dif · src` over
  the column blocks of `dif` — the accumulator set to zero at the first block, increased by one block's product at every
  block — and at the last block adds the products of the accumulated rows and of `dst` with the upper and the lower half
  of `w`. On the extended reals the two are equal element by element by regrouping finite sums: a sum over all columns
  is the sum over the blocks of the sums within a block, and a product with `w` over the concatenated width is the sum of
  the products with its halves. No finiteness of the entries is used.

  The frames. Each kernel region's body is run case by case — first, middle and last column block —, the accumulator
  carried from one grid point to the next as the region's invariant and the output block written back after the last
  block of a row of blocks only. The two regions are chained over the program's stretches of host operations, every
  unscoped buffer held at a valuation folded from the launch contents, so that the run ends with the result buffer at
  the last valuation and every argument as launched. The reference's run is read back the same way, operation by
  operation. The value claim pairs the two final valuations through the hop identity above, applied twice.
-/
import proofs.«123040_j36550171689307_2_alg».proof.Defs
import proofs.«123040_j36550171689307_2_alg».proof.Proof.Gen.Kernel
import proofs.«123040_j36550171689307_2_alg».proof.Proof.Gen.KernelIdeal
import proofs.«123040_j36550171689307_2_alg».proof.Proof.Gen.ReferenceIdeal
import proofs.«123040_j36550171689307_2_alg».proof.Proof.Gen.Pre_finite_inputs
import proofs.«123040_j36550171689307_2_alg».proof.Proof.K.Frame
import proofs.«123040_j36550171689307_2_alg».proof.Proof.KI.Frame
import proofs.«123040_j36550171689307_2_alg».proof.Proof.RefRunP
import proofs.«123040_j36550171689307_2_alg».proof.Proof.Val.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Hand.frameK m ρ,
  fun m ρ _ => Cert.KernelIdeal.Hand.frameKI m ρ,
  fun m ρ _ => (θ_run Cert.ReferenceIdeal.defs _ _).mono (fun _ h c => (h c).2) (Cert.ReferenceIdeal.ValueP.run (F := Ideal) m ρ),
  trivial,
  Cert.KernelIdeal.Hand.algebraic⟩

end Cert.Proof

end
